-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v88) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v129) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : IVec S50000 32) (main_arg3 : FVec F S64x64 .f32) (main_arg4 : FVec F S64 .f32) (main_arg5 : FVec F S64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x64 : Shape := ⟨2, ![5000, 64]⟩
abbrev S800000x64 : Shape := ⟨2, ![800000, 64]⟩
abbrev S1x64 : Shape := ⟨2, ![1, 64]⟩
abbrev S5000x1 : Shape := ⟨2, ![5000, 1]⟩
abbrev S64x1 : Shape := ⟨2, ![64, 1]⟩

abbrev nBuf : Space → Nat
  | .hbm => 120
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000, .f32⟩
  | .hbm, ⟨43, _⟩ => ⟨S800000, .f32⟩
  | .hbm, ⟨44, _⟩ => ⟨S50000x64, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .f32⟩
  | .hbm, ⟨54, _⟩ => ⟨S800000x1, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S1x64, .f32⟩
  | .hbm, ⟨62, _⟩ => ⟨S50000x64, .f32⟩
  | .hbm, ⟨63, _⟩ => ⟨S_, .f32⟩
  | .hbm, ⟨64, _⟩ => ⟨S64, .f32⟩
  | .hbm, ⟨65, _⟩ => ⟨S1x64, .f32⟩
  | .hbm, ⟨66, _⟩ => ⟨S_, .f32⟩
  | .hbm, ⟨67, _⟩ => ⟨S1x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S64, .f32⟩
  | .hbm, ⟨74, _⟩ => ⟨S1x64, .f32⟩
  | .hbm, ⟨75, _⟩ => ⟨S_, .f32⟩
  | .hbm, ⟨76, _⟩ => ⟨S1x64, .f32⟩
  | .hbm, ⟨77, _⟩ => ⟨S1x64, .f32⟩
  | .hbm, ⟨78, _⟩ => ⟨S_, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x64, .f32⟩
  | .hbm, ⟨95, _⟩ => ⟨S800000x1, .f32⟩
  | .hbm, ⟨96, _⟩ => ⟨S800000x64, .f32⟩
  | .hbm, ⟨97, _⟩ => ⟨S800000x64, .f32⟩
  | .hbm, ⟨98, _⟩ => ⟨S_, .f32⟩
  | .hbm, ⟨99, _⟩ => ⟨S50000x64, .f32⟩
  | .hbm, ⟨100, _⟩ => ⟨S800000x1, .i32⟩
  | .hbm, ⟨101, _⟩ => ⟨S50000x64, .f32⟩
  | .hbm, ⟨102, _⟩ => ⟨S1x64, .f32⟩
  | .hbm, ⟨103, _⟩ => ⟨S50000x64, .f32⟩
  | .hbm, ⟨104, _⟩ => ⟨S_, .f32⟩
  | .hbm, ⟨105, _⟩ => ⟨S64x64, .f32⟩
  | .hbm, ⟨106, _⟩ => ⟨S50000x1, .i32⟩
  | .hbm, ⟨107, _⟩ => ⟨S64x64, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S64, .f32⟩
  | .hbm, ⟨112, _⟩ => ⟨S50000x1, .i32⟩
  | .hbm, ⟨113, _⟩ => ⟨S64, .f32⟩
  | .hbm, ⟨114, _⟩ => ⟨S_, .f32⟩
  | .hbm, ⟨115, _⟩ => ⟨S64, .f32⟩
  | .hbm, ⟨116, _⟩ => ⟨S64, .f32⟩
  | .hbm, ⟨117, _⟩ => ⟨S64x1, .f32⟩
  | .hbm, ⟨118, _⟩ => ⟨S64x64, .f32⟩
  | .hbm, ⟨119, _⟩ => ⟨S64x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_13 : Ref sig .tc := ⟨.hbm, 86, rfl⟩
abbrev main_v62 : Ref sig .tc := ⟨.hbm, 87, rfl⟩
abbrev main_v63 : Ref sig .tc := ⟨.hbm, 88, rfl⟩
abbrev main_c_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_16 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_cst_18 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_19 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  reducesTo_S50000x64_S64_d0 : S50000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S64x1 : Shape := ⟨2, ![64, 1]⟩

abbrev nBuf : Space → Nat
  | .hbm => 182
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000x64, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x1, .f32⟩
  | 53 => ⟨S800000x64, .f32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000, .f32⟩
  | 60 => ⟨S50000x1, .f32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S50000x64, .f32⟩
  | 74 => ⟨S50000x64, .f32⟩
  | 75 => ⟨S50000x64, .f32⟩
  | 76 => ⟨S_, .f32⟩
  | 77 => ⟨S64, .f32⟩
  | 78 => ⟨S_, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .i1⟩
  | 100 => ⟨S_, .f32⟩
  | 101 => ⟨S50000x64, .f32⟩
  | 102 => ⟨S50000x64, .i1⟩
  | 103 => ⟨S_, .f32⟩
  | 104 => ⟨S_, .f32⟩
  | 105 => ⟨S50000x64, .f32⟩
  | 106 => ⟨S50000x64, .f32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S50000x64, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S50000, .f32⟩
  | 121 => ⟨S50000, .f32⟩
  | 122 => ⟨S50000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000, .f32⟩
  | 13 => ⟨S800000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S800000x1, .f32⟩
  | 24 => ⟨S800000x64, .f32⟩
  | 25 => ⟨S800000x64, .f32⟩
  | 26 => ⟨S_, .f32⟩
  | 27 => ⟨S50000x64, .f32⟩
  | 28 => ⟨S800000x1, .i32⟩
  | 29 => ⟨S50000x64, .f32⟩
  | 30 => ⟨S50000, .f32⟩
  | 31 => ⟨S50000x1, .f32⟩
  | 32 => ⟨S50000x64, .f32⟩
  | 33 => ⟨S50000x64, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S64x64, .f32⟩
  | 40 => ⟨S50000x1, .i32⟩
  | 41 => ⟨S64x64, .f32⟩
  | 42 => ⟨S_, .f32⟩
  | 43 => ⟨S50000, .f32⟩
  | 44 => ⟨S_, .f32⟩
  | 45 => ⟨S64, .f32⟩
  | 46 => ⟨S50000x1, .i32⟩
  | 47 => ⟨S64, .f32⟩
  | 48 => ⟨S_, .f32⟩
  | 49 => ⟨S64, .f32⟩
  | 50 => ⟨S64, .f32⟩
  | 51 => ⟨S64x1, .f32⟩
  | 52 => ⟨S64x64, .f32⟩
  | 53 => ⟨S64x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call0_cst : Ref sig .tc := ⟨.hbm, 97, rfl⟩
abbrev main_call0_v0 : Ref sig .tc := ⟨.hbm, 98, rfl⟩
abbrev main_call0_v1 : Ref sig .tc := ⟨.hbm, 99, rfl⟩
abbrev main_call0_cst_0 : Ref sig .tc := ⟨.hbm, 100, rfl⟩
abbrev main_call0_v2 : Ref sig .tc := ⟨.hbm, 101, rfl⟩
abbrev main_call0_v3 : Ref sig .tc := ⟨.hbm, 102, rfl⟩
abbrev main_call0_cst_1 : Ref sig .tc := ⟨.hbm, 103, rfl⟩
abbrev main_call0_call0_v0 : Ref sig .tc := ⟨.hbm, 104, rfl⟩
abbrev main_call0_call0_v1 : Ref sig .tc := ⟨.hbm, 105, rfl⟩
abbrev main_call0_v4 : Ref sig .tc := ⟨.hbm, 106, rfl⟩
abbrev main_call0_v5 : Ref sig .tc := ⟨.hbm, 107, rfl⟩
abbrev main_call0_cst_2 : Ref sig .tc := ⟨.hbm, 108, rfl⟩
abbrev main_call0_v6 : Ref sig .tc := ⟨.hbm, 109, rfl⟩
abbrev main_call0_v7 : Ref sig .tc := ⟨.hbm, 110, rfl⟩
abbrev main_v73 : Ref sig .tc := ⟨.hbm, 111, rfl⟩
abbrev main_v74 : Ref sig .tc := ⟨.hbm, 112, rfl⟩
abbrev main_cst_13 : Ref sig .tc := ⟨.hbm, 113, rfl⟩
abbrev main_v75 : Ref sig .tc := ⟨.hbm, 114, rfl⟩
abbrev main_cst_14 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_18 : Ref sig .tc := ⟨.hbm, 132, rfl⟩
abbrev main_v89 : Ref sig .tc := ⟨.hbm, 133, rfl⟩
abbrev main_v90 : Ref sig .tc := ⟨.hbm, 134, rfl⟩
abbrev main_c_19 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_c_20 : Ref sig .tc := ⟨.hbm, 142, rfl⟩
abbrev main_v97 : Ref sig .tc := ⟨.hbm, 143, rfl⟩
abbrev main_v98 : Ref sig .tc := ⟨.hbm, 144, rfl⟩
abbrev main_c_21 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_22 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_23 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_24 : Ref sig .tc := ⟨.hbm, 170, rfl⟩
abbrev main_v121 : Ref sig .tc := ⟨.hbm, 171, rfl⟩
abbrev main_cst_25 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_26 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KRun.lean ====
/-
  The kernel program's run with its two results named.

  The program is five tiled regions among stretches of host operations. Its buffers' contents at each boundary are a
  fold from the launch memory: a host stretch applies its operations, a region leaves each of its arrays at what the
  write-backs of its blocks leave and every other buffer as it was. Every weakly fair execution terminates with every
  unscoped buffer at the last boundary's contents; here that is read at the two result buffers and at the nine
  argument buffers (which no operation and no region writes, so they end as launched).
-/
import proofs.«106839_j88029649698964_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the node-feature result and the pooled result end at the last boundary's
    contents of their buffers, the arguments as launched. -/
theorem run : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.KRun

end
-- ==== Proof.RefSpec.lean ====
/-
  The reference's stages as functions of arrays.

  The reference is a two-layer graph convolution with a batch normalisation and an ELU between the
  layers, followed by a mean over the nodes of each graph of the batch. Every stage below is written
  with the host operations the reference's @main applies, in its order and at its shape records, so
  that the fold of @main's operations over a valuation is these functions of the argument contents
  by unfolding alone.
-/
import proofs.«106839_j88029649698964_1_alg».proof.ReferenceIdeal

noncomputable section

namespace Cert.ReferenceIdeal.Spec

open Cert.ReferenceIdeal Idealize.ShloMosaic

variable {F : FTy → Type} [FloatOps F] [Facts]
open Facts₀ Facts

/-- `l · r`: entry `(n, j)` is the sum over the 64 shared coordinates `k` of `l (n, k) * r (k, j)`. -/
def dot (l : (⟨S50000x64, .f32⟩ : BufTy).Contents (Elt F)) (r : (⟨S64x64, .f32⟩ : BufTy).Contents (Elt F)) :
    (⟨S50000x64, .f32⟩ : BufTy).Contents (Elt F) :=
  Host.dotGeneral dot_S50000x64_S64x64_S50000x64_1_0_0_1_n_n none l r

/-- The edges' source nodes: row 0 of the edge table, as a vector over the 800000 edges. -/
def src (ei : (⟨S2x800000, .i32⟩ : BufTy).Contents (Elt F)) : (⟨S800000, .i32⟩ : BufTy).Contents (Elt F) :=
  shapeCast S800000 (extractStridedSlice S1x800000 ![0, 0] ei slices_S2x800000_S1x800000_0_0) shapeCasts_S1x800000_S800000

/-- The edges' destination nodes: row 1 of the edge table, as a vector over the 800000 edges. -/
def dst (ei : (⟨S2x800000, .i32⟩ : BufTy).Contents (Elt F)) : (⟨S800000, .i32⟩ : BufTy).Contents (Elt F) :=
  shapeCast S800000 (extractStridedSlice S1x800000 ![1, 0] ei slices_S2x800000_S1x800000_1_0) shapeCasts_S1x800000_S800000

/-- A node index read the way an array index is: a negative one counts from the end, so 50000 is added to it. -/
def wrap (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- An index vector over the edges as the one-column index table a gather or a scatter reads. -/
def col (i : (⟨S800000, .i32⟩ : BufTy).Contents (Elt F)) : (⟨S800000x1, .i32⟩ : BufTy).Contents (Elt F) :=
  broadcastInDim S800000x1 ![0] bcast_S800000_S800000x1_0 i

/-- A vector over the 64 features repeated down the 50000 rows. -/
def rowb (v : (⟨S64, .f32⟩ : BufTy).Contents (Elt F)) : (⟨S50000x64, .f32⟩ : BufTy).Contents (Elt F) :=
  broadcastInDim S50000x64 ![0, 1] bcast_S1x64_S50000x64_0_1 (broadcastInDim S1x64 ![1] bcast_S64_S1x64_1 v)

/-- The degree normaliser: per node, one over the square root of (the number of edges whose destination it is, plus
    one): the sum over the edges of a one added at the edge's destination row, plus one, under `rsqrt`. -/
def dinv (ei : (⟨S2x800000, .i32⟩ : BufTy).Contents (Elt F)) : (⟨S50000, .f32⟩ : BufTy).Contents (Elt F) :=
  Host.rsqrt
    (addf
      (Host.scatterAdd scatter_S50000_S800000x1_S800000_n_0_0_1
        (broadcastInDim S50000 ![] bcast_S_S50000 (constant S_ .f32 0x00000000#32))
        (col (dst ei))
        (broadcastInDim S800000 ![] bcast_S_S800000 (constant S_ .f32 0x3F800000#32)))
      (broadcastInDim S50000 ![] bcast_S_S50000 (constant S_ .f32 0x3F800000#32)))

/-- The edge weights: per edge, the normaliser at its source times the normaliser at its destination. -/
def coef (ei : (⟨S2x800000, .i32⟩ : BufTy).Contents (Elt F)) : (⟨S800000, .f32⟩ : BufTy).Contents (Elt F) :=
  mulf (Host.gather gather_S50000_S800000x1_S800000_n_0_n_n_0_1_1 (dinv ei) (col (wrap (src ei))))
    (Host.gather gather_S50000_S800000x1_S800000_n_0_n_n_0_1_1 (dinv ei) (col (wrap (dst ei))))

/-- One graph convolution of the node features `h`: per node, the sum over the edges arriving at it of the source
    node's row times the edge's weight, plus the node's own row times its squared normaliser (the self loop), plus
    the bias row. -/
def conv (h : (⟨S50000x64, .f32⟩ : BufTy).Contents (Elt F)) (ei : (⟨S2x800000, .i32⟩ : BufTy).Contents (Elt F)) (b : (⟨S64, .f32⟩ : BufTy).Contents (Elt F)) :
    (⟨S50000x64, .f32⟩ : BufTy).Contents (Elt F) :=
  addf
    (addf
      (Host.scatterAdd scatter_S50000x64_S800000x1_S800000x64_1_0_0_1
        (broadcastInDim S50000x64 ![] bcast_S_S50000x64 (constant S_ .f32 0x00000000#32))
        (col (dst ei))
        (mulf (Host.gather gather_S50000x64_S800000x1_S800000x64_1_0_n_n_0_1_164 h (col (wrap (src ei))))
          (broadcastInDim S800000x64 ![0, 1] bcast_S800000x1_S800000x64_0_1
            (broadcastInDim S800000x1 ![0] bcast_S800000_S800000x1_0 (coef ei)))))
      (mulf h
        (broadcastInDim S50000x64 ![0, 1] bcast_S50000x1_S50000x64_0_1
          (broadcastInDim S50000x1 ![0] bcast_S50000_S50000x1_0 (mulf (dinv ei) (dinv ei))))))
    (rowb b)

/-- The mean of each feature over the 50000 rows: the column sums divided by 50000. -/
def mean (h : (⟨S50000x64, .f32⟩ : BufTy).Contents (Elt F)) : (⟨S64, .f32⟩ : BufTy).Contents (Elt F) :=
  Host.divf (Host.reduceAdd h (constant S_ .f32 0x00000000#32) reducesTo_S50000x64_S64_d0 h_S_)
    (broadcastInDim S64 ![] bcast_S_S64 (constant S_ .f32 0x47435000#32))

/-- The variance of each feature over the 50000 rows: the mean of the squared deviations from the mean. -/
def var (h : (⟨S50000x64, .f32⟩ : BufTy).Contents (Elt F)) : (⟨S64, .f32⟩ : BufTy).Contents (Elt F) :=
  Host.divf
    (Host.reduceAdd (mulf (subf h (rowb (mean h))) (subf h (rowb (mean h)))) (constant S_ .f32 0x00000000#32)
      reducesTo_S50000x64_S64_d0 h_S_)
    (broadcastInDim S64 ![] bcast_S_S64 (constant S_ .f32 0x47435000#32))

/-- Batch normalisation over the rows: each feature centred at its mean, scaled by one over the square root of
    (its variance plus 1e-5), then by `gamma`, and shifted by `beta`. -/
def bnorm (h : (⟨S50000x64, .f32⟩ : BufTy).Contents (Elt F)) (gamma beta : (⟨S64, .f32⟩ : BufTy).Contents (Elt F)) :
    (⟨S50000x64, .f32⟩ : BufTy).Contents (Elt F) :=
  addf
    (mulf
      (mulf (subf h (rowb (mean h)))
        (rowb (Host.rsqrt (addf (var h) (broadcastInDim S64 ![] bcast_S_S64 (constant S_ .f32 0x3727C5AC#32))))))
      (rowb gamma))
    (rowb beta)

/-- ELU, elementwise: `y` where `y > 0`, else `exp y' - 1` where `y'` is `y` with its positive entries put to
    zero first (so the exponential is only taken of non-positive numbers). -/
def elu (y : (⟨S50000x64, .f32⟩ : BufTy).Contents (Elt F)) : (⟨S50000x64, .f32⟩ : BufTy).Contents (Elt F) :=
  select (cmpf .ogt y (broadcastInDim S50000x64 ![] bcast_S_S50000x64 (constant S_ .f32 0x00000000#32))) y
    (mulf (broadcastInDim S50000x64 ![] bcast_S_S50000x64 (constant S_ .f32 0x3F800000#32))
      (Host.expm1
        (select (cmpf .ogt y (broadcastInDim S50000x64 ![] bcast_S_S50000x64 (constant S_ .f32 0x00000000#32)))
          (broadcastInDim S50000x64 ![] bcast_S_S50000x64 (constant S_ .f32 0x00000000#32)) y)))

/-- The mean over each graph's nodes: per graph `g` of the batch, the sum of the rows of `o` whose node belongs to
    `g`, divided by the number of such nodes or by one if there is none. -/
def pool (o : (⟨S50000x64, .f32⟩ : BufTy).Contents (Elt F)) (batch : (⟨S50000, .i32⟩ : BufTy).Contents (Elt F)) : (⟨S64x64, .f32⟩ : BufTy).Contents (Elt F) :=
  Host.divf
    (Host.scatterAdd scatter_S64x64_S50000x1_S50000x64_1_0_0_1
      (broadcastInDim S64x64 ![] bcast_S_S64x64 (constant S_ .f32 0x00000000#32))
      (broadcastInDim S50000x1 ![0] bcast_S50000_S50000x1_0 batch) o)
    (broadcastInDim S64x64 ![0, 1] bcast_S64x1_S64x64_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 batch)
            (broadcastInDim S50000 ![] bcast_S_S50000 (constant S_ .f32 0x3F800000#32)))
          (broadcastInDim S64 ![] bcast_S_S64 (constant S_ .f32 0x3F800000#32)))))

/-- The node output: convolution, batch normalisation, ELU, convolution. -/
def out117 (x : (⟨S50000x64, .f32⟩ : BufTy).Contents (Elt F)) (ei : (⟨S2x800000, .i32⟩ : BufTy).Contents (Elt F))
    (W1 : (⟨S64x64, .f32⟩ : BufTy).Contents (Elt F)) (b1 gamma beta : (⟨S64, .f32⟩ : BufTy).Contents (Elt F))
    (W2 : (⟨S64x64, .f32⟩ : BufTy).Contents (Elt F)) (b2 : (⟨S64, .f32⟩ : BufTy).Contents (Elt F)) : (⟨S50000x64, .f32⟩ : BufTy).Contents (Elt F) :=
  conv (dot (elu (bnorm (conv (dot x W1) ei b1) gamma beta)) W2) ei b2

/-- The graph output: the node output averaged over each graph's nodes. -/
def out129 (x : (⟨S50000x64, .f32⟩ : BufTy).Contents (Elt F)) (ei : (⟨S2x800000, .i32⟩ : BufTy).Contents (Elt F)) (batch : (⟨S50000, .i32⟩ : BufTy).Contents (Elt F))
    (W1 : (⟨S64x64, .f32⟩ : BufTy).Contents (Elt F)) (b1 gamma beta : (⟨S64, .f32⟩ : BufTy).Contents (Elt F))
    (W2 : (⟨S64x64, .f32⟩ : BufTy).Contents (Elt F)) (b2 : (⟨S64, .f32⟩ : BufTy).Contents (Elt F)) : (⟨S64x64, .f32⟩ : BufTy).Contents (Elt F) :=
  pool (out117 x ei W1 b1 gamma beta W2 b2) batch

end Cert.ReferenceIdeal.Spec

end
-- ==== Proof.KSpecHost.lean ====
/-
  The host-side stages of the kernel program, over whole arrays.

  The stretches of host operations between the tiled regions compute: the messages of a graph convolution (rows of the
  features gathered at each edge's source, weighted per edge, summed at each edge's destination); the column means of an
  array and one over the square root of (its column variances plus 1e-5), both kept as rows [1, 64]; the squared degree
  normaliser as a column [50000, 1]; and a vector over the 64 features recast as a row. Each is written with the
  operations the program itself applies.
-/
import proofs.«106839_j88029649698964_1_alg».proof.Proof.Gen.KernelIdeal
import proofs.«106839_j88029649698964_1_alg».proof.Proof.Gen.ReferenceIdeal
import proofs.«106839_j88029649698964_1_alg».proof.Proof.RefSpec

noncomputable section

namespace Cert.KernelIdeal.KSpec

open Cert.KernelIdeal Idealize.ShloMosaic Idealize.SL.Sem
open Facts₀ Facts

variable {F : FTy → Type} [FloatOps F]

/-- A node index read the way an array index is: 50000 is added to a negative one. -/
def wrapIdx (i : (⟨S800000, .i32⟩ : BufTy).Contents (Elt F)) : (⟨S800000, .i32⟩ : BufTy).Contents (Elt F) :=
  select (cmpi .slt i (broadcastInDim S800000 ![] bcast_S_S800000 (constantI S_ 32 0#32)))
    (addi i (broadcastInDim S800000 ![] bcast_S_S800000 (constantI S_ 32 50000#32))) i

/-- The messages: per node, the sum over the edges arriving at it (destination `d`) of the source node's (`s`) row of
    `h` times the edge's weight `cf`. -/
def aggr (h : (⟨S50000x64, .f32⟩ : BufTy).Contents (Elt F)) (s d : (⟨S800000, .i32⟩ : BufTy).Contents (Elt F)) (cf : (⟨S800000, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant (F := F) S_ .f32 0x00000000#32))
    (broadcastInDim S800000x1 ![0] bcast_S800000_S800000x1_0 d)
    (mulf (Host.gather gather_S50000x64_S800000x1_S800000x64_1_0_n_n_0_1_164 h
        (broadcastInDim S800000x1 ![0] bcast_S800000_S800000x1_0 (wrapIdx s)))
      (broadcastInDim S800000x64 ![0, 1] bcast_S800000x1_S800000x64_0_1
        (broadcastInDim S800000x1 ![0] bcast_S800000_S800000x1_0 cf)))

/-- The column means of `h`, kept as a row: the column sums placed as a row, divided by 50000. -/
def meanRow (h : (⟨S50000x64, .f32⟩ : BufTy).Contents (Elt F)) : (⟨S1x64, .f32⟩ : BufTy).Contents (Elt F) :=
  Host.divf
    (broadcastInDim S1x64 ![1] bcast_S64_S1x64_1
      (Host.reduceAdd h (constant (F := F) S_ .f32 0x00000000#32) reducesTo_S50000x64_S64_d0 h_S_))
    (broadcastInDim S1x64 ![] bcast_S_S1x64 (constant (F := F) S_ .f32 0x47435000#32))

/-- The deviations of `h` from its column means. -/
def centred (h : (⟨S50000x64, .f32⟩ : BufTy).Contents (Elt F)) : (⟨S50000x64, .f32⟩ : BufTy).Contents (Elt F) :=
  subf h (broadcastInDim S50000x64 ![0, 1] bcast_S1x64_S50000x64_0_1 (meanRow h))

/-- One over the square root of (the column variances plus 1e-5), kept as a row. -/
def rstdRow (h : (⟨S50000x64, .f32⟩ : BufTy).Contents (Elt F)) : (⟨S1x64, .f32⟩ : BufTy).Contents (Elt F) :=
  Host.rsqrt
    (addf
      (Host.divf
        (broadcastInDim S1x64 ![1] bcast_S64_S1x64_1
          (Host.reduceAdd (mulf (centred h) (centred h)) (constant (F := F) S_ .f32 0x00000000#32)
            reducesTo_S50000x64_S64_d0 h_S_))
        (broadcastInDim S1x64 ![] bcast_S_S1x64 (constant (F := F) S_ .f32 0x47435000#32)))
      (broadcastInDim S1x64 ![] bcast_S_S1x64 (constant (F := F) S_ .f32 0x3727C5AC#32)))

/-- The squared degree normaliser as a column, as the combining regions read it. -/
def selfCol (ei : (⟨S2x800000, .i32⟩ : BufTy).Contents (Elt F)) : (⟨S50000x1, .f32⟩ : BufTy).Contents (Elt F) :=
  shapeCast S50000x1 (mulf (Cert.ReferenceIdeal.Spec.dinv (F := F) ei) (Cert.ReferenceIdeal.Spec.dinv (F := F) ei))
    shapeCasts_S50000_S50000x1

/-- A vector over the 64 features as a row. -/
def asRow (b : (⟨S64, .f32⟩ : BufTy).Contents (Elt F)) : (⟨S1x64, .f32⟩ : BufTy).Contents (Elt F) := shapeCast S1x64 b shapeCasts_S64_S1x64

end Cert.KernelIdeal.KSpec

end
-- ==== Proof.LibDotIndex.lean ====
/-
  The contraction index of a rows-by-columns product, made an ordinary column index.

  For operands of shapes [A, K] and [K, B] whose dimension numbers say "no batch axes, the left operand's axis 0 and
  the right operand's axis 1 are kept, axis 1 of the left is contracted against axis 0 of the right", the contraction's
  own index set has one axis of extent K. Summing over it is summing over `Fin K`: at the result entry (p, q) and the
  contraction position k the left operand is read at (p, k) and the right operand at (k, q).
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- The left operand is read at row p of the result entry and at the contraction position. -/
theorem lhs_at (hlb : d.lhsBatch = []) (hln : d.lhsNonContracting = [0]) (hlc : d.lhsContracting = [1])
    (hr : d.contr.rank = 1) (hs : d.contr.size ⟨0, by omega⟩ = K) (p : Fin A) (q : Fin B) (k : Fin K) :
    d.lhsIdx (ix2 p q) ((contrEquiv1 d K hr hs).symm k) = ix2 p k := by
  funext a
  apply Fin.ext
  match a with
  | ⟨0, _⟩ =>
    show (d.lhsIdx (ix2 p q) ((contrEquiv1 d K hr hs).symm k) 0).val = p.val
    have key : ∀ (n : Nat) (h : n < (⟨2, ![A, B]⟩ : Shape).rank), n = 0 →
        ((ix2 p q : (⟨2, ![A, B]⟩ : Shape).Idx) ⟨n, h⟩).val = p.val := by
      intro n h e; subst e; rfl
    unfold DotDims.lhsIdx
    rw [dif_neg (by simp [hlb]), dif_pos (by simp [hln])]
    simp only [Fin.val_cast]
    exact key _ _ (by simp [hlb, hln])
  | ⟨1, _⟩ =>
    show (d.lhsIdx (ix2 p q) ((contrEquiv1 d K hr hs).symm k) 1).val = k.val
    rw [d.lhsIdx_val_of_single hlc]
    exact contrEquiv1_symm_val d K hr hs k

/-- The right operand is read at the contraction position and at column q of the result entry. -/
theorem rhs_at (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin A) (q : Fin B) (k : Fin K) :
    d.rhsIdx (ix2 p q) ((contrEquiv1 d K hr hs).symm k) = ix2 k q := by
  funext a
  apply Fin.ext
  match a with
  | ⟨0, _⟩ =>
    show (d.rhsIdx (ix2 p q) ((contrEquiv1 d K hr hs).symm k) 0).val = k.val
    rw [d.rhsIdx_val_of_single hrc]
    exact contrEquiv1_symm_val d K hr hs k
  | ⟨1, _⟩ =>
    show (d.rhsIdx (ix2 p q) ((contrEquiv1 d K hr hs).symm k) 1).val = q.val
    have key : ∀ (n : Nat) (h : n < (⟨2, ![A, B]⟩ : Shape).rank), n = 1 →
        ((ix2 p q : (⟨2, ![A, B]⟩ : Shape).Idx) ⟨n, h⟩).val = q.val := by
      intro n h e; subst e; rfl
    unfold DotDims.rhsIdx
    rw [dif_neg (by simp [hrb]), dif_pos (by simp [hrn])]
    simp only [Fin.val_cast]
    exact key _ _ (by simp [hlb, hln, hrn])

/-- The sum over the contraction's index set is the sum over the columns of the left operand. -/
theorem sum_eq {φ₁ φ₂ : FTy}
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    (∑ k : d.contr.Idx, (x (d.lhsIdx (ix2 p q) k) : EReal) * (y (d.rhsIdx (ix2 p q) k) : EReal))
      = ∑ k : Fin K, (x (ix2 p k) : EReal) * (y (ix2 k q) : EReal) := by
  rw [← Equiv.sum_comp (contrEquiv1 d K hr hs).symm]
  refine Finset.sum_congr rfl fun k _ => ?_
  rw [lhs_at d hlb hln hlc hr hs p q k, rhs_at d hlb hln hrb hrn hrc hr hs p q k]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«106839_j88029649698964_1_alg».proof.Proof.LibDotIndex

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.BlocksDot.lean ====
/-
  The two matrix-product regions, from blocks to arrays.

  Each of the two regions multiplies a [50000, 64] array by a [64, 64] array, ten row blocks of 5000 rows at a time:
  at grid point t the body loads rows 5000 t … 5000 t + 4999 and the whole weight matrix, forms the block's product into
  a zero accumulator (the roundings to the narrower float format on the way in are the identity at the exact values) and
  stores it as block t of the result. Entry (p, q) of the block is the sum over k of row 5000 t + p of the left array
  against column q of the weights, which is entry (5000 t + p, q) of the product of the whole arrays; the ten blocks
  fill the result, so the result array ends holding that product.
-/
import proofs.«106839_j88029649698964_1_alg».proof.Proof.Gen.KernelIdeal.Frame
import proofs.«106839_j88029649698964_1_alg».proof.Proof.LibDotSums
import Idealize.ShloMosaic.Lib.Pipeline.Value
import Idealize.ShloMosaic.Lib.ValueIdx

set_option maxRecDepth 16384

open scoped BigOperators

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product of a [50000, 64] array and a [64, 64] array, entry by entry. -/
def rowsByCols (x : FVec Ideal S50000x64 .f32) (w : FVec Ideal S64x64 .f32) : FVec Ideal S50000x64 .f32 :=
  fun i => ∑ k : Fin 64, x (ix2 (i 0) k) * w (ix2 k (i 1))

theorem hz : (![0, 0] : Fin 2 → Nat) = fun _ => 0 := funext fun a => by fin_cases a <;> rfl

variable (V : (c : Dev nD) → (b : Ref sig .tc) → Buf (Elt Ideal) ((c : Thread nD τ).loc b))

/-! ## Region 0: rows of `main_arg0` against `main_arg3` -/

/-- The printed index maps of region 0, decided over its ten grid points: the row-block windows sit at block row `t`
    and block column 0, the weights' window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's payload at an entry of the block: the block's row against the weights' column. -/
theorem pay0_apply (x0 : Vec Ideal S5000x64 .f32) (x1 : Vec Ideal S64x64 .f32) (p : Fin 5000) (q : Fin 64) :
    k0_pay1 x0 x1 (ix2 p q) = ∑ k : Fin 64, x0 (ix2 p k) * x1 (ix2 k q) := by
  unfold k0_pay1
  exact Cert.DotSums.matmul_zero_ix2 dot_S5000x64_S64x64_S5000x64_1_0_0_1_n_n none rfl rfl rfl rfl rfl rfl rfl rfl _ _ p q

/-- What point `t` writes back is block `t` of the whole-array product. -/
theorem flushed0 (c : Dev nD) (t : Fin cfg0.N) :
    (dat0 (F := Ideal) V c).flushed 2 t
      = ((cfg0.win 2).blk t).view.read (Elt Ideal) (rowsByCols (V c main_arg0) (V c main_arg3)) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts0 t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = rowsByCols (V c main_arg0) (V c main_arg3) (((cfg0.win 2).blk t).view.emb (ix2 p q))
  rw [pay0_apply]
  unfold rowsByCols
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  have ea : iblk0 V c 0 t (ix2 p k) = V c main_arg0 (ix2 ((((cfg0.win 2).blk t).view.emb (ix2 p q)) 0) k) :=
    congrArg (V c main_arg0) h0
  have eb : iblk0 V c 1 t (ix2 k q) = V c main_arg3 (ix2 k ((((cfg0.win 2).blk t).view.emb (ix2 p q)) 1)) :=
    congrArg (V c main_arg3) h1
  rw [ea, eb]

/-- An index of the result array is in point `t`'s block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- The ten row blocks fill the result array: row `r` is in block `r / 5000`. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  refine ⟨⟨(i 0).val / 5000, by show (i 0).val / 5000 < grid0.N; omega⟩, flush0_2 _, ?_⟩
  rw [mem_blk0]
  obtain ⟨e0, e1, e2, e3, e4, e5⟩ := idx_facts0 ⟨(i 0).val / 5000, by show (i 0).val / 5000 < grid0.N; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- After region 0 its result array holds the whole-array product of the two arrays it entered with. -/
theorem final0 (c : Dev nD) :
    (dat0 (F := Ideal) V c).arrAt 2 cfg0.N = rowsByCols (V c main_arg0) (V c main_arg3) :=
  (dat0 V c).arrAt_eq_of_cover 2 _ (fun t _ => flushed0 V c t) (cover0)

/-! ## Region 3: rows of `main_v60` against `main_arg7` -/

/-- The printed index maps of region 3, decided over its ten grid points: the row-block windows sit at block row `t`
    and block column 0, the weights' window at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's payload at an entry of the block: the block's row against the weights' column. -/
theorem pay3_apply (x0 : Vec Ideal S5000x64 .f32) (x1 : Vec Ideal S64x64 .f32) (p : Fin 5000) (q : Fin 64) :
    k3_pay1 x0 x1 (ix2 p q) = ∑ k : Fin 64, x0 (ix2 p k) * x1 (ix2 k q) := by
  unfold k3_pay1
  rw [shapeCast_self]
  exact Cert.DotSums.matmul_zero_ix2 dot_S5000x64_S64x64_S5000x64_1_0_0_1_n_n none rfl rfl rfl rfl rfl rfl rfl rfl _ _ p q

/-- What point `t` writes back is block `t` of the whole-array product. -/
theorem flushed3 (c : Dev nD) (t : Fin cfg3.N) :
    (dat3 (F := Ideal) V c).flushed 2 t
      = ((cfg3.win 2).blk t).view.read (Elt Ideal) (rowsByCols (V c main_v60) (V c main_arg7)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  obtain ⟨e0, e1, e2, e3, e4, e5⟩ := idx_facts3 t
  funext j
  obtain ⟨p, q, rfl⟩ : ∃ (p : Fin 5000) (q : Fin 64), j = ix2 p q := ⟨j 0, j 1, eq_ix2 j⟩
  show k3_pay1 (iblk3 V c 0 t) (iblk3 V c 1 t) (ix2 p q) = rowsByCols (V c main_v60) (V c main_arg7) (((cfg3.win 2).blk t).view.emb (ix2 p q))
  rw [pay3_apply]
  unfold rowsByCols
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  have ea : iblk3 V c 0 t (ix2 p k) = V c main_v60 (ix2 ((((cfg3.win 2).blk t).view.emb (ix2 p q)) 0) k) :=
    congrArg (V c main_v60) h0
  have eb : iblk3 V c 1 t (ix2 k q) = V c main_arg7 (ix2 k ((((cfg3.win 2).blk t).view.emb (ix2 p q)) 1)) :=
    congrArg (V c main_arg7) h1
  rw [ea, eb]

/-- An index of the result array is in point `t`'s block iff each coordinate is in the block's range on its axis. -/
theorem mem_blk3 (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v61).slice (win3_2.rect t)).set ↔ _
  rw [View.set_slice_whole, Rect.mem_set_unit]
  exact Iff.rfl

/-- The ten row blocks fill the result array: row `r` is in block `r / 5000`. -/
theorem cover3 (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  refine ⟨⟨(i 0).val / 5000, by show (i 0).val / 5000 < grid3.N; omega⟩, flush3_2 _, ?_⟩
  rw [mem_blk3]
  obtain ⟨e0, e1, e2, e3, e4, e5⟩ := idx_facts3 ⟨(i 0).val / 5000, by show (i 0).val / 5000 < grid3.N; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- After region 3 its result array holds the whole-array product of the two arrays it entered with. -/
theorem final3 (c : Dev nD) :
    (dat3 (F := Ideal) V c).arrAt 2 cfg3.N = rowsByCols (V c main_v60) (V c main_arg7) :=
  (dat3 V c).arrAt_eq_of_cover 2 _ (fun t _ => flushed3 V c t) (cover3)

end Cert.KernelIdeal.Blocks

end
-- ==== Proof.LibColumn.lean ====
/-
  A per-row scalar as a column, read at an index.

  A vector `[a]` recast or placed as the one column of `[a, 1]` reads, at `(p, u)`, its entry `p`; a column `[a, 1]`
  repeated across `b` columns reads, at `(p, q)`, the column's entry `p`. (A cast keeps the row-major position; a
  broadcast reads the operand's unit axes at coordinate zero and its other axes at the result's coordinate.)
-/
import Idealize.ShloMosaic.Lib.ValueIdx
import Idealize.ShloMosaic.Lib.ValueLayout
import Idealize.ShloMosaic.Lib.Pipeline.Value

noncomputable section

namespace Cert.Column

open Idealize.ShloMosaic Idealize.ShloMosaic.ValueIdx

variable {α : Type}

/-- A vector `[a]` recast to the column `[a, 1]` reads, at `(p, u)`, its entry `p`. -/
theorem cast_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector `[a]` placed as the column of `[a, 1]` reads, at `(p, u)`, its entry `p`. -/
theorem place_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` repeated across `b` columns by a `broadcast_in_dim` reads, at `(p, q)`, the column's entry `p`. -/
theorem across_apply {a b : ℕ} (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A column `[a, 1]` repeated across `b` columns by a vector broadcast reads, at `(p, q)`, the column's entry `p`. -/
theorem spread_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

end Cert.Column

end
-- ==== Proof.BlocksCombine.lean ====
/-
  The two combining regions, from blocks to arrays.

  Each region takes the aggregated messages [50000, 64], the node features [50000, 64], a per-node scale as a column
  [50000, 1] and a bias as a row [1, 64], ten row blocks of 5000 rows at a time, and stores
  aggregate + features * scale + bias  entry by entry: at (p, q) of the block the scale is read at row p of its column
  and the bias at column q of its row. Block t sits at rows 5000 t … 5000 t + 4999, so the entry is the same expression
  of the whole arrays at (5000 t + p, q); the ten blocks fill the result.
-/
import proofs.«106839_j88029649698964_1_alg».proof.Proof.Gen.KernelIdeal.Frame
import proofs.«106839_j88029649698964_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Blocks2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- aggregate + features * (per-row scale) + (bias row), entry by entry. -/
def combine (agg h : FVec Ideal S50000x64 .f32) (sc : FVec Ideal S50000x1 .f32) (b : FVec Ideal S1x64 .f32) :
    FVec Ideal S50000x64 .f32 :=
  fun i => (agg i + h i * sc (ix2 (i 0) (0 : Fin 1))) + b (ix2 (0 : Fin 1) (i 1))

theorem hz : (![0, 0] : Fin 2 → Nat) = fun _ => 0 := funext fun a => by fin_cases a <;> rfl

variable (V : (c : Dev nD) → (b : Ref sig .tc) → Buf (Elt Ideal) ((c : Thread nD τ).loc b))

/-! ## Region 1 -/

/-- The printed index maps of region 1, decided over its ten grid points: the row-block windows (the aggregate, the
    features, the per-row scale, the result) sit at block row `t` and block column 0, the bias row's window at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's payload at an entry of the block. -/
theorem pay1_apply (x0 x1 : Vec Ideal S5000x64 .f32) (x2 : Vec Ideal S5000x1 .f32) (x3 : Vec Ideal S1x64 .f32)
    (p : Fin 5000) (q : Fin 64) :
    k1_pay1 x0 x1 x2 x3 (ix2 p q) = (x0 (ix2 p q) + x1 (ix2 p q) * x2 (ix2 p (0 : Fin 1))) + x3 (ix2 (0 : Fin 1) q) := by
  unfold k1_pay1
  rw [shapeCast_self, shapeCast_self, shapeCast_self, shapeCast_self]
  show (x0 (ix2 p q) + x1 (ix2 p q) * broadcastTo S5000x64 x2 broadcasts_S5000x1_S5000x64 (ix2 p q))
      + broadcastTo S5000x64 x3 broadcasts_S1x64_S5000x64 (ix2 p q) = _
  rw [Cert.Column.spread_apply, broadcastTo_1b_ab_apply]

set_option maxHeartbeats 4000000 in
/-- What point `t` writes back is block `t` of the whole-array combination. -/
theorem flushed1 (c : Dev nD) (t : Fin cfg1.N) :
    (dat1 (F := Ideal) V c).flushed 4 t
      = ((cfg1.win 4).blk t).view.read (Elt Ideal) (combine (V c main_v41) (V c main_v28) (V c main_v12) (V c main_v42)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts1 t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (ix2 p q)
    = combine (V c main_v41) (V c main_v28) (V c main_v12) (V c main_v42) (((cfg1.win 4).blk t).view.emb (ix2 p q))
  rw [pay1_apply]
  unfold combine
  have h0 : ((cfg1.win 0).blk t).view.emb (ix2 p q) = ((cfg1.win 4).blk t).view.emb (ix2 p q) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have h1 : ((cfg1.win 1).blk t).view.emb (ix2 p q) = ((cfg1.win 4).blk t).view.emb (ix2 p q) := by
    funext a; apply Fin.ext
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have h2 : ((cfg1.win 2).blk t).view.emb (ix2 p (0 : Fin 1)) = ix2 ((((cfg1.win 4).blk t).view.emb (ix2 p q)) 0) (0 : Fin 1) := by
    funext a; apply Fin.ext
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have h3 : ((cfg1.win 3).blk t).view.emb (ix2 (0 : Fin 1) q) = ix2 (0 : Fin 1) ((((cfg1.win 4).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  have ea : iblk1 V c 0 t (ix2 p q) = V c main_v41 (((cfg1.win 4).blk t).view.emb (ix2 p q)) := congrArg (V c main_v41) h0
  have eb : iblk1 V c 1 t (ix2 p q) = V c main_v28 (((cfg1.win 4).blk t).view.emb (ix2 p q)) := congrArg (V c main_v28) h1
  have ec : iblk1 V c 2 t (ix2 p (0 : Fin 1)) = V c main_v12 (ix2 ((((cfg1.win 4).blk t).view.emb (ix2 p q)) 0) (0 : Fin 1)) :=
    congrArg (V c main_v12) h2
  have ed : iblk1 V c 3 t (ix2 (0 : Fin 1) q) = V c main_v42 (ix2 (0 : Fin 1) ((((cfg1.win 4).blk t).view.emb (ix2 p q)) 1)) :=
    congrArg (V c main_v42) h3
  rw [ea, eb, ec, ed]

/-- An index of the result array is in point `t`'s block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- The ten row blocks fill the result array: row `r` is in block `r / 5000`. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  refine ⟨⟨(i 0).val / 5000, by show (i 0).val / 5000 < grid1.N; omega⟩, flush1_4 _, ?_⟩
  rw [mem_blk1]
  obtain ⟨e0, e1, e2, e3, e4, e5, e6, e7, e8, e9⟩ := idx_facts1 ⟨(i 0).val / 5000, by show (i 0).val / 5000 < grid1.N; omega⟩
  intro a
  match a with
  | ⟨0, _⟩ => show win1_4.index _ (0 : Fin 2) * 5000 ≤ (i 0).val ∧ (i 0).val < win1_4.index _ (0 : Fin 2) * 5000 + 5000; rw [e8]; show (i 0).val / 5000 * 5000 ≤ (i 0).val ∧ (i 0).val < (i 0).val / 5000 * 5000 + 5000; omega
  | ⟨1, _⟩ => show win1_4.index _ (1 : Fin 2) * 64 ≤ (i 1).val ∧ (i 1).val < win1_4.index _ (1 : Fin 2) * 64 + 64; rw [e9]; omega

/-- After region 1 its result array holds the combination of the four arrays it entered with. -/
theorem final1 (c : Dev nD) :
    (dat1 (F := Ideal) V c).arrAt 4 cfg1.N = combine (V c main_v41) (V c main_v28) (V c main_v12) (V c main_v42) :=
  (dat1 V c).arrAt_eq_of_cover 4 _ (fun t _ => flushed1 V c t) (cover1)

/-! ## Region 4 -/

/-- The printed index maps of region 4, decided over its ten grid points: the row-block windows (the aggregate, the
    features, the per-row scale, the result) sit at block row `t` and block column 0, the bias row's window at (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The body's payload at an entry of the block. -/
theorem pay4_apply (x0 x1 : Vec Ideal S5000x64 .f32) (x2 : Vec Ideal S5000x1 .f32) (x3 : Vec Ideal S1x64 .f32)
    (p : Fin 5000) (q : Fin 64) :
    k4_pay1 x0 x1 x2 x3 (ix2 p q) = (x0 (ix2 p q) + x1 (ix2 p q) * x2 (ix2 p (0 : Fin 1))) + x3 (ix2 (0 : Fin 1) q) := by
  unfold k4_pay1
  rw [shapeCast_self, shapeCast_self, shapeCast_self, shapeCast_self]
  show (x0 (ix2 p q) + x1 (ix2 p q) * broadcastTo S5000x64 x2 broadcasts_S5000x1_S5000x64 (ix2 p q))
      + broadcastTo S5000x64 x3 broadcasts_S1x64_S5000x64 (ix2 p q) = _
  rw [Cert.Column.spread_apply, broadcastTo_1b_ab_apply]

set_option maxHeartbeats 4000000 in
/-- What point `t` writes back is block `t` of the whole-array combination. -/
theorem flushed4 (c : Dev nD) (t : Fin cfg4.N) :
    (dat4 (F := Ideal) V c).flushed 4 t
      = ((cfg4.win 4).blk t).view.read (Elt Ideal) (combine (V c main_v74) (V c main_v61) (V c main_v12) (V c main_v75)) := by
  show (cfg4.win 4).cut (grid4.coords t) ((dat4 V c).after 4 t) = _
  rw [after4_4]
  unfold out4_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts4 t
  funext j
  obtain ⟨p, q, rfl⟩ : ∃ (p : Fin 5000) (q : Fin 64), j = ix2 p q := ⟨j 0, j 1, eq_ix2 j⟩
  show k4_pay1 (iblk4 V c 0 t) (iblk4 V c 1 t) (iblk4 V c 2 t) (iblk4 V c 3 t) (ix2 p q)
    = combine (V c main_v74) (V c main_v61) (V c main_v12) (V c main_v75) (((cfg4.win 4).blk t).view.emb (ix2 p q))
  rw [pay4_apply]
  unfold combine
  have h0 : ((cfg4.win 0).blk t).view.emb (ix2 p q) = ((cfg4.win 4).blk t).view.emb (ix2 p q) := by
    funext a; apply Fin.ext
    match a with
    | ⟨0, _⟩ => show win4_0.index t (0 : Fin 2) * 5000 + 1 * p.val = win4_4.index t (0 : Fin 2) * 5000 + 1 * p.val; omega
    | ⟨1, _⟩ => show win4_0.index t (1 : Fin 2) * 64 + 1 * q.val = win4_4.index t (1 : Fin 2) * 64 + 1 * q.val; omega
  have h1 : ((cfg4.win 1).blk t).view.emb (ix2 p q) = ((cfg4.win 4).blk t).view.emb (ix2 p q) := by
    funext a; apply Fin.ext
    match a with
    | ⟨0, _⟩ => show win4_1.index t (0 : Fin 2) * 5000 + 1 * p.val = win4_4.index t (0 : Fin 2) * 5000 + 1 * p.val; omega
    | ⟨1, _⟩ => show win4_1.index t (1 : Fin 2) * 64 + 1 * q.val = win4_4.index t (1 : Fin 2) * 64 + 1 * q.val; omega
  have h2 : ((cfg4.win 2).blk t).view.emb (ix2 p (0 : Fin 1)) = ix2 ((((cfg4.win 4).blk t).view.emb (ix2 p q)) 0) (0 : Fin 1) := by
    funext a; apply Fin.ext
    match a with
    | ⟨0, _⟩ => show win4_2.index t (0 : Fin 2) * 5000 + 1 * p.val = win4_4.index t (0 : Fin 2) * 5000 + 1 * p.val; omega
    | ⟨1, _⟩ => show win4_2.index t (1 : Fin 2) * 1 + 1 * 0 = 0; omega
  have h3 : ((cfg4.win 3).blk t).view.emb (ix2 (0 : Fin 1) q) = ix2 (0 : Fin 1) ((((cfg4.win 4).blk t).view.emb (ix2 p q)) 1) := by
    funext a; apply Fin.ext
    match a with
    | ⟨0, _⟩ => show win4_3.index t (0 : Fin 2) * 1 + 1 * 0 = 0; omega
    | ⟨1, _⟩ => show win4_3.index t (1 : Fin 2) * 64 + 1 * q.val = win4_4.index t (1 : Fin 2) * 64 + 1 * q.val; omega
  have ea : iblk4 V c 0 t (ix2 p q) = V c main_v74 (((cfg4.win 4).blk t).view.emb (ix2 p q)) := congrArg (V c main_v74) h0
  have eb : iblk4 V c 1 t (ix2 p q) = V c main_v61 (((cfg4.win 4).blk t).view.emb (ix2 p q)) := congrArg (V c main_v61) h1
  have ec : iblk4 V c 2 t (ix2 p (0 : Fin 1)) = V c main_v12 (ix2 ((((cfg4.win 4).blk t).view.emb (ix2 p q)) 0) (0 : Fin 1)) :=
    congrArg (V c main_v12) h2
  have ed : iblk4 V c 3 t (ix2 (0 : Fin 1) q) = V c main_v75 (ix2 (0 : Fin 1) ((((cfg4.win 4).blk t).view.emb (ix2 p q)) 1)) :=
    congrArg (V c main_v75) h3
  rw [ea, eb, ec, ed]

/-- An index of the result array is in point `t`'s block iff each coordinate is in the block's range on its axis. -/
theorem mem_blk4 (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v76).slice (win4_4.rect t)).set ↔ _
  rw [View.set_slice_whole, Rect.mem_set_unit]
  exact Iff.rfl

/-- The ten row blocks fill the result array: row `r` is in block `r / 5000`. -/
theorem cover4 (i : S50000x64.Idx) :
    ∃ t : Fin cfg4.N, (cfg4.win 4).flush t = true ∧ i ∈ ((cfg4.win 4).blk t).view.set := by
  have hi0 : (i 0).val < 50000 := (i 0).isLt
  have hi1 : (i 1).val < 64 := (i 1).isLt
  have hN : grid4.N = 10 := N_4
  refine ⟨⟨(i 0).val / 5000, by show (i 0).val / 5000 < grid4.N; omega⟩, flush4_4 _, ?_⟩
  rw [mem_blk4]
  obtain ⟨e0, e1, e2, e3, e4, e5, e6, e7, e8, e9⟩ := idx_facts4 ⟨(i 0).val / 5000, by show (i 0).val / 5000 < grid4.N; omega⟩
  intro a
  match a with
  | ⟨0, _⟩ => show win4_4.index _ (0 : Fin 2) * 5000 ≤ (i 0).val ∧ (i 0).val < win4_4.index _ (0 : Fin 2) * 5000 + 5000; rw [e8]; show (i 0).val / 5000 * 5000 ≤ (i 0).val ∧ (i 0).val < (i 0).val / 5000 * 5000 + 5000; omega
  | ⟨1, _⟩ => show win4_4.index _ (1 : Fin 2) * 64 ≤ (i 1).val ∧ (i 1).val < win4_4.index _ (1 : Fin 2) * 64 + 64; rw [e9]; omega

/-- After region 4 its result array holds the combination of the four arrays it entered with. -/
theorem final4 (c : Dev nD) :
    (dat4 (F := Ideal) V c).arrAt 4 cfg4.N = combine (V c main_v74) (V c main_v61) (V c main_v12) (V c main_v75) :=
  (dat4 V c).arrAt_eq_of_cover 4 _ (fun t _ => flushed4 V c t) (cover4)

end Cert.KernelIdeal.Blocks2

end
-- ==== Proof.BlocksNorm.lean ====
/-
  The normalise-and-activate region, from blocks to arrays.

  The region takes the node features [50000, 64] and four rows [1, 64] (a mean, a reciprocal standard deviation, a
  scale, a shift), ten row blocks of 5000 rows at a time, and stores, entry by entry,
  elu (((h - mean) * rstd) * scale + shift),  elu y = y where y > 0 and exp y - 1 elsewhere; at (p, q) of the block each
  row is read at column q. Block t sits at rows 5000 t … 5000 t + 4999, so the entry is the same expression of the whole
  arrays at (5000 t + p, q); the ten blocks fill the result.
-/
import proofs.«106839_j88029649698964_1_alg».proof.Proof.Gen.KernelIdeal.Frame
import proofs.«106839_j88029649698964_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Blocks3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The activation as the body spells it: `y` where the ordered comparison `y > 0` holds, `exp y - 1` elsewhere. -/
def act (y : EReal) : EReal :=
  Scalar.select (FloatOps.cmpf (F := Ideal) (φ := .f32) .ogt y (Ideal.ofBits .f32 0x00000000#32)) y
    (Ideal.exp y - Ideal.ofBits .f32 0x3F800000#32)

/-- The activation of the normalised features, entry by entry. -/
def normAct (h : FVec Ideal S50000x64 .f32) (mu rstd g be : FVec Ideal S1x64 .f32) : FVec Ideal S50000x64 .f32 :=
  fun i => act (((h i - mu (ix2 (0 : Fin 1) (i 1))) * rstd (ix2 (0 : Fin 1) (i 1))) * g (ix2 (0 : Fin 1) (i 1))
    + be (ix2 (0 : Fin 1) (i 1)))

theorem hz : (![0, 0] : Fin 2 → Nat) = fun _ => 0 := funext fun a => by fin_cases a <;> rfl

variable (V : (c : Dev nD) → (b : Ref sig .tc) → Buf (Elt Ideal) ((c : Thread nD τ).loc b))

/-- The printed index maps, decided over the ten grid points: the features' and the result's windows sit at block row
    `t` and block column 0, each of the four rows' windows at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The body's payload at an entry of the block. -/
theorem pay2_apply (x0 : Vec Ideal S5000x64 .f32) (x1 x2 x3 x4 : Vec Ideal S1x64 .f32) (p : Fin 5000) (q : Fin 64) :
    k2_pay1 x0 x1 x2 x3 x4 (ix2 p q)
      = act (((x0 (ix2 p q) - x1 (ix2 (0 : Fin 1) q)) * x2 (ix2 (0 : Fin 1) q)) * x3 (ix2 (0 : Fin 1) q)
          + x4 (ix2 (0 : Fin 1) q)) := by
  unfold k2_pay1
  rw [shapeCast_self, shapeCast_self, shapeCast_self, shapeCast_self, shapeCast_self]
  show act (((x0 (ix2 p q) - broadcastTo S5000x64 x1 broadcasts_S1x64_S5000x64 (ix2 p q))
        * broadcastTo S5000x64 x2 broadcasts_S1x64_S5000x64 (ix2 p q))
        * broadcastTo S5000x64 x3 broadcasts_S1x64_S5000x64 (ix2 p q)
      + broadcastTo S5000x64 x4 broadcasts_S1x64_S5000x64 (ix2 p q)) = _
  rw [broadcastTo_1b_ab_apply, broadcastTo_1b_ab_apply, broadcastTo_1b_ab_apply, broadcastTo_1b_ab_apply]

set_option maxHeartbeats 4000000 in
/-- What point `t` writes back is block `t` of the whole-array expression. -/
theorem flushed2 (c : Dev nD) (t : Fin cfg2.N) :
    (dat2 (F := Ideal) V c).flushed 5 t
      = ((cfg2.win 5).blk t).view.read (Elt Ideal)
          (normAct (V c main_v43) (V c main_v47) (V c main_v57) (V c main_v58) (V c main_v59)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz]
  obtain ⟨e0, e1, e2, e3, e4, e5, e6, e7, e8, e9, e10, e11⟩ := idx_facts2 t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (iblk2 V c 4 t) (ix2 p q)
    = normAct (V c main_v43) (V c main_v47) (V c main_v57) (V c main_v58) (V c main_v59) (((cfg2.win 5).blk t).view.emb (ix2 p q))
  rw [pay2_apply]
  unfold normAct
  have h0 : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * q.val = win2_5.index t (1 : Fin 2) * 64 + 1 * q.val; omega
  have h1 : ((cfg2.win 1).blk t).view.emb (ix2 (0 : Fin 1) q) = ix2 (0 : Fin 1) ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  have h2 : ((cfg2.win 2).blk t).view.emb (ix2 (0 : Fin 1) q) = ix2 (0 : Fin 1) ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  have h3 : ((cfg2.win 3).blk t).view.emb (ix2 (0 : Fin 1) q) = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  have h4 : ((cfg2.win 4).blk t).view.emb (ix2 (0 : Fin 1) q) = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  have ea : iblk2 V c 0 t (ix2 p q) = V c main_v43 (((cfg2.win 5).blk t).view.emb (ix2 p q)) := congrArg (V c main_v43) h0
  have eb : iblk2 V c 1 t (ix2 (0 : Fin 1) q) = V c main_v47 (ix2 (0 : Fin 1) ((((cfg2.win 5).blk t).view.emb (ix2 p q)) 1)) :=
    congrArg (V c main_v47) h1
  have ec : iblk2 V c 2 t (ix2 (0 : Fin 1) q) = V c main_v57 (ix2 (0 : Fin 1) ((((cfg2.win 5).blk t).view.emb (ix2 p q)) 1)) :=
    congrArg (V c main_v57) h2
  have ed : iblk2 V c 3 t (ix2 (0 : Fin 1) q) = V c main_v58 (ix2 (0 : Fin 1) ((((cfg2.win 5).blk t).view.emb (ix2 p q)) 1)) :=
    congrArg (V c main_v58) h3
  have ee : iblk2 V c 4 t (ix2 (0 : Fin 1) q) = V c main_v59 (ix2 (0 : Fin 1) ((((cfg2.win 5).blk t).view.emb (ix2 p q)) 1)) :=
    congrArg (V c main_v59) h4
  rw [ea, eb, ec, ed, ee]

/-- An index of the result array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v60).slice (win2_5.rect t)).set ↔ _
  rw [View.set_slice_whole, Rect.mem_set_unit]
  exact Iff.rfl

/-- The ten row blocks fill the result array: row `r` is in block `r / 5000`. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  refine ⟨⟨(i 0).val / 5000, by show (i 0).val / 5000 < grid2.N; omega⟩, flush2_5 _, ?_⟩
  rw [mem_blk2]
  obtain ⟨e0, e1, e2, e3, e4, e5, e6, e7, e8, e9, e10, e11⟩ := idx_facts2 ⟨(i 0).val / 5000, by show (i 0).val / 5000 < grid2.N; omega⟩
  intro a
  match a with
  | ⟨0, _⟩ => show win2_5.index _ (0 : Fin 2) * 5000 ≤ (i 0).val ∧ (i 0).val < win2_5.index _ (0 : Fin 2) * 5000 + 5000; rw [e10]; show (i 0).val / 5000 * 5000 ≤ (i 0).val ∧ (i 0).val < (i 0).val / 5000 * 5000 + 5000; omega
  | ⟨1, _⟩ => show win2_5.index _ (1 : Fin 2) * 64 ≤ (i 1).val ∧ (i 1).val < win2_5.index _ (1 : Fin 2) * 64 + 64; rw [e11]; omega

/-- After the region its result array holds the activation of the normalised features. -/
theorem final2 (c : Dev nD) :
    (dat2 (F := Ideal) V c).arrAt 5 cfg2.N
      = normAct (V c main_v43) (V c main_v47) (V c main_v57) (V c main_v58) (V c main_v59) :=
  (dat2 V c).arrAt_eq_of_cover 5 _ (fun t _ => flushed2 V c t) cover2

end Cert.KernelIdeal.Blocks3

end
-- ==== Proof.KSpec.lean ====
/-
  The kernel program's results as one function of its arguments.

  The program computes, with the edge list's two rows as source and destination node per edge:
    a degree normaliser per node and a weight per edge (on the host, once);
    a graph convolution — features times weights (a tiled region), messages gathered at sources, weighted, summed at
      destinations (on the host), then aggregate + features * squared normaliser + bias (a tiled region);
    the column means and reciprocal standard deviations of the result kept as rows [1, 64] (on the host), the normalised
      and activated features (a tiled region);
    a second graph convolution, and the per-graph mean of its rows (on the host).
  Each stage is written here with the operations the program itself applies, over the whole arrays.
-/
import proofs.«106839_j88029649698964_1_alg».proof.Proof.KSpecHost
import proofs.«106839_j88029649698964_1_alg».proof.Proof.BlocksDot
import proofs.«106839_j88029649698964_1_alg».proof.Proof.BlocksCombine
import proofs.«106839_j88029649698964_1_alg».proof.Proof.BlocksNorm

noncomputable section

namespace Cert.KernelIdeal.KSpec

open Cert.KernelIdeal Idealize.ShloMosaic Idealize.ShloMosaic.ValueIdx
open Cert.KernelIdeal.Blocks (rowsByCols)
open Cert.KernelIdeal.Blocks2 (combine)
open Cert.KernelIdeal.Blocks3 (normAct)
open Facts₀ Facts

/-- One graph convolution of the features `h` as the program computes it. -/
def convK (h : (⟨S50000x64, .f32⟩ : BufTy).Contents (Elt Ideal)) (ei : (⟨S2x800000, .i32⟩ : BufTy).Contents (Elt Ideal)) (b : (⟨S64, .f32⟩ : BufTy).Contents (Elt Ideal)) : (⟨S50000x64, .f32⟩ : BufTy).Contents (Elt Ideal) :=
  combine
    (aggr h (Cert.ReferenceIdeal.Spec.src (F := Ideal) ei) (Cert.ReferenceIdeal.Spec.dst (F := Ideal) ei)
      (Cert.ReferenceIdeal.Spec.coef (F := Ideal) ei))
    h (selfCol ei) (asRow b)

/-- Normalisation over the rows and the activation as the program computes them. -/
def actK (h : (⟨S50000x64, .f32⟩ : BufTy).Contents (Elt Ideal)) (g be : (⟨S64, .f32⟩ : BufTy).Contents (Elt Ideal)) : (⟨S50000x64, .f32⟩ : BufTy).Contents (Elt Ideal) :=
  normAct h (meanRow h) (rstdRow h) (asRow g) (asRow be)

/-- The node result. -/
def kout117 (x : (⟨S50000x64, .f32⟩ : BufTy).Contents (Elt Ideal)) (ei : (⟨S2x800000, .i32⟩ : BufTy).Contents (Elt Ideal)) (W1 : (⟨S64x64, .f32⟩ : BufTy).Contents (Elt Ideal))
    (b1 g be : (⟨S64, .f32⟩ : BufTy).Contents (Elt Ideal)) (W2 : (⟨S64x64, .f32⟩ : BufTy).Contents (Elt Ideal)) (b2 : (⟨S64, .f32⟩ : BufTy).Contents (Elt Ideal)) : (⟨S50000x64, .f32⟩ : BufTy).Contents (Elt Ideal) :=
  convK (rowsByCols (actK (convK (rowsByCols x W1) ei b1) g be) W2) ei b2

/-- The graph result: the node result averaged over each graph's nodes. -/
def kout129 (x : (⟨S50000x64, .f32⟩ : BufTy).Contents (Elt Ideal)) (ei : (⟨S2x800000, .i32⟩ : BufTy).Contents (Elt Ideal)) (batch : (⟨S50000, .i32⟩ : BufTy).Contents (Elt Ideal))
    (W1 : (⟨S64x64, .f32⟩ : BufTy).Contents (Elt Ideal)) (b1 g be : (⟨S64, .f32⟩ : BufTy).Contents (Elt Ideal)) (W2 : (⟨S64x64, .f32⟩ : BufTy).Contents (Elt Ideal)) (b2 : (⟨S64, .f32⟩ : BufTy).Contents (Elt Ideal)) :
    (⟨S64x64, .f32⟩ : BufTy).Contents (Elt Ideal) :=
  Cert.ReferenceIdeal.Spec.pool (F := Ideal) (kout117 x ei W1 b1 g be W2 b2) batch

end Cert.KernelIdeal.KSpec

end
-- ==== Proof.KHost.lean ====
/-
  What each stretch of host operations of the kernel program leaves in the buffers the later stages read, as a function
  of the buffers' contents when the stretch is entered.

  A stretch is a straight line of pure operations, each writing its own result buffer; reading the fold of the stretch
  at one buffer walks back through the operations that produced it to the entry contents. The buffers a stretch does
  not write keep their entry contents.
-/
import proofs.«106839_j88029649698964_1_alg».proof.Proof.Gen.KernelIdeal.Launch
import proofs.«106839_j88029649698964_1_alg».proof.Proof.KSpecHost
import Idealize.ShloMosaic.Lib.StableHlo.Run
import Idealize.ShloMosaic.PureOps.Ideal

set_option maxRecDepth 16384

noncomputable section

namespace Cert.KernelIdeal.KHost

open Cert.KernelIdeal Cert.KernelIdeal.Gen Cert.KernelIdeal.KSpec
open Idealize.ShloMosaic Idealize.ShloMosaic.TcCoe Idealize.SL.Sem Idealize.ShloMosaic.StableHlo
open Facts₀ Facts

attribute [local irreducible] Host.scatterAdd Host.gather Host.reduceAdd Host.rsqrt Host.divf

variable (U : Valuation τ sig (Elt Ideal))

/-! ## The first stretch: the edge list's rows, the degree normaliser, the edge weights -/

theorem src0 : after (hostOps0 (F := Ideal)) U (Proc.devRef .tc main_v1) = Cert.ReferenceIdeal.Spec.src (F := Ideal) (U (Proc.devRef .tc main_arg1)) := by
  dsimp only [hostOps0]
  after_results_simp
  rfl

theorem dst0 : after (hostOps0 (F := Ideal)) U (Proc.devRef .tc main_v3) = Cert.ReferenceIdeal.Spec.dst (F := Ideal) (U (Proc.devRef .tc main_arg1)) := by
  dsimp only [hostOps0]
  after_results_simp
  rfl

theorem selfCol0 : after (hostOps0 (F := Ideal)) U (Proc.devRef .tc main_v12) = selfCol (F := Ideal) (U (Proc.devRef .tc main_arg1)) := by
  dsimp only [hostOps0]
  after_results_simp
  rfl

theorem coef0 : after (hostOps0 (F := Ideal)) U (Proc.devRef .tc main_v27) = Cert.ReferenceIdeal.Spec.coef (F := Ideal) (U (Proc.devRef .tc main_arg1)) := by
  dsimp only [hostOps0]
  after_results_simp
  rfl

theorem keep0_arg0 : after (hostOps0 (F := Ideal)) U (Proc.devRef .tc main_arg0) = U (Proc.devRef .tc main_arg0) := by
  dsimp only [hostOps0]
  after_results_simp
theorem keep0_arg2 : after (hostOps0 (F := Ideal)) U (Proc.devRef .tc main_arg2) = U (Proc.devRef .tc main_arg2) := by
  dsimp only [hostOps0]
  after_results_simp
theorem keep0_arg3 : after (hostOps0 (F := Ideal)) U (Proc.devRef .tc main_arg3) = U (Proc.devRef .tc main_arg3) := by
  dsimp only [hostOps0]
  after_results_simp
theorem keep0_arg4 : after (hostOps0 (F := Ideal)) U (Proc.devRef .tc main_arg4) = U (Proc.devRef .tc main_arg4) := by
  dsimp only [hostOps0]
  after_results_simp
theorem keep0_arg5 : after (hostOps0 (F := Ideal)) U (Proc.devRef .tc main_arg5) = U (Proc.devRef .tc main_arg5) := by
  dsimp only [hostOps0]
  after_results_simp
theorem keep0_arg6 : after (hostOps0 (F := Ideal)) U (Proc.devRef .tc main_arg6) = U (Proc.devRef .tc main_arg6) := by
  dsimp only [hostOps0]
  after_results_simp
theorem keep0_arg7 : after (hostOps0 (F := Ideal)) U (Proc.devRef .tc main_arg7) = U (Proc.devRef .tc main_arg7) := by
  dsimp only [hostOps0]
  after_results_simp
theorem keep0_arg8 : after (hostOps0 (F := Ideal)) U (Proc.devRef .tc main_arg8) = U (Proc.devRef .tc main_arg8) := by
  dsimp only [hostOps0]
  after_results_simp

/-! ## The second stretch: the first convolution's messages and its bias as a row -/

set_option maxHeartbeats 2000000 in
theorem aggr1 : after (hostOps1 (F := Ideal)) U (Proc.devRef .tc main_v41) = aggr (F := Ideal) (U (Proc.devRef .tc main_v28)) (U (Proc.devRef .tc main_v1)) (U (Proc.devRef .tc main_v3)) (U (Proc.devRef .tc main_v27)) := by
  dsimp only [hostOps1]
  after_results_simp
  rfl

theorem bias1 : after (hostOps1 (F := Ideal)) U (Proc.devRef .tc main_v42) = asRow (F := Ideal) (U (Proc.devRef .tc main_arg4)) := by
  dsimp only [hostOps1]
  after_results
  rfl

theorem keep1_v28 : after (hostOps1 (F := Ideal)) U (Proc.devRef .tc main_v28) = U (Proc.devRef .tc main_v28) := by
  dsimp only [hostOps1]
  after_results
theorem keep1_v12 : after (hostOps1 (F := Ideal)) U (Proc.devRef .tc main_v12) = U (Proc.devRef .tc main_v12) := by
  dsimp only [hostOps1]
  after_results
theorem keep1_v1 : after (hostOps1 (F := Ideal)) U (Proc.devRef .tc main_v1) = U (Proc.devRef .tc main_v1) := by
  dsimp only [hostOps1]
  after_results
theorem keep1_v3 : after (hostOps1 (F := Ideal)) U (Proc.devRef .tc main_v3) = U (Proc.devRef .tc main_v3) := by
  dsimp only [hostOps1]
  after_results
theorem keep1_v27 : after (hostOps1 (F := Ideal)) U (Proc.devRef .tc main_v27) = U (Proc.devRef .tc main_v27) := by
  dsimp only [hostOps1]
  after_results
theorem keep1_arg2 : after (hostOps1 (F := Ideal)) U (Proc.devRef .tc main_arg2) = U (Proc.devRef .tc main_arg2) := by
  dsimp only [hostOps1]
  after_results
theorem keep1_arg5 : after (hostOps1 (F := Ideal)) U (Proc.devRef .tc main_arg5) = U (Proc.devRef .tc main_arg5) := by
  dsimp only [hostOps1]
  after_results
theorem keep1_arg6 : after (hostOps1 (F := Ideal)) U (Proc.devRef .tc main_arg6) = U (Proc.devRef .tc main_arg6) := by
  dsimp only [hostOps1]
  after_results
theorem keep1_arg7 : after (hostOps1 (F := Ideal)) U (Proc.devRef .tc main_arg7) = U (Proc.devRef .tc main_arg7) := by
  dsimp only [hostOps1]
  after_results
theorem keep1_arg8 : after (hostOps1 (F := Ideal)) U (Proc.devRef .tc main_arg8) = U (Proc.devRef .tc main_arg8) := by
  dsimp only [hostOps1]
  after_results

/-! ## The third stretch: the column means and reciprocal deviations as rows, the scale and the shift as rows -/

theorem mean2 : after (hostOps2 (F := Ideal)) U (Proc.devRef .tc main_v47) = meanRow (F := Ideal) (U (Proc.devRef .tc main_v43)) := by
  dsimp only [hostOps2]
  after_results
  rfl

theorem rstd2 : after (hostOps2 (F := Ideal)) U (Proc.devRef .tc main_v57) = rstdRow (F := Ideal) (U (Proc.devRef .tc main_v43)) := by
  dsimp only [hostOps2]
  after_results
  rfl

theorem scale2 : after (hostOps2 (F := Ideal)) U (Proc.devRef .tc main_v58) = asRow (F := Ideal) (U (Proc.devRef .tc main_arg5)) := by
  dsimp only [hostOps2]
  after_results
  rfl

theorem shift2 : after (hostOps2 (F := Ideal)) U (Proc.devRef .tc main_v59) = asRow (F := Ideal) (U (Proc.devRef .tc main_arg6)) := by
  dsimp only [hostOps2]
  after_results
  rfl

theorem keep2_v43 : after (hostOps2 (F := Ideal)) U (Proc.devRef .tc main_v43) = U (Proc.devRef .tc main_v43) := by
  dsimp only [hostOps2]
  after_results
theorem keep2_v12 : after (hostOps2 (F := Ideal)) U (Proc.devRef .tc main_v12) = U (Proc.devRef .tc main_v12) := by
  dsimp only [hostOps2]
  after_results
theorem keep2_v1 : after (hostOps2 (F := Ideal)) U (Proc.devRef .tc main_v1) = U (Proc.devRef .tc main_v1) := by
  dsimp only [hostOps2]
  after_results
theorem keep2_v3 : after (hostOps2 (F := Ideal)) U (Proc.devRef .tc main_v3) = U (Proc.devRef .tc main_v3) := by
  dsimp only [hostOps2]
  after_results
theorem keep2_v27 : after (hostOps2 (F := Ideal)) U (Proc.devRef .tc main_v27) = U (Proc.devRef .tc main_v27) := by
  dsimp only [hostOps2]
  after_results
theorem keep2_arg2 : after (hostOps2 (F := Ideal)) U (Proc.devRef .tc main_arg2) = U (Proc.devRef .tc main_arg2) := by
  dsimp only [hostOps2]
  after_results
theorem keep2_arg7 : after (hostOps2 (F := Ideal)) U (Proc.devRef .tc main_arg7) = U (Proc.devRef .tc main_arg7) := by
  dsimp only [hostOps2]
  after_results
theorem keep2_arg8 : after (hostOps2 (F := Ideal)) U (Proc.devRef .tc main_arg8) = U (Proc.devRef .tc main_arg8) := by
  dsimp only [hostOps2]
  after_results

/-! ## The fourth stretch: the second convolution's messages and its bias as a row -/

set_option maxHeartbeats 2000000 in
theorem aggr4 : after (hostOps4 (F := Ideal)) U (Proc.devRef .tc main_v74) = aggr (F := Ideal) (U (Proc.devRef .tc main_v61)) (U (Proc.devRef .tc main_v1)) (U (Proc.devRef .tc main_v3)) (U (Proc.devRef .tc main_v27)) := by
  dsimp only [hostOps4]
  after_results_simp
  rfl

theorem bias4 : after (hostOps4 (F := Ideal)) U (Proc.devRef .tc main_v75) = asRow (F := Ideal) (U (Proc.devRef .tc main_arg8)) := by
  dsimp only [hostOps4]
  after_results
  rfl

theorem keep4_v61 : after (hostOps4 (F := Ideal)) U (Proc.devRef .tc main_v61) = U (Proc.devRef .tc main_v61) := by
  dsimp only [hostOps4]
  after_results
theorem keep4_v12 : after (hostOps4 (F := Ideal)) U (Proc.devRef .tc main_v12) = U (Proc.devRef .tc main_v12) := by
  dsimp only [hostOps4]
  after_results
theorem keep4_arg2 : after (hostOps4 (F := Ideal)) U (Proc.devRef .tc main_arg2) = U (Proc.devRef .tc main_arg2) := by
  dsimp only [hostOps4]
  after_results

/-! ## The last stretch: the per-graph mean of the node result -/

set_option maxHeartbeats 2000000 in
theorem pool5 : after (hostOps5 (F := Ideal)) U (Proc.devRef .tc main_v88) = Cert.ReferenceIdeal.Spec.pool (F := Ideal) (U (Proc.devRef .tc main_v76)) (U (Proc.devRef .tc main_arg2)) := by
  dsimp only [hostOps5]
  after_results_simp
  rfl

theorem keep5_v76 : after (hostOps5 (F := Ideal)) U (Proc.devRef .tc main_v76) = U (Proc.devRef .tc main_v76) := by
  dsimp only [hostOps5]
  after_results

end Cert.KernelIdeal.KHost

end
-- ==== Proof.KValue.lean ====
/-
  The kernel program's two results as functions of its arguments.

  The contents of the buffers at the ten boundaries of the program are followed from the launch memory: a stretch of
  host operations leaves in each buffer it writes the stretch's function of the entry contents and keeps every other
  buffer; a tiled region leaves in its result array the whole-array function its blocks are the blocks of, and keeps
  every other buffer. The edge list's rows, the edge weights and the degree normaliser are computed once, in the first
  stretch, and are read again by the fourth; the arguments are never written.
-/
import proofs.«106839_j88029649698964_1_alg».proof.Proof.Gen.KernelIdeal.Frame
import proofs.«106839_j88029649698964_1_alg».proof.Proof.KSpec
import proofs.«106839_j88029649698964_1_alg».proof.Proof.KHost

set_option maxRecDepth 16384

noncomputable section

namespace Cert.KernelIdeal.KValue

open Cert.KernelIdeal Cert.KernelIdeal.Gen Cert.KernelIdeal.KSpec Cert.KernelIdeal.KHost
open Cert.KernelIdeal.Blocks (rowsByCols final0 final3)
open Cert.KernelIdeal.Blocks2 (combine final1 final4)
open Cert.KernelIdeal.Blocks3 (normAct final2)
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## What the first stretch leaves, and where it is still found later -/

theorem at1_v1 : W1 m ρ c (Proc.devRef .tc main_v1) = Cert.ReferenceIdeal.Spec.src (F := Ideal) (m ((c : Thread nD τ).loc main_arg1)) := src0 (W0 m ρ c)
theorem at1_v3 : W1 m ρ c (Proc.devRef .tc main_v3) = Cert.ReferenceIdeal.Spec.dst (F := Ideal) (m ((c : Thread nD τ).loc main_arg1)) := dst0 (W0 m ρ c)
theorem at1_v12 : W1 m ρ c (Proc.devRef .tc main_v12) = selfCol (F := Ideal) (m ((c : Thread nD τ).loc main_arg1)) := selfCol0 (W0 m ρ c)
theorem at1_v27 : W1 m ρ c (Proc.devRef .tc main_v27) = Cert.ReferenceIdeal.Spec.coef (F := Ideal) (m ((c : Thread nD τ).loc main_arg1)) := coef0 (W0 m ρ c)

/-- `main_v1` is not written between the first stretch and boundary 2. -/
theorem at2_v1 : W2 m ρ c (Proc.devRef .tc main_v1) = Cert.ReferenceIdeal.Spec.src (F := Ideal) (m ((c : Thread nD τ).loc main_arg1)) :=
  (W2_of_ne m ρ c main_v1 (by decide)).trans (at1_v1 m ρ c)

/-- `main_v3` is not written between the first stretch and boundary 2. -/
theorem at2_v3 : W2 m ρ c (Proc.devRef .tc main_v3) = Cert.ReferenceIdeal.Spec.dst (F := Ideal) (m ((c : Thread nD τ).loc main_arg1)) :=
  (W2_of_ne m ρ c main_v3 (by decide)).trans (at1_v3 m ρ c)

/-- `main_v27` is not written between the first stretch and boundary 2. -/
theorem at2_v27 : W2 m ρ c (Proc.devRef .tc main_v27) = Cert.ReferenceIdeal.Spec.coef (F := Ideal) (m ((c : Thread nD τ).loc main_arg1)) :=
  (W2_of_ne m ρ c main_v27 (by decide)).trans (at1_v27 m ρ c)

/-- `main_v12` is not written between the first stretch and boundary 3. -/
theorem at3_v12 : W3 m ρ c (Proc.devRef .tc main_v12) = selfCol (F := Ideal) (m ((c : Thread nD τ).loc main_arg1)) :=
  ((keep1_v12 (W2 m ρ c)).trans (W2_of_ne m ρ c main_v12 (by decide))).trans (at1_v12 m ρ c)

/-- `main_arg4` is not written between the first stretch and boundary 2. -/
theorem at2_arg4 : W2 m ρ c (Proc.devRef .tc main_arg4) = m ((c : Thread nD τ).loc main_arg4) :=
  (W2_of_ne m ρ c main_arg4 (by decide)).trans (keep0_arg4 (W0 m ρ c))

/-- `main_arg5` is not written between the first stretch and boundary 4. -/
theorem at4_arg5 : W4 m ρ c (Proc.devRef .tc main_arg5) = m ((c : Thread nD τ).loc main_arg5) :=
  ((W4_of_ne m ρ c main_arg5 (by decide)).trans ((keep1_arg5 (W2 m ρ c)).trans (W2_of_ne m ρ c main_arg5 (by decide)))).trans (keep0_arg5 (W0 m ρ c))

/-- `main_arg6` is not written between the first stretch and boundary 4. -/
theorem at4_arg6 : W4 m ρ c (Proc.devRef .tc main_arg6) = m ((c : Thread nD τ).loc main_arg6) :=
  ((W4_of_ne m ρ c main_arg6 (by decide)).trans ((keep1_arg6 (W2 m ρ c)).trans (W2_of_ne m ρ c main_arg6 (by decide)))).trans (keep0_arg6 (W0 m ρ c))

/-- `main_arg7` is not written between the first stretch and boundary 6. -/
theorem at6_arg7 : W6 m ρ c (Proc.devRef .tc main_arg7) = m ((c : Thread nD τ).loc main_arg7) :=
  ((W6_of_ne m ρ c main_arg7 (by decide)).trans ((keep2_arg7 (W4 m ρ c)).trans ((W4_of_ne m ρ c main_arg7 (by decide)).trans ((keep1_arg7 (W2 m ρ c)).trans (W2_of_ne m ρ c main_arg7 (by decide)))))).trans (keep0_arg7 (W0 m ρ c))

/-- `main_v1` is not written between the first stretch and boundary 7. -/
theorem at7_v1 : W7 m ρ c (Proc.devRef .tc main_v1) = Cert.ReferenceIdeal.Spec.src (F := Ideal) (m ((c : Thread nD τ).loc main_arg1)) :=
  ((W7_of_ne m ρ c main_v1 (by decide)).trans ((W6_of_ne m ρ c main_v1 (by decide)).trans ((keep2_v1 (W4 m ρ c)).trans ((W4_of_ne m ρ c main_v1 (by decide)).trans ((keep1_v1 (W2 m ρ c)).trans (W2_of_ne m ρ c main_v1 (by decide))))))).trans (at1_v1 m ρ c)

/-- `main_v3` is not written between the first stretch and boundary 7. -/
theorem at7_v3 : W7 m ρ c (Proc.devRef .tc main_v3) = Cert.ReferenceIdeal.Spec.dst (F := Ideal) (m ((c : Thread nD τ).loc main_arg1)) :=
  ((W7_of_ne m ρ c main_v3 (by decide)).trans ((W6_of_ne m ρ c main_v3 (by decide)).trans ((keep2_v3 (W4 m ρ c)).trans ((W4_of_ne m ρ c main_v3 (by decide)).trans ((keep1_v3 (W2 m ρ c)).trans (W2_of_ne m ρ c main_v3 (by decide))))))).trans (at1_v3 m ρ c)

/-- `main_v27` is not written between the first stretch and boundary 7. -/
theorem at7_v27 : W7 m ρ c (Proc.devRef .tc main_v27) = Cert.ReferenceIdeal.Spec.coef (F := Ideal) (m ((c : Thread nD τ).loc main_arg1)) :=
  ((W7_of_ne m ρ c main_v27 (by decide)).trans ((W6_of_ne m ρ c main_v27 (by decide)).trans ((keep2_v27 (W4 m ρ c)).trans ((W4_of_ne m ρ c main_v27 (by decide)).trans ((keep1_v27 (W2 m ρ c)).trans (W2_of_ne m ρ c main_v27 (by decide))))))).trans (at1_v27 m ρ c)

/-- `main_arg8` is not written between the first stretch and boundary 7. -/
theorem at7_arg8 : W7 m ρ c (Proc.devRef .tc main_arg8) = m ((c : Thread nD τ).loc main_arg8) :=
  ((W7_of_ne m ρ c main_arg8 (by decide)).trans ((W6_of_ne m ρ c main_arg8 (by decide)).trans ((keep2_arg8 (W4 m ρ c)).trans ((W4_of_ne m ρ c main_arg8 (by decide)).trans ((keep1_arg8 (W2 m ρ c)).trans (W2_of_ne m ρ c main_arg8 (by decide))))))).trans (keep0_arg8 (W0 m ρ c))

/-- `main_v12` is not written between the first stretch and boundary 8. -/
theorem at8_v12 : W8 m ρ c (Proc.devRef .tc main_v12) = selfCol (F := Ideal) (m ((c : Thread nD τ).loc main_arg1)) :=
  ((keep4_v12 (W7 m ρ c)).trans ((W7_of_ne m ρ c main_v12 (by decide)).trans ((W6_of_ne m ρ c main_v12 (by decide)).trans ((keep2_v12 (W4 m ρ c)).trans (((W4_arr m ρ c 2).trans (((dat1 (V3 m ρ) c).arrAt_in 2 rfl _).trans (A_eq1 (V3 m ρ) c 2))).trans ((keep1_v12 (W2 m ρ c)).trans (W2_of_ne m ρ c main_v12 (by decide)))))))).trans (at1_v12 m ρ c)

/-- `main_arg2` is not written between the first stretch and boundary 9. -/
theorem at9_arg2 : W9 m ρ c (Proc.devRef .tc main_arg2) = m ((c : Thread nD τ).loc main_arg2) :=
  ((W9_of_ne m ρ c main_arg2 (by decide)).trans ((keep4_arg2 (W7 m ρ c)).trans ((W7_of_ne m ρ c main_arg2 (by decide)).trans ((W6_of_ne m ρ c main_arg2 (by decide)).trans ((keep2_arg2 (W4 m ρ c)).trans ((W4_of_ne m ρ c main_arg2 (by decide)).trans ((keep1_arg2 (W2 m ρ c)).trans (W2_of_ne m ρ c main_arg2 (by decide))))))))).trans (keep0_arg2 (W0 m ρ c))

/-! ## The five regions and the stretches between them -/

/-- After the first region: the input features times the first weights. -/
theorem feat1 : W2 m ρ c (Proc.devRef .tc main_v28) = rowsByCols (m ((c : Thread nD τ).loc main_arg0)) (m ((c : Thread nD τ).loc main_arg3)) :=
  ((W2_arr m ρ c 2).trans (final0 (V1 m ρ) c)).trans
    (congrArg₂ rowsByCols (keep0_arg0 (W0 m ρ c)) (keep0_arg3 (W0 m ρ c)))

/-- After the second region: the first graph convolution. -/
theorem conv1 : W4 m ρ c (Proc.devRef .tc main_v43) = convK (rowsByCols (m ((c : Thread nD τ).loc main_arg0)) (m ((c : Thread nD τ).loc main_arg3))) (m ((c : Thread nD τ).loc main_arg1)) (m ((c : Thread nD τ).loc main_arg4)) := by
  have hf : W3 m ρ c (Proc.devRef .tc main_v28) = rowsByCols (m ((c : Thread nD τ).loc main_arg0)) (m ((c : Thread nD τ).loc main_arg3)) :=
    (keep1_v28 (W2 m ρ c)).trans (feat1 m ρ c)
  have ha : W3 m ρ c (Proc.devRef .tc main_v41)
      = aggr (rowsByCols (m ((c : Thread nD τ).loc main_arg0)) (m ((c : Thread nD τ).loc main_arg3))) (Cert.ReferenceIdeal.Spec.src (F := Ideal) (m ((c : Thread nD τ).loc main_arg1))) (Cert.ReferenceIdeal.Spec.dst (F := Ideal) (m ((c : Thread nD τ).loc main_arg1))) (Cert.ReferenceIdeal.Spec.coef (F := Ideal) (m ((c : Thread nD τ).loc main_arg1))) := by
    refine (aggr1 (W2 m ρ c)).trans ?_
    rw [feat1 m ρ c, at2_v1 m ρ c, at2_v3 m ρ c, at2_v27 m ρ c]
  have hb : W3 m ρ c (Proc.devRef .tc main_v42) = asRow (m ((c : Thread nD τ).loc main_arg4)) :=
    (bias1 (W2 m ρ c)).trans (congrArg asRow (at2_arg4 m ρ c))
  refine ((W4_arr m ρ c 4).trans (final1 (V3 m ρ) c)).trans ?_
  show combine (W3 m ρ c (Proc.devRef .tc main_v41)) (W3 m ρ c (Proc.devRef .tc main_v28)) (W3 m ρ c (Proc.devRef .tc main_v12)) (W3 m ρ c (Proc.devRef .tc main_v42)) = _
  rw [ha, hf, at3_v12 m ρ c, hb]
  rfl

/-- After the third region: the normalised and activated features. -/
theorem act1 : W6 m ρ c (Proc.devRef .tc main_v60)
    = actK (convK (rowsByCols (m ((c : Thread nD τ).loc main_arg0)) (m ((c : Thread nD τ).loc main_arg3))) (m ((c : Thread nD τ).loc main_arg1)) (m ((c : Thread nD τ).loc main_arg4))) (m ((c : Thread nD τ).loc main_arg5)) (m ((c : Thread nD τ).loc main_arg6)) := by
  have hc : W5 m ρ c (Proc.devRef .tc main_v43) = convK (rowsByCols (m ((c : Thread nD τ).loc main_arg0)) (m ((c : Thread nD τ).loc main_arg3))) (m ((c : Thread nD τ).loc main_arg1)) (m ((c : Thread nD τ).loc main_arg4)) :=
    (keep2_v43 (W4 m ρ c)).trans (conv1 m ρ c)
  have hm : W5 m ρ c (Proc.devRef .tc main_v47) = meanRow (convK (rowsByCols (m ((c : Thread nD τ).loc main_arg0)) (m ((c : Thread nD τ).loc main_arg3))) (m ((c : Thread nD τ).loc main_arg1)) (m ((c : Thread nD τ).loc main_arg4))) :=
    (mean2 (W4 m ρ c)).trans (congrArg meanRow (conv1 m ρ c))
  have hr : W5 m ρ c (Proc.devRef .tc main_v57) = rstdRow (convK (rowsByCols (m ((c : Thread nD τ).loc main_arg0)) (m ((c : Thread nD τ).loc main_arg3))) (m ((c : Thread nD τ).loc main_arg1)) (m ((c : Thread nD τ).loc main_arg4))) :=
    (rstd2 (W4 m ρ c)).trans (congrArg rstdRow (conv1 m ρ c))
  have hg : W5 m ρ c (Proc.devRef .tc main_v58) = asRow (m ((c : Thread nD τ).loc main_arg5)) :=
    (scale2 (W4 m ρ c)).trans (congrArg asRow (at4_arg5 m ρ c))
  have hs : W5 m ρ c (Proc.devRef .tc main_v59) = asRow (m ((c : Thread nD τ).loc main_arg6)) :=
    (shift2 (W4 m ρ c)).trans (congrArg asRow (at4_arg6 m ρ c))
  refine ((W6_arr m ρ c 5).trans (final2 (V5 m ρ) c)).trans ?_
  show normAct (W5 m ρ c (Proc.devRef .tc main_v43)) (W5 m ρ c (Proc.devRef .tc main_v47)) (W5 m ρ c (Proc.devRef .tc main_v57)) (W5 m ρ c (Proc.devRef .tc main_v58)) (W5 m ρ c (Proc.devRef .tc main_v59)) = _
  rw [hc, hm, hr, hg, hs]
  rfl

/-- After the fourth region: the activated features times the second weights. -/
theorem feat2 : W7 m ρ c (Proc.devRef .tc main_v61)
    = rowsByCols (actK (convK (rowsByCols (m ((c : Thread nD τ).loc main_arg0)) (m ((c : Thread nD τ).loc main_arg3))) (m ((c : Thread nD τ).loc main_arg1)) (m ((c : Thread nD τ).loc main_arg4))) (m ((c : Thread nD τ).loc main_arg5)) (m ((c : Thread nD τ).loc main_arg6))) (m ((c : Thread nD τ).loc main_arg7)) :=
  ((W7_arr m ρ c 2).trans (final3 (V6 m ρ) c)).trans
    (congrArg₂ rowsByCols (act1 m ρ c) (at6_arg7 m ρ c))

/-- After the fifth region: the node result. -/
theorem node9 : W9 m ρ c (Proc.devRef .tc main_v76)
    = kout117 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hf : W8 m ρ c (Proc.devRef .tc main_v61)
      = rowsByCols (actK (convK (rowsByCols (m ((c : Thread nD τ).loc main_arg0)) (m ((c : Thread nD τ).loc main_arg3))) (m ((c : Thread nD τ).loc main_arg1)) (m ((c : Thread nD τ).loc main_arg4))) (m ((c : Thread nD τ).loc main_arg5)) (m ((c : Thread nD τ).loc main_arg6))) (m ((c : Thread nD τ).loc main_arg7)) :=
    (keep4_v61 (W7 m ρ c)).trans (feat2 m ρ c)
  have ha : W8 m ρ c (Proc.devRef .tc main_v74)
      = aggr (rowsByCols (actK (convK (rowsByCols (m ((c : Thread nD τ).loc main_arg0)) (m ((c : Thread nD τ).loc main_arg3))) (m ((c : Thread nD τ).loc main_arg1)) (m ((c : Thread nD τ).loc main_arg4))) (m ((c : Thread nD τ).loc main_arg5)) (m ((c : Thread nD τ).loc main_arg6))) (m ((c : Thread nD τ).loc main_arg7)))
          (Cert.ReferenceIdeal.Spec.src (F := Ideal) (m ((c : Thread nD τ).loc main_arg1))) (Cert.ReferenceIdeal.Spec.dst (F := Ideal) (m ((c : Thread nD τ).loc main_arg1))) (Cert.ReferenceIdeal.Spec.coef (F := Ideal) (m ((c : Thread nD τ).loc main_arg1))) := by
    refine (aggr4 (W7 m ρ c)).trans ?_
    rw [feat2 m ρ c, at7_v1 m ρ c, at7_v3 m ρ c, at7_v27 m ρ c]
  have hb : W8 m ρ c (Proc.devRef .tc main_v75) = asRow (m ((c : Thread nD τ).loc main_arg8)) :=
    (bias4 (W7 m ρ c)).trans (congrArg asRow (at7_arg8 m ρ c))
  refine ((W9_arr m ρ c 4).trans (final4 (V8 m ρ) c)).trans ?_
  show combine (W8 m ρ c (Proc.devRef .tc main_v74)) (W8 m ρ c (Proc.devRef .tc main_v61)) (W8 m ρ c (Proc.devRef .tc main_v12)) (W8 m ρ c (Proc.devRef .tc main_v75)) = _
  rw [ha, hf, at8_v12 m ρ c, hb]
  rfl

/-! ## The two results -/

/-- The node result at the last boundary. -/
theorem node : W10 m ρ c (Proc.devRef .tc main_v76)
    = kout117 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (keep5_v76 (W9 m ρ c)).trans (node9 m ρ c)

/-- The graph result at the last boundary. -/
theorem graph : W10 m ρ c (Proc.devRef .tc main_v88)
    = kout129 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (pool5 (W9 m ρ c)).trans ?_
  rw [node9 m ρ c, at9_arg2 m ρ c]
  rfl

end Cert.KernelIdeal.KValue

end
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«106839_j88029649698964_1_alg».proof.Proof.LibDotSums
import proofs.«106839_j88029649698964_1_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.BridgeConv.lean ====
/-
  The kernel program's product and convolution stages are the reference's.

  Over the exact values the tiled product, entry (n, j) = the sum over k of x (n, k) * w (k, j), is the host's general
  product; and a graph convolution is the same sum in both programs — the messages are the same host operations on the
  same arrays, and  aggregate + h * c + b  reads the per-node scale c at row n and the bias b at column j, whether the
  scale is a column [50000, 1] and the bias a row [1, 64] read inside a tile, or both are repeated over the whole array
  by broadcasts.
-/
import proofs.«106839_j88029649698964_1_alg».proof.Proof.KSpec
import proofs.«106839_j88029649698964_1_alg».proof.Proof.LibDenseLayer
import proofs.«106839_j88029649698964_1_alg».proof.Proof.LibBiasRow
import proofs.«106839_j88029649698964_1_alg».proof.Proof.LibColumn
import Idealize.ShloMosaic.Lib.ValueIdx
import Idealize.ShloMosaic.Lib.ValueLayout

open scoped BigOperators

noncomputable section

namespace Cert.Bridge

open Cert.KernelIdeal Cert.KernelIdeal.KSpec
open Cert.KernelIdeal.Blocks (rowsByCols)
open Cert.KernelIdeal.Blocks2 (combine)
open Cert.KernelIdeal.Blocks3 (normAct act)
open Idealize.ShloMosaic Idealize.ShloMosaic.ValueIdx Idealize.SL.Sem
open Facts₀ Facts

attribute [local irreducible] Host.scatterAdd Host.gather Host.reduceAdd

/-- A vector over the features repeated down the rows reads, at (n, j), its entry j. -/
theorem rowb_apply (v : (⟨S64, .f32⟩ : BufTy).Contents (Elt Ideal)) (p : Fin 50000) (q : Fin 64) :
    Cert.ReferenceIdeal.Spec.rowb (F := Ideal) v (ix2 p q) = v (ix1 q) := by
  unfold Cert.ReferenceIdeal.Spec.rowb
  rw [Cert.BiasRow.down_apply, Cert.BiasRow.row_apply]

/-- The tiled product is the host's general product. -/
theorem dot_eq (x : (⟨S50000x64, .f32⟩ : BufTy).Contents (Elt Ideal)) (w : (⟨S64x64, .f32⟩ : BufTy).Contents (Elt Ideal)) :
    rowsByCols x w = Cert.ReferenceIdeal.Spec.dot (F := Ideal) x w := by
  funext i
  obtain ⟨p, q, rfl⟩ : ∃ (p : Fin 50000) (q : Fin 64), i = ix2 p q := ⟨i 0, i 1, eq_ix2 i⟩
  unfold Cert.ReferenceIdeal.Spec.dot
  exact (Cert.DenseLayer.host_product_apply Cert.ReferenceIdeal.dot_S50000x64_S64x64_S50000x64_1_0_0_1_n_n
    rfl rfl rfl rfl rfl rfl rfl rfl none x w p q).symm

/-- The messages in the kernel program's spelling are the messages in the reference's: the same operations with the
    same dimension numbers. -/
theorem aggr_eq (h : (⟨S50000x64, .f32⟩ : BufTy).Contents (Elt Ideal)) (s d : (⟨S800000, .i32⟩ : BufTy).Contents (Elt Ideal)) (cf : (⟨S800000, .f32⟩ : BufTy).Contents (Elt Ideal)) :
    aggr (F := Ideal) h s d cf = (Host.scatterAdd Cert.ReferenceIdeal.scatter_S50000x64_S800000x1_S800000x64_1_0_0_1
        (broadcastInDim Cert.ReferenceIdeal.S50000x64 ![] Cert.ReferenceIdeal.Facts₀.bcast_S_S50000x64 (constant (F := Ideal) Cert.ReferenceIdeal.S_ .f32 0x00000000#32))
        (Cert.ReferenceIdeal.Spec.col (F := Ideal) d)
        (mulf (Host.gather Cert.ReferenceIdeal.gather_S50000x64_S800000x1_S800000x64_1_0_n_n_0_1_164 h (Cert.ReferenceIdeal.Spec.col (F := Ideal) (Cert.ReferenceIdeal.Spec.wrap (F := Ideal) s)))
          (broadcastInDim Cert.ReferenceIdeal.S800000x64 ![0, 1] Cert.ReferenceIdeal.Facts₀.bcast_S800000x1_S800000x64_0_1
            (broadcastInDim Cert.ReferenceIdeal.S800000x1 ![0] Cert.ReferenceIdeal.Facts₀.bcast_S800000_S800000x1_0 cf)))) := by
  unfold aggr wrapIdx Cert.ReferenceIdeal.Spec.col Cert.ReferenceIdeal.Spec.wrap
  rfl

/-- aggregate + h * c + b  with the per-node scale a column read inside a tile and the bias a row is the same array as
    with both repeated over the whole array by broadcasts: at (n, j) both read the scale at n and the bias at j. -/
theorem combine_eq (agg h : FVec Ideal S50000x64 .f32) (d : FVec Ideal S50000 .f32) (b : FVec Ideal S64 .f32) :
    combine agg h (shapeCast S50000x1 d shapeCasts_S50000_S50000x1) (shapeCast S1x64 b shapeCasts_S64_S1x64)
      = addf (addf agg (mulf h (broadcastInDim Cert.ReferenceIdeal.S50000x64 ![0, 1] Cert.ReferenceIdeal.Facts₀.bcast_S50000x1_S50000x64_0_1
          (broadcastInDim Cert.ReferenceIdeal.S50000x1 ![0] Cert.ReferenceIdeal.Facts₀.bcast_S50000_S50000x1_0 d)))) (Cert.ReferenceIdeal.Spec.rowb (F := Ideal) b) := by
  funext i
  obtain ⟨p, q, rfl⟩ : ∃ (p : Fin 50000) (q : Fin 64), i = ix2 p q := ⟨i 0, i 1, eq_ix2 i⟩
  show (agg (ix2 p q) + h (ix2 p q) * shapeCast S50000x1 d shapeCasts_S50000_S50000x1 (ix2 p (0 : Fin 1)))
      + shapeCast S1x64 b shapeCasts_S64_S1x64 (ix2 (0 : Fin 1) q) = _
  rw [addf_apply, addf_apply, mulf_apply, Cert.Column.cast_apply, shapeCast_a_1a_apply, Cert.Column.across_apply,
    Cert.Column.place_apply, rowb_apply]

/-- A graph convolution as the kernel program computes it is the reference's. -/
theorem conv_eq (h : (⟨S50000x64, .f32⟩ : BufTy).Contents (Elt Ideal)) (ei : (⟨S2x800000, .i32⟩ : BufTy).Contents (Elt Ideal)) (b : (⟨S64, .f32⟩ : BufTy).Contents (Elt Ideal)) :
    convK h ei b = Cert.ReferenceIdeal.Spec.conv (F := Ideal) h ei b := by
  unfold convK selfCol asRow Cert.ReferenceIdeal.Spec.conv
  rw [aggr_eq]
  exact combine_eq _ h _ b

end Cert.Bridge

end
-- ==== Proof.BridgeNorm.lean ====
/-
  The kernel program's normalise-and-activate stage is the reference's.

  The column means (and the reciprocal deviations) kept as rows [1, 64] have, at column j, the entries of the same
  quantities kept as vectors [64]: sum / 50000 is taken entry by entry either way, so the normalised features agree
  entry by entry. The activation  y if y > 0 else exp y - 1  is  y if y > 0 else 1 * (exp (0 if y > 0 else y) - 1):
  where the comparison fails the inner choice is y itself, and multiplying by one changes nothing.
-/
import proofs.«106839_j88029649698964_1_alg».proof.Proof.KSpec
import proofs.«106839_j88029649698964_1_alg».proof.Proof.BridgeConv
import proofs.«106839_j88029649698964_1_alg».proof.Proof.LibDenseLayer
import proofs.«106839_j88029649698964_1_alg».proof.Proof.LibBiasRow
import proofs.«106839_j88029649698964_1_alg».proof.Proof.LibColumn
import Idealize.ShloMosaic.Lib.ValueIdx
import Idealize.ShloMosaic.Lib.ValueLayout

open scoped BigOperators

noncomputable section

namespace Cert.Bridge

open Cert.KernelIdeal Cert.KernelIdeal.KSpec
open Cert.KernelIdeal.Blocks (rowsByCols)
open Cert.KernelIdeal.Blocks2 (combine)
open Cert.KernelIdeal.Blocks3 (normAct act)
open Idealize.ShloMosaic Idealize.ShloMosaic.ValueIdx Idealize.SL.Sem
open Facts₀ Facts

attribute [local irreducible] Host.scatterAdd Host.gather Host.reduceAdd

/-- The column means kept as a row have, at column j, the entries of the means kept as a vector. -/
theorem meanRow_apply (h : (⟨S50000x64, .f32⟩ : BufTy).Contents (Elt Ideal)) (u : Fin 1) (q : Fin 64) :
    meanRow h (ix2 u q) = Cert.ReferenceIdeal.Spec.mean (F := Ideal) h (ix1 q) := by
  unfold meanRow Cert.ReferenceIdeal.Spec.mean Host.divf
  dsimp only
  rw [Cert.BiasRow.row_apply, Cert.DenseLayer.scalar_apply, Cert.DenseLayer.scalar_apply]

/-- The deviations from the column means are the same array in both programs. -/
theorem centred_eq (h : (⟨S50000x64, .f32⟩ : BufTy).Contents (Elt Ideal)) :
    centred h = subf (F := Ideal) (s := S50000x64) (φ := FTy.f32) h (Cert.ReferenceIdeal.Spec.rowb (F := Ideal) (Cert.ReferenceIdeal.Spec.mean (F := Ideal) h)) := by
  funext i
  obtain ⟨p, q, rfl⟩ : ∃ (p : Fin 50000) (q : Fin 64), i = ix2 p q := ⟨i 0, i 1, eq_ix2 i⟩
  show h (ix2 p q) - broadcastInDim S50000x64 ![0, 1] bcast_S1x64_S50000x64_0_1 (meanRow h) (ix2 p q)
    = h (ix2 p q) - Cert.ReferenceIdeal.Spec.rowb (F := Ideal) (Cert.ReferenceIdeal.Spec.mean (F := Ideal) h) (ix2 p q)
  rw [Cert.BiasRow.down_apply, meanRow_apply, rowb_apply]

/-- The reciprocal deviations kept as a row have, at column j, the entries of the same quantities kept as a vector. -/
theorem rstdRow_apply (h : (⟨S50000x64, .f32⟩ : BufTy).Contents (Elt Ideal)) (u : Fin 1) (q : Fin 64) :
    rstdRow h (ix2 u q)
      = Host.rsqrt (addf (Cert.ReferenceIdeal.Spec.var (F := Ideal) h)
          (broadcastInDim Cert.ReferenceIdeal.S64 ![] Cert.ReferenceIdeal.Facts₀.bcast_S_S64 (constant (F := Ideal) Cert.ReferenceIdeal.S_ .f32 0x3727C5AC#32))) (ix1 q) := by
  unfold rstdRow
  rw [centred_eq]
  unfold Cert.ReferenceIdeal.Spec.var Host.rsqrt Host.divf addf
  dsimp only
  rw [Cert.BiasRow.row_apply]
  simp only [Cert.DenseLayer.scalar_apply]

/-- The activation spelt with a subtraction of one is the activation spelt with a guarded `exp - 1` times one. -/
theorem act_eq_guarded (y : EReal) :
    act y = Scalar.select (FloatOps.cmpf (F := Ideal) (φ := .f32) .ogt y (Ideal.ofBits .f32 0x00000000#32)) y
      (Ideal.ofBits .f32 0x3F800000#32
        * (Ideal.exp (Scalar.select (FloatOps.cmpf (F := Ideal) (φ := .f32) .ogt y (Ideal.ofBits .f32 0x00000000#32))
            (Ideal.ofBits .f32 0x00000000#32) y) - 1)) := by
  unfold act
  rcases BitVec.eq_zero_or_eq_one (FloatOps.cmpf (F := Ideal) (φ := .f32) .ogt y (Ideal.ofBits .f32 0x00000000#32)) with hc | hc
  · rw [hc, select_zero, select_zero, select_zero, Cert.DenseLayer.one_word, one_mul]
  · rw [hc, select_one, select_one]

/-- The reference's activation read at an entry. -/
theorem elu_apply (y : (⟨S50000x64, .f32⟩ : BufTy).Contents (Elt Ideal)) (i : S50000x64.Idx) :
    Cert.ReferenceIdeal.Spec.elu (F := Ideal) y i
      = Scalar.select (FloatOps.cmpf (F := Ideal) (φ := .f32) .ogt (y i) (Ideal.ofBits .f32 0x00000000#32)) (y i)
          (Ideal.ofBits .f32 0x3F800000#32
            * (Ideal.exp (Scalar.select (FloatOps.cmpf (F := Ideal) (φ := .f32) .ogt (y i) (Ideal.ofBits .f32 0x00000000#32)) (Ideal.ofBits .f32 0x00000000#32) (y i)) - 1)) := by
  unfold Cert.ReferenceIdeal.Spec.elu
  rfl

/-- The reference's normalised features read at an entry. -/
theorem bnorm_apply (h : (⟨S50000x64, .f32⟩ : BufTy).Contents (Elt Ideal)) (g be : (⟨S64, .f32⟩ : BufTy).Contents (Elt Ideal)) (p : Fin 50000) (q : Fin 64) :
    Cert.ReferenceIdeal.Spec.bnorm (F := Ideal) h g be (ix2 p q)
      = ((h (ix2 p q) - Cert.ReferenceIdeal.Spec.mean (F := Ideal) h (ix1 q))
          * Host.rsqrt (addf (Cert.ReferenceIdeal.Spec.var (F := Ideal) h) (broadcastInDim Cert.ReferenceIdeal.S64 ![] Cert.ReferenceIdeal.Facts₀.bcast_S_S64 (constant (F := Ideal) Cert.ReferenceIdeal.S_ .f32 0x3727C5AC#32))) (ix1 q)) * g (ix1 q) + be (ix1 q) := by
  unfold Cert.ReferenceIdeal.Spec.bnorm
  simp only [addf_apply, mulf_apply, subf_apply, rowb_apply]

/-- Normalisation and activation as the kernel program computes them are the reference's. -/
theorem act_eq (h : (⟨S50000x64, .f32⟩ : BufTy).Contents (Elt Ideal)) (g be : (⟨S64, .f32⟩ : BufTy).Contents (Elt Ideal)) :
    actK h g be = Cert.ReferenceIdeal.Spec.elu (F := Ideal) (Cert.ReferenceIdeal.Spec.bnorm (F := Ideal) h g be) := by
  funext i
  obtain ⟨p, q, rfl⟩ : ∃ (p : Fin 50000) (q : Fin 64), i = ix2 p q := ⟨i 0, i 1, eq_ix2 i⟩
  have hy : ((h (ix2 p q) - meanRow h (ix2 (0 : Fin 1) q)) * rstdRow h (ix2 (0 : Fin 1) q)) * asRow g (ix2 (0 : Fin 1) q)
        + asRow be (ix2 (0 : Fin 1) q) = Cert.ReferenceIdeal.Spec.bnorm (F := Ideal) h g be (ix2 p q) := by
    unfold asRow
    rw [meanRow_apply, rstdRow_apply, shapeCast_a_1a_apply, shapeCast_a_1a_apply, bnorm_apply]
  show act (((h (ix2 p q) - meanRow h (ix2 (0 : Fin 1) q)) * rstdRow h (ix2 (0 : Fin 1) q)) * asRow g (ix2 (0 : Fin 1) q)
        + asRow be (ix2 (0 : Fin 1) q)) = _
  rw [hy, act_eq_guarded, elu_apply]

end Cert.Bridge

end
-- ==== Proof.Bridge.lean ====
/-
  The kernel program's two results are the reference's: its stages composed in the same order, each stage equal to the
  reference's. No step moves a factor across a sum or cancels anything, so nothing here asks the entries to be finite.
-/
import proofs.«106839_j88029649698964_1_alg».proof.Proof.BridgeConv
import proofs.«106839_j88029649698964_1_alg».proof.Proof.BridgeNorm

open scoped BigOperators

noncomputable section

namespace Cert.Bridge

open Cert.KernelIdeal Cert.KernelIdeal.KSpec
open Cert.KernelIdeal.Blocks (rowsByCols)
open Cert.KernelIdeal.Blocks2 (combine)
open Cert.KernelIdeal.Blocks3 (normAct act)
open Idealize.ShloMosaic Idealize.ShloMosaic.ValueIdx Idealize.SL.Sem
open Facts₀ Facts

attribute [local irreducible] Host.scatterAdd Host.gather Host.reduceAdd

/-- The node result of the kernel program is the reference's. -/
theorem kout117_eq (x : (⟨S50000x64, .f32⟩ : BufTy).Contents (Elt Ideal)) (ei : (⟨S2x800000, .i32⟩ : BufTy).Contents (Elt Ideal)) (W1 : (⟨S64x64, .f32⟩ : BufTy).Contents (Elt Ideal))
    (b1 g be : (⟨S64, .f32⟩ : BufTy).Contents (Elt Ideal)) (W2 : (⟨S64x64, .f32⟩ : BufTy).Contents (Elt Ideal)) (b2 : (⟨S64, .f32⟩ : BufTy).Contents (Elt Ideal)) :
    kout117 x ei W1 b1 g be W2 b2 = Cert.ReferenceIdeal.Spec.out117 (F := Ideal) x ei W1 b1 g be W2 b2 := by
  unfold kout117 Cert.ReferenceIdeal.Spec.out117
  rw [dot_eq, conv_eq, act_eq, dot_eq, conv_eq]

/-- The graph result of the kernel program is the reference's. -/
theorem kout129_eq (x : (⟨S50000x64, .f32⟩ : BufTy).Contents (Elt Ideal)) (ei : (⟨S2x800000, .i32⟩ : BufTy).Contents (Elt Ideal)) (batch : (⟨S50000, .i32⟩ : BufTy).Contents (Elt Ideal))
    (W1 : (⟨S64x64, .f32⟩ : BufTy).Contents (Elt Ideal)) (b1 g be : (⟨S64, .f32⟩ : BufTy).Contents (Elt Ideal)) (W2 : (⟨S64x64, .f32⟩ : BufTy).Contents (Elt Ideal)) (b2 : (⟨S64, .f32⟩ : BufTy).Contents (Elt Ideal)) :
    kout129 x ei batch W1 b1 g be W2 b2 = Cert.ReferenceIdeal.Spec.out129 (F := Ideal) x ei batch W1 b1 g be W2 b2 := by
  unfold kout129 Cert.ReferenceIdeal.Spec.out129
  rw [kout117_eq]

end Cert.Bridge

end
-- ==== Proof.RefRun.lean ====
/-
  The run of the reference's @main, and its results as the stage functions of RefSpec.

  @main is a straight line of host operations (the call of the ELU function unfolded at its call site, over the
  call's own buffers), so its run is the library's run of a list of operations: every weakly fair execution
  terminates and leaves each buffer at the fold of the operations over the launch contents. The list is cut
  where a stage of the computation ends; the fold is read off stage by stage: after each piece, the buffers
  that later pieces read hold the stage functions of the argument contents, and a buffer a piece does not
  write keeps what it held.
-/
import proofs.«106839_j88029649698964_1_alg».proof.Proof.RefSpec
import proofs.«106839_j88029649698964_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-! ## The operations, in order, cut at the stages -/

/-- The edge table's two rows as index vectors (slice, reshape) and the first layer's product of the features with its weights. -/
abbrev s0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The degree normaliser: ones summed at the destinations, plus one, under the reciprocal square root. -/
abbrev s1 : List (HloOp τ sig (Elt F)) :=
  [ nullary main_cst (constant S_ .f32 0x3F800000#32),
    unary main_cst main_v5 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S800000x1 ![0] bcast_S800000_S800000x1_0 : (⟨S800000, .i32⟩ : BufTy).Contents (Elt F) → (⟨S800000x1, .i32⟩ : BufTy).Contents (Elt F)),
    ternary main_v6 main_v7 main_v5 main_v8 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)) ]

/-- The edge weights: the normaliser gathered at each edge's wrapped source and wrapped destination, multiplied. -/
abbrev s2 : List (HloOp τ sig (Elt F)) :=
  [ nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)) ]

/-- The first convolution: rows gathered at the sources, scaled by the edge weights, summed at the destinations; the self loop; the bias. -/
abbrev s3 : List (HloOp τ sig (Elt F)) :=
  [ nullary main_c_5 (constantI S_ 32 0#32),
    unary main_c_5 main_v27 (broadcastInDim S800000 ![] bcast_S_S800000 : (⟨S_, .i32⟩ : BufTy).Contents (Elt F) → (⟨S800000, .i32⟩ : BufTy).Contents (Elt F)),
    binary main_v1 main_v27 main_v28 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v29 (broadcastInDim S800000 ![] bcast_S_S800000 : (⟨S_, .i32⟩ : BufTy).Contents (Elt F) → (⟨S800000, .i32⟩ : BufTy).Contents (Elt F)),
    binary main_v1 main_v29 main_v30 (addi : (⟨S800000, .i32⟩ : BufTy).Contents (Elt F) → (⟨S800000, .i32⟩ : BufTy).Contents (Elt F) → (⟨S800000, .i32⟩ : BufTy).Contents (Elt F)),
    ternary main_v28 main_v30 main_v1 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v31 main_v32 (broadcastInDim S800000x1 ![0] bcast_S800000_S800000x1_0 : (⟨S800000, .i32⟩ : BufTy).Contents (Elt F) → (⟨S800000x1, .i32⟩ : BufTy).Contents (Elt F)),
    binary main_v4 main_v32 main_v33 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v26 main_v34 (broadcastInDim S800000x1 ![0] bcast_S800000_S800000x1_0 : (⟨S800000, .f32⟩ : BufTy).Contents (Elt F) → (⟨S800000x1, .f32⟩ : BufTy).Contents (Elt F)),
    unary main_v34 main_v35 (broadcastInDim S800000x64 ![0, 1] bcast_S800000x1_S800000x64_0_1 : (⟨S800000x1, .f32⟩ : BufTy).Contents (Elt F) → (⟨S800000x64, .f32⟩ : BufTy).Contents (Elt F)),
    binary main_v33 main_v35 main_v36 (mulf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v37 (broadcastInDim S50000x64 ![] bcast_S_S50000x64 : (⟨S_, .f32⟩ : BufTy).Contents (Elt F) → (⟨S50000x64, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v11 main_v11 main_v40 (mulf : (⟨S50000, .f32⟩ : BufTy).Contents (Elt F) → (⟨S50000, .f32⟩ : BufTy).Contents (Elt F) → (⟨S50000, .f32⟩ : BufTy).Contents (Elt F)),
    unary main_v40 main_v41 (broadcastInDim S50000x1 ![0] bcast_S50000_S50000x1_0 : (⟨S50000, .f32⟩ : BufTy).Contents (Elt F) → (⟨S50000x1, .f32⟩ : BufTy).Contents (Elt F)),
    unary main_v41 main_v42 (broadcastInDim S50000x64 ![0, 1] bcast_S50000x1_S50000x64_0_1 : (⟨S50000x1, .f32⟩ : BufTy).Contents (Elt F) → (⟨S50000x64, .f32⟩ : BufTy).Contents (Elt F)),
    binary main_v4 main_v42 main_v43 (mulf : (⟨S50000x64, .f32⟩ : BufTy).Contents (Elt F) → (⟨S50000x64, .f32⟩ : BufTy).Contents (Elt F) → (⟨S50000x64, .f32⟩ : BufTy).Contents (Elt F)),
    binary main_v39 main_v43 main_v44 (addf : (⟨S50000x64, .f32⟩ : BufTy).Contents (Elt F) → (⟨S50000x64, .f32⟩ : BufTy).Contents (Elt F) → (⟨S50000x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S50000x64 ![0, 1] bcast_S1x64_S50000x64_0_1 : (⟨S1x64, .f32⟩ : BufTy).Contents (Elt F) → (⟨S50000x64, .f32⟩ : BufTy).Contents (Elt F)),
    binary main_v44 main_v46 main_v47 (addf : (⟨S50000x64, .f32⟩ : BufTy).Contents (Elt F) → (⟨S50000x64, .f32⟩ : BufTy).Contents (Elt F) → (⟨S50000x64, .f32⟩ : BufTy).Contents (Elt F)) ]

/-- The column sums of the first convolution's result (the batch normalisation's first reduction). -/
abbrev s4a : List (HloOp τ sig (Elt F)) :=
  [ nullary main_cst_8 (constant S_ .f32 0x00000000#32),
    binary main_v47 main_cst_8 main_v48 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ]

/-- The rest of the batch normalisation: the mean, the variance, the scale by the reciprocal square root and by gamma, the shift by beta. -/
abbrev s4b : List (HloOp τ sig (Elt F)) :=
  [ nullary main_cst_9 (constant S_ .f32 0x47435000#32),
    unary main_cst_9 main_v49 (broadcastInDim S64 ![] bcast_S_S64 : (⟨S_, .f32⟩ : BufTy).Contents (Elt F) → (⟨S64, .f32⟩ : BufTy).Contents (Elt F)),
    binary main_v48 main_v49 main_v50 (Host.divf : (⟨S64, .f32⟩ : BufTy).Contents (Elt F) → (⟨S64, .f32⟩ : BufTy).Contents (Elt F) → (⟨S64, .f32⟩ : BufTy).Contents (Elt F)),
    unary main_v50 main_v51 (broadcastInDim S1x64 ![1] bcast_S64_S1x64_1 : (⟨S64, .f32⟩ : BufTy).Contents (Elt F) → (⟨S1x64, .f32⟩ : BufTy).Contents (Elt F)),
    unary main_v51 main_v52 (broadcastInDim S50000x64 ![0, 1] bcast_S1x64_S50000x64_0_1 : (⟨S1x64, .f32⟩ : BufTy).Contents (Elt F) → (⟨S50000x64, .f32⟩ : BufTy).Contents (Elt F)),
    binary main_v47 main_v52 main_v53 (subf : (⟨S50000x64, .f32⟩ : BufTy).Contents (Elt F) → (⟨S50000x64, .f32⟩ : BufTy).Contents (Elt F) → (⟨S50000x64, .f32⟩ : BufTy).Contents (Elt F)),
    binary main_v53 main_v53 main_v54 (mulf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x00000000#32),
    binary main_v54 main_cst_10 main_v55 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_11 (constant S_ .f32 0x47435000#32),
    unary main_cst_11 main_v56 (broadcastInDim S64 ![] bcast_S_S64 : (⟨S_, .f32⟩ : BufTy).Contents (Elt F) → (⟨S64, .f32⟩ : BufTy).Contents (Elt F)),
    binary main_v55 main_v56 main_v57 (Host.divf : (⟨S64, .f32⟩ : BufTy).Contents (Elt F) → (⟨S64, .f32⟩ : BufTy).Contents (Elt F) → (⟨S64, .f32⟩ : BufTy).Contents (Elt F)),
    unary main_v50 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v47 main_v59 main_v60 (subf : (⟨S50000x64, .f32⟩ : BufTy).Contents (Elt F) → (⟨S50000x64, .f32⟩ : BufTy).Contents (Elt F) → (⟨S50000x64, .f32⟩ : BufTy).Contents (Elt F)),
    nullary main_cst_12 (constant S_ .f32 0x3727C5AC#32),
    unary main_cst_12 main_v61 (broadcastInDim S64 ![] bcast_S_S64 : (⟨S_, .f32⟩ : BufTy).Contents (Elt F) → (⟨S64, .f32⟩ : BufTy).Contents (Elt F)),
    binary main_v57 main_v61 main_v62 (addf : (⟨S64, .f32⟩ : BufTy).Contents (Elt F) → (⟨S64, .f32⟩ : BufTy).Contents (Elt F) → (⟨S64, .f32⟩ : BufTy).Contents (Elt F)),
    unary main_v62 main_v63 (Host.rsqrt : (⟨S64, .f32⟩ : BufTy).Contents (Elt F) → (⟨S64, .f32⟩ : BufTy).Contents (Elt F)),
    unary main_v63 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v60 main_v65 main_v66 (mulf : (⟨S50000x64, .f32⟩ : BufTy).Contents (Elt F) → (⟨S50000x64, .f32⟩ : BufTy).Contents (Elt F) → (⟨S50000x64, .f32⟩ : BufTy).Contents (Elt F)),
    unary main_arg5 main_v67 (broadcastInDim S1x64 ![1] bcast_S64_S1x64_1 : (⟨S64, .f32⟩ : BufTy).Contents (Elt F) → (⟨S1x64, .f32⟩ : BufTy).Contents (Elt F)),
    unary main_v67 main_v68 (broadcastInDim S50000x64 ![0, 1] bcast_S1x64_S50000x64_0_1 : (⟨S1x64, .f32⟩ : BufTy).Contents (Elt F) → (⟨S50000x64, .f32⟩ : BufTy).Contents (Elt F)),
    binary main_v66 main_v68 main_v69 (mulf : (⟨S50000x64, .f32⟩ : BufTy).Contents (Elt F) → (⟨S50000x64, .f32⟩ : BufTy).Contents (Elt F) → (⟨S50000x64, .f32⟩ : BufTy).Contents (Elt F)),
    unary main_arg6 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v69 main_v71 main_v72 (addf : (⟨S50000x64, .f32⟩ : BufTy).Contents (Elt F) → (⟨S50000x64, .f32⟩ : BufTy).Contents (Elt F) → (⟨S50000x64, .f32⟩ : BufTy).Contents (Elt F)) ]

/-- ELU, the function's operations inline at its call: the two comparisons with zero, the inner selection, exp minus one, the outer selection. -/
abbrev s5 : List (HloOp τ sig (Elt F)) :=
  [ TRef.nullary main_call0.cst (constant S_ .f32 0x00000000#32),
    TRef.unary main_call0.cst main_call0.v0 (broadcastInDim S50000x64 ![] bcast_S_S50000x64),
    TRef.binary (.of main_v72 : TRef sig ⟨S50000x64, .f32⟩) main_call0.v0 main_call0.v1 (cmpf .ogt),
    TRef.nullary main_call0.cst_0 (constant S_ .f32 0x00000000#32),
    TRef.unary main_call0.cst_0 main_call0.v2 (broadcastInDim S50000x64 ![] bcast_S_S50000x64),
    TRef.binary (.of main_v72 : TRef sig ⟨S50000x64, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x64 ![] bcast_S_S50000x64),
    TRef.ternary main_call0.v3 main_call0.call0.v1 (.of main_v72 : TRef sig ⟨S50000x64, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x64 ![] bcast_S_S50000x64),
    TRef.binary main_call0.v6 main_call0.v5 main_call0.v7 mulf,
    TRef.ternary main_call0.v1 (.of main_v72 : TRef sig ⟨S50000x64, .f32⟩) main_call0.v7 main_call0.call1.v0 select ]

/-- The second layer's product with its weights. -/
abbrev s6 : List (HloOp τ sig (Elt F)) :=
  [ binary main_v73 main_arg7 main_v74 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The degree normaliser, computed a second time by the same operations. -/
abbrev s7 : List (HloOp τ sig (Elt F)) :=
  [ nullary main_cst_13 (constant S_ .f32 0x3F800000#32),
    unary main_cst_13 main_v75 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v76 (broadcastInDim S50000 ![] bcast_S_S50000 : (⟨S_, .f32⟩ : BufTy).Contents (Elt F) → (⟨S50000, .f32⟩ : BufTy).Contents (Elt F)),
    unary main_v3 main_v77 (broadcastInDim S800000x1 ![0] bcast_S800000_S800000x1_0 : (⟨S800000, .i32⟩ : BufTy).Contents (Elt F) → (⟨S800000x1, .i32⟩ : BufTy).Contents (Elt F)),
    ternary main_v76 main_v77 main_v75 main_v78 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v79 (broadcastInDim S50000 ![] bcast_S_S50000 : (⟨S_, .f32⟩ : BufTy).Contents (Elt F) → (⟨S50000, .f32⟩ : BufTy).Contents (Elt F)),
    binary main_v78 main_v79 main_v80 (addf : (⟨S50000, .f32⟩ : BufTy).Contents (Elt F) → (⟨S50000, .f32⟩ : BufTy).Contents (Elt F) → (⟨S50000, .f32⟩ : BufTy).Contents (Elt F)),
    unary main_v80 main_v81 (Host.rsqrt : (⟨S50000, .f32⟩ : BufTy).Contents (Elt F) → (⟨S50000, .f32⟩ : BufTy).Contents (Elt F)) ]

/-- The edge weights, computed a second time by the same operations. -/
abbrev s8 : List (HloOp τ sig (Elt F)) :=
  [ nullary main_c_16 (constantI S_ 32 0#32),
    unary main_c_16 main_v82 (broadcastInDim S800000 ![] bcast_S_S800000 : (⟨S_, .i32⟩ : BufTy).Contents (Elt F) → (⟨S800000, .i32⟩ : BufTy).Contents (Elt F)),
    binary main_v1 main_v82 main_v83 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v84 (broadcastInDim S800000 ![] bcast_S_S800000 : (⟨S_, .i32⟩ : BufTy).Contents (Elt F) → (⟨S800000, .i32⟩ : BufTy).Contents (Elt F)),
    binary main_v1 main_v84 main_v85 (addi : (⟨S800000, .i32⟩ : BufTy).Contents (Elt F) → (⟨S800000, .i32⟩ : BufTy).Contents (Elt F) → (⟨S800000, .i32⟩ : BufTy).Contents (Elt F)),
    ternary main_v83 main_v85 main_v1 main_v86 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v86 main_v87 (broadcastInDim S800000x1 ![0] bcast_S800000_S800000x1_0 : (⟨S800000, .i32⟩ : BufTy).Contents (Elt F) → (⟨S800000x1, .i32⟩ : BufTy).Contents (Elt F)),
    binary main_v81 main_v87 main_v88 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_18 (constantI S_ 32 0#32),
    unary main_c_18 main_v89 (broadcastInDim S800000 ![] bcast_S_S800000 : (⟨S_, .i32⟩ : BufTy).Contents (Elt F) → (⟨S800000, .i32⟩ : BufTy).Contents (Elt F)),
    binary main_v3 main_v89 main_v90 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v91 (broadcastInDim S800000 ![] bcast_S_S800000 : (⟨S_, .i32⟩ : BufTy).Contents (Elt F) → (⟨S800000, .i32⟩ : BufTy).Contents (Elt F)),
    binary main_v3 main_v91 main_v92 (addi : (⟨S800000, .i32⟩ : BufTy).Contents (Elt F) → (⟨S800000, .i32⟩ : BufTy).Contents (Elt F) → (⟨S800000, .i32⟩ : BufTy).Contents (Elt F)),
    ternary main_v90 main_v92 main_v3 main_v93 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v93 main_v94 (broadcastInDim S800000x1 ![0] bcast_S800000_S800000x1_0 : (⟨S800000, .i32⟩ : BufTy).Contents (Elt F) → (⟨S800000x1, .i32⟩ : BufTy).Contents (Elt F)),
    binary main_v81 main_v94 main_v95 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v88 main_v95 main_v96 (mulf : (⟨S800000, .f32⟩ : BufTy).Contents (Elt F) → (⟨S800000, .f32⟩ : BufTy).Contents (Elt F) → (⟨S800000, .f32⟩ : BufTy).Contents (Elt F)) ]

/-- The scalar zero the second convolution's index wrap compares with. -/
abbrev s9a : List (HloOp τ sig (Elt F)) :=
  [ nullary main_c_20 (constantI S_ 32 0#32) ]

/-- The second convolution. -/
abbrev s9b : List (HloOp τ sig (Elt F)) :=
  [ unary main_c_20 main_v97 (broadcastInDim S800000 ![] bcast_S_S800000 : (⟨S_, .i32⟩ : BufTy).Contents (Elt F) → (⟨S800000, .i32⟩ : BufTy).Contents (Elt F)),
    binary main_v1 main_v97 main_v98 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v99 (broadcastInDim S800000 ![] bcast_S_S800000 : (⟨S_, .i32⟩ : BufTy).Contents (Elt F) → (⟨S800000, .i32⟩ : BufTy).Contents (Elt F)),
    binary main_v1 main_v99 main_v100 (addi : (⟨S800000, .i32⟩ : BufTy).Contents (Elt F) → (⟨S800000, .i32⟩ : BufTy).Contents (Elt F) → (⟨S800000, .i32⟩ : BufTy).Contents (Elt F)),
    ternary main_v98 main_v100 main_v1 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v101 main_v102 (broadcastInDim S800000x1 ![0] bcast_S800000_S800000x1_0 : (⟨S800000, .i32⟩ : BufTy).Contents (Elt F) → (⟨S800000x1, .i32⟩ : BufTy).Contents (Elt F)),
    binary main_v74 main_v102 main_v103 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v96 main_v104 (broadcastInDim S800000x1 ![0] bcast_S800000_S800000x1_0 : (⟨S800000, .f32⟩ : BufTy).Contents (Elt F) → (⟨S800000x1, .f32⟩ : BufTy).Contents (Elt F)),
    unary main_v104 main_v105 (broadcastInDim S800000x64 ![0, 1] bcast_S800000x1_S800000x64_0_1 : (⟨S800000x1, .f32⟩ : BufTy).Contents (Elt F) → (⟨S800000x64, .f32⟩ : BufTy).Contents (Elt F)),
    binary main_v103 main_v105 main_v106 (mulf : (⟨S800000x64, .f32⟩ : BufTy).Contents (Elt F) → (⟨S800000x64, .f32⟩ : BufTy).Contents (Elt F) → (⟨S800000x64, .f32⟩ : BufTy).Contents (Elt F)),
    nullary main_cst_22 (constant S_ .f32 0x00000000#32),
    unary main_cst_22 main_v107 (broadcastInDim S50000x64 ![] bcast_S_S50000x64 : (⟨S_, .f32⟩ : BufTy).Contents (Elt F) → (⟨S50000x64, .f32⟩ : BufTy).Contents (Elt F)),
    unary main_v3 main_v108 (broadcastInDim S800000x1 ![0] bcast_S800000_S800000x1_0 : (⟨S800000, .i32⟩ : BufTy).Contents (Elt F) → (⟨S800000x1, .i32⟩ : BufTy).Contents (Elt F)),
    ternary main_v107 main_v108 main_v106 main_v109 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v81 main_v81 main_v110 (mulf : (⟨S50000, .f32⟩ : BufTy).Contents (Elt F) → (⟨S50000, .f32⟩ : BufTy).Contents (Elt F) → (⟨S50000, .f32⟩ : BufTy).Contents (Elt F)),
    unary main_v110 main_v111 (broadcastInDim S50000x1 ![0] bcast_S50000_S50000x1_0 : (⟨S50000, .f32⟩ : BufTy).Contents (Elt F) → (⟨S50000x1, .f32⟩ : BufTy).Contents (Elt F)),
    unary main_v111 main_v112 (broadcastInDim S50000x64 ![0, 1] bcast_S50000x1_S50000x64_0_1 : (⟨S50000x1, .f32⟩ : BufTy).Contents (Elt F) → (⟨S50000x64, .f32⟩ : BufTy).Contents (Elt F)),
    binary main_v74 main_v112 main_v113 (mulf : (⟨S50000x64, .f32⟩ : BufTy).Contents (Elt F) → (⟨S50000x64, .f32⟩ : BufTy).Contents (Elt F) → (⟨S50000x64, .f32⟩ : BufTy).Contents (Elt F)),
    binary main_v109 main_v113 main_v114 (addf : (⟨S50000x64, .f32⟩ : BufTy).Contents (Elt F) → (⟨S50000x64, .f32⟩ : BufTy).Contents (Elt F) → (⟨S50000x64, .f32⟩ : BufTy).Contents (Elt F)),
    unary main_arg8 main_v115 (broadcastInDim S1x64 ![1] bcast_S64_S1x64_1 : (⟨S64, .f32⟩ : BufTy).Contents (Elt F) → (⟨S1x64, .f32⟩ : BufTy).Contents (Elt F)),
    unary main_v115 main_v116 (broadcastInDim S50000x64 ![0, 1] bcast_S1x64_S50000x64_0_1 : (⟨S1x64, .f32⟩ : BufTy).Contents (Elt F) → (⟨S50000x64, .f32⟩ : BufTy).Contents (Elt F)),
    binary main_v114 main_v116 main_v117 (addf : (⟨S50000x64, .f32⟩ : BufTy).Contents (Elt F) → (⟨S50000x64, .f32⟩ : BufTy).Contents (Elt F) → (⟨S50000x64, .f32⟩ : BufTy).Contents (Elt F)) ]

/-- The mean over each graph's nodes: rows summed per graph, node counts summed per graph and raised to at least one, the quotient. -/
abbrev s10 : List (HloOp τ sig (Elt F)) :=
  [ nullary main_cst_23 (constant S_ .f32 0x00000000#32),
    unary main_cst_23 main_v118 (broadcastInDim S64x64 ![] bcast_S_S64x64 : (⟨S_, .f32⟩ : BufTy).Contents (Elt F) → (⟨S64x64, .f32⟩ : BufTy).Contents (Elt F)),
    unary main_arg2 main_v119 (broadcastInDim S50000x1 ![0] bcast_S50000_S50000x1_0 : (⟨S50000, .i32⟩ : BufTy).Contents (Elt F) → (⟨S50000x1, .i32⟩ : BufTy).Contents (Elt F)),
    ternary main_v118 main_v119 main_v117 main_v120 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    nullary main_cst_24 (constant S_ .f32 0x3F800000#32),
    unary main_cst_24 main_v121 (broadcastInDim S50000 ![] bcast_S_S50000 : (⟨S_, .f32⟩ : BufTy).Contents (Elt F) → (⟨S50000, .f32⟩ : BufTy).Contents (Elt F)),
    nullary main_cst_25 (constant S_ .f32 0x00000000#32),
    unary main_cst_25 main_v122 (broadcastInDim S64 ![] bcast_S_S64 : (⟨S_, .f32⟩ : BufTy).Contents (Elt F) → (⟨S64, .f32⟩ : BufTy).Contents (Elt F)),
    unary main_arg2 main_v123 (broadcastInDim S50000x1 ![0] bcast_S50000_S50000x1_0 : (⟨S50000, .i32⟩ : BufTy).Contents (Elt F) → (⟨S50000x1, .i32⟩ : BufTy).Contents (Elt F)),
    ternary main_v122 main_v123 main_v121 main_v124 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_26 (constant S_ .f32 0x3F800000#32),
    unary main_cst_26 main_v125 (broadcastInDim S64 ![] bcast_S_S64 : (⟨S_, .f32⟩ : BufTy).Contents (Elt F) → (⟨S64, .f32⟩ : BufTy).Contents (Elt F)),
    binary main_v124 main_v125 main_v126 (maximumf : (⟨S64, .f32⟩ : BufTy).Contents (Elt F) → (⟨S64, .f32⟩ : BufTy).Contents (Elt F) → (⟨S64, .f32⟩ : BufTy).Contents (Elt F)),
    unary main_v126 main_v127 (broadcastInDim S64x1 ![0] bcast_S64_S64x1_0 : (⟨S64, .f32⟩ : BufTy).Contents (Elt F) → (⟨S64x1, .f32⟩ : BufTy).Contents (Elt F)),
    unary main_v127 main_v128 (broadcastInDim S64x64 ![0, 1] bcast_S64x1_S64x64_0_1 : (⟨S64x1, .f32⟩ : BufTy).Contents (Elt F) → (⟨S64x64, .f32⟩ : BufTy).Contents (Elt F)),
    binary main_v120 main_v128 main_v129 (Host.divf : (⟨S64x64, .f32⟩ : BufTy).Contents (Elt F) → (⟨S64x64, .f32⟩ : BufTy).Contents (Elt F) → (⟨S64x64, .f32⟩ : BufTy).Contents (Elt F)) ]

/-- @main's first window of statements. -/
abbrev ops0 : List (HloOp τ sig (Elt F)) := s0 ++ (s1 ++ (s2 ++ (s3 ++ s4a)))
/-- @main's second window of statements, the ELU call's operations inline. -/
abbrev ops1 : List (HloOp τ sig (Elt F)) := s4b ++ (s5 ++ (s6 ++ (s7 ++ (s8 ++ s9a))))
/-- @main's third window of statements. -/
abbrev ops2 : List (HloOp τ sig (Elt F)) := s9b ++ s10
/-- @main's operations in order, the call unfolded. -/
abbrev ops : List (HloOp τ sig (Elt F)) := ops0 ++ (ops1 ++ ops2)
/-! ## @main is that line -/

set_option maxRecDepth 8192 in
set_option maxHeartbeats 4000000 in
/-- The first window is its operations run in order. -/
theorem main_part0_eq (c : Dev nD) : main_part0 (F := F) c = seq ops0 := rfl

set_option maxRecDepth 8192 in
set_option maxHeartbeats 4000000 in
/-- The second window is its operations run in order: the ELU function's definition (and the two selections it calls)
    unfolded at the call, both sides are one chain of steps once sequencing is reassociated. -/
theorem main_part1_eq (c : Dev nD) : main_part1 (F := F) c = seq ops1 := by
  simp only [main_part1, fn_elu.body, fn_where.body, fn_where_0.body, bind_assoc, pure_bind]
  rfl

set_option maxRecDepth 8192 in
set_option maxHeartbeats 4000000 in
/-- The third window is its operations run in order. -/
theorem main_part2_eq (c : Dev nD) : main_part2 (F := F) c = seq ops2 := rfl

/-- @main is the three windows one after the other, which is the whole line run in order. -/
theorem main_eq (c : Dev nD) : main (F := F) c = seq ops := by
  show main (F := F) c = seq (ops0 ++ (ops1 ++ ops2))
  rw [seq_append ops0 (ops1 ++ ops2), seq_append ops1 ops2, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem s0_sub : (s0 : List (HloOp τ sig (Elt F))).Forall fun op => op.bufs ⊆ tcRefs τ sig :=
  ⟨unary_bufs_sub ..,
    reshape_bufs_sub ..,
    unary_bufs_sub ..,
    reshape_bufs_sub ..,
    binary_bufs_sub ..⟩
set_option maxRecDepth 8192 in
theorem s1_sub : (s1 : List (HloOp τ sig (Elt F))).Forall fun op => op.bufs ⊆ tcRefs τ sig :=
  ⟨nullary_bufs_sub ..,
    unary_bufs_sub ..,
    nullary_bufs_sub ..,
    unary_bufs_sub ..,
    unary_bufs_sub ..,
    ternary_bufs_sub ..,
    nullary_bufs_sub ..,
    unary_bufs_sub ..,
    binary_bufs_sub ..,
    unary_bufs_sub ..⟩
set_option maxRecDepth 8192 in
theorem s2_sub : (s2 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..⟩
set_option maxRecDepth 8192 in
theorem s3_sub : (s3 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    unary_bufs_sub ..,
    ternary_bufs_sub ..,
    binary_bufs_sub ..,
    unary_bufs_sub ..,
    unary_bufs_sub ..,
    binary_bufs_sub ..,
    binary_bufs_sub ..,
    unary_bufs_sub ..,
    unary_bufs_sub ..,
    binary_bufs_sub ..⟩
set_option maxRecDepth 8192 in
theorem s4a_sub : (s4a : List (HloOp τ sig (Elt F))).Forall fun op => op.bufs ⊆ tcRefs τ sig :=
  ⟨nullary_bufs_sub ..,
    binary_bufs_sub ..⟩
set_option maxRecDepth 8192 in
theorem s4b_sub : (s4b : List (HloOp τ sig (Elt F))).Forall fun op => op.bufs ⊆ tcRefs τ sig :=
  ⟨nullary_bufs_sub ..,
    unary_bufs_sub ..,
    binary_bufs_sub ..,
    unary_bufs_sub ..,
    unary_bufs_sub ..,
    binary_bufs_sub ..,
    binary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    unary_bufs_sub ..,
    unary_bufs_sub ..,
    binary_bufs_sub ..,
    unary_bufs_sub ..,
    unary_bufs_sub ..,
    binary_bufs_sub ..,
    unary_bufs_sub ..,
    unary_bufs_sub ..,
    binary_bufs_sub ..⟩
set_option maxRecDepth 8192 in
theorem s5_sub : (s5 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    nullary_bufs_sub ..,
    unary_bufs_sub ..,
    unary_bufs_sub ..,
    ternary_bufs_sub ..,
    unary_bufs_sub ..,
    nullary_bufs_sub ..,
    unary_bufs_sub ..,
    binary_bufs_sub ..,
    ternary_bufs_sub ..⟩
set_option maxRecDepth 8192 in
theorem s6_sub : (s6 : List (HloOp τ sig (Elt F))).Forall fun op => op.bufs ⊆ tcRefs τ sig :=
  (binary_bufs_sub ..)
set_option maxRecDepth 8192 in
theorem s7_sub : (s7 : List (HloOp τ sig (Elt F))).Forall fun op => op.bufs ⊆ tcRefs τ sig :=
  ⟨nullary_bufs_sub ..,
    unary_bufs_sub ..,
    nullary_bufs_sub ..,
    unary_bufs_sub ..,
    unary_bufs_sub ..,
    ternary_bufs_sub ..,
    nullary_bufs_sub ..,
    unary_bufs_sub ..,
    binary_bufs_sub ..,
    unary_bufs_sub ..⟩
set_option maxRecDepth 8192 in
theorem s8_sub : (s8 : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    nullary_bufs_sub ..,
    unary_bufs_sub ..,
    binary_bufs_sub ..,
    nullary_bufs_sub ..,
    unary_bufs_sub ..,
    binary_bufs_sub ..,
    ternary_bufs_sub ..,
    unary_bufs_sub ..,
    binary_bufs_sub ..,
    binary_bufs_sub ..⟩
set_option maxRecDepth 8192 in
theorem s9a_sub : (s9a : List (HloOp τ sig (Elt F))).Forall fun op => op.bufs ⊆ tcRefs τ sig :=
  (nullary_bufs_sub ..)
set_option maxRecDepth 8192 in
theorem s9b_sub : (s9b : List (HloOp τ sig (Elt F))).Forall fun op => op.bufs ⊆ tcRefs τ sig :=
  ⟨unary_bufs_sub ..,
    binary_bufs_sub ..,
    nullary_bufs_sub ..,
    unary_bufs_sub ..,
    binary_bufs_sub ..,
    ternary_bufs_sub ..,
    unary_bufs_sub ..,
    binary_bufs_sub ..,
    unary_bufs_sub ..,
    unary_bufs_sub ..,
    binary_bufs_sub ..,
    nullary_bufs_sub ..,
    unary_bufs_sub ..,
    unary_bufs_sub ..,
    ternary_bufs_sub ..,
    binary_bufs_sub ..,
    unary_bufs_sub ..,
    unary_bufs_sub ..,
    binary_bufs_sub ..,
    binary_bufs_sub ..,
    unary_bufs_sub ..,
    unary_bufs_sub ..,
    binary_bufs_sub ..⟩
set_option maxRecDepth 8192 in
theorem s10_sub : (s10 : List (HloOp τ sig (Elt F))).Forall fun op => op.bufs ⊆ tcRefs τ sig :=
  ⟨nullary_bufs_sub ..,
    unary_bufs_sub ..,
    unary_bufs_sub ..,
    ternary_bufs_sub ..,
    nullary_bufs_sub ..,
    unary_bufs_sub ..,
    nullary_bufs_sub ..,
    unary_bufs_sub ..,
    unary_bufs_sub ..,
    ternary_bufs_sub ..,
    nullary_bufs_sub ..,
    unary_bufs_sub ..,
    binary_bufs_sub ..,
    unary_bufs_sub ..,
    unary_bufs_sub ..,
    binary_bufs_sub ..⟩

/-- A property of every operation of two lines holds of every operation of their concatenation. -/
theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation of the line names TensorCore buffers only. -/
theorem ops_sub : (ops : List (HloOp τ sig (Elt F))).Forall fun op => op.bufs ⊆ tcRefs τ sig :=
  forall_app (forall_app s0_sub (forall_app s1_sub (forall_app s2_sub (forall_app s3_sub s4a_sub))))
    (forall_app (forall_app s4b_sub (forall_app s5_sub (forall_app s6_sub (forall_app s7_sub (forall_app s8_sub s9a_sub)))))
      (forall_app s9b_sub s10_sub))

/-- At the compiled mesh, for any float values, from any memory with zero counters: every weakly fair execution of @main
    on the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold, stage by stage

`val k` is the device's contents after the first `k` pieces. For each piece: the buffers it writes (`…_W`), that a
buffer outside them keeps its contents (`val…_keep`), and for every buffer a later piece or the result reads, its
contents after the piece as a stage function of the ARGUMENTS' contents (`val…_‹buffer›`): a buffer the piece writes by
unfolding the piece's operations over what the pieces before left, a buffer it does not write by `keep`.
The gathers, scatters, reductions and the matrix product stay folded throughout: no equation here looks inside one. -/

attribute [local irreducible] Host.reduceAdd Host.gather Host.scatterAdd

/-- Two lines folded one after the other are their concatenation folded. -/
theorem after_app (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- The contents at the launch. -/
def val0 (V : Valuation τ sig (Elt F)) : Valuation τ sig (Elt F) := V
theorem val0_main_arg0 (V : Valuation τ sig (Elt F)) : val0 V (no_index (Proc.devRef .tc main_arg0)) = V (Proc.devRef .tc main_arg0) := rfl
theorem val0_main_arg1 (V : Valuation τ sig (Elt F)) : val0 V (no_index (Proc.devRef .tc main_arg1)) = V (Proc.devRef .tc main_arg1) := rfl
theorem val0_main_arg2 (V : Valuation τ sig (Elt F)) : val0 V (no_index (Proc.devRef .tc main_arg2)) = V (Proc.devRef .tc main_arg2) := rfl
theorem val0_main_arg3 (V : Valuation τ sig (Elt F)) : val0 V (no_index (Proc.devRef .tc main_arg3)) = V (Proc.devRef .tc main_arg3) := rfl
theorem val0_main_arg4 (V : Valuation τ sig (Elt F)) : val0 V (no_index (Proc.devRef .tc main_arg4)) = V (Proc.devRef .tc main_arg4) := rfl
theorem val0_main_arg5 (V : Valuation τ sig (Elt F)) : val0 V (no_index (Proc.devRef .tc main_arg5)) = V (Proc.devRef .tc main_arg5) := rfl
theorem val0_main_arg6 (V : Valuation τ sig (Elt F)) : val0 V (no_index (Proc.devRef .tc main_arg6)) = V (Proc.devRef .tc main_arg6) := rfl
theorem val0_main_arg7 (V : Valuation τ sig (Elt F)) : val0 V (no_index (Proc.devRef .tc main_arg7)) = V (Proc.devRef .tc main_arg7) := rfl
theorem val0_main_arg8 (V : Valuation τ sig (Elt F)) : val0 V (no_index (Proc.devRef .tc main_arg8)) = V (Proc.devRef .tc main_arg8) := rfl

/-- The contents after the first 1 piece. -/
def val1 (V : Valuation τ sig (Elt F)) : Valuation τ sig (Elt F) := after s0 (val0 V)
/-- The buffers piece `s0` writes. -/
abbrev s0_W : List (Ref sig .tc) := [main_v0, main_v1, main_v2, main_v3, main_v4]
set_option maxRecDepth 8192 in
theorem s0_writes : (s0 : List (HloOp τ sig (Elt F))).Forall fun op => op.writes ⊆ (s0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s0` does not write keeps its contents through it. -/
theorem val1_keep (V : Valuation τ sig (Elt F)) (r : Ref sig .tc) (h : r ∉ s0_W) :
    val1 V (Proc.devRef .tc r) = val0 V (Proc.devRef .tc r) :=
  after_of_writes_sub s0 _ s0_writes h
theorem val1_main_arg0 (V : Valuation τ sig (Elt F)) : val1 V (no_index (Proc.devRef .tc main_arg0)) = V (Proc.devRef .tc main_arg0) :=
  (val1_keep V main_arg0 (by decide)).trans (val0_main_arg0 V)
theorem val1_main_arg1 (V : Valuation τ sig (Elt F)) : val1 V (no_index (Proc.devRef .tc main_arg1)) = V (Proc.devRef .tc main_arg1) :=
  (val1_keep V main_arg1 (by decide)).trans (val0_main_arg1 V)
theorem val1_main_arg2 (V : Valuation τ sig (Elt F)) : val1 V (no_index (Proc.devRef .tc main_arg2)) = V (Proc.devRef .tc main_arg2) :=
  (val1_keep V main_arg2 (by decide)).trans (val0_main_arg2 V)
theorem val1_main_arg3 (V : Valuation τ sig (Elt F)) : val1 V (no_index (Proc.devRef .tc main_arg3)) = V (Proc.devRef .tc main_arg3) :=
  (val1_keep V main_arg3 (by decide)).trans (val0_main_arg3 V)
theorem val1_main_arg4 (V : Valuation τ sig (Elt F)) : val1 V (no_index (Proc.devRef .tc main_arg4)) = V (Proc.devRef .tc main_arg4) :=
  (val1_keep V main_arg4 (by decide)).trans (val0_main_arg4 V)
theorem val1_main_arg5 (V : Valuation τ sig (Elt F)) : val1 V (no_index (Proc.devRef .tc main_arg5)) = V (Proc.devRef .tc main_arg5) :=
  (val1_keep V main_arg5 (by decide)).trans (val0_main_arg5 V)
theorem val1_main_arg6 (V : Valuation τ sig (Elt F)) : val1 V (no_index (Proc.devRef .tc main_arg6)) = V (Proc.devRef .tc main_arg6) :=
  (val1_keep V main_arg6 (by decide)).trans (val0_main_arg6 V)
theorem val1_main_arg7 (V : Valuation τ sig (Elt F)) : val1 V (no_index (Proc.devRef .tc main_arg7)) = V (Proc.devRef .tc main_arg7) :=
  (val1_keep V main_arg7 (by decide)).trans (val0_main_arg7 V)
theorem val1_main_arg8 (V : Valuation τ sig (Elt F)) : val1 V (no_index (Proc.devRef .tc main_arg8)) = V (Proc.devRef .tc main_arg8) :=
  (val1_keep V main_arg8 (by decide)).trans (val0_main_arg8 V)
set_option maxRecDepth 8192 in
set_option maxHeartbeats 2000000 in
theorem val1_main_v1 (V : Valuation τ sig (Elt F)) : val1 V (no_index (Proc.devRef .tc main_v1)) = Spec.src (V (Proc.devRef .tc main_arg1)) := by
  unfold val1
  simp only [s0]
  after_results_simp
  simp only [val0_main_arg1]
  rfl
set_option maxRecDepth 8192 in
set_option maxHeartbeats 2000000 in
theorem val1_main_v3 (V : Valuation τ sig (Elt F)) : val1 V (no_index (Proc.devRef .tc main_v3)) = Spec.dst (V (Proc.devRef .tc main_arg1)) := by
  unfold val1
  simp only [s0]
  after_results_simp
  simp only [val0_main_arg1]
  rfl
set_option maxRecDepth 8192 in
set_option maxHeartbeats 2000000 in
theorem val1_main_v4 (V : Valuation τ sig (Elt F)) : val1 V (no_index (Proc.devRef .tc main_v4)) = Spec.dot (V (Proc.devRef .tc main_arg0)) (V (Proc.devRef .tc main_arg3)) := by
  unfold val1
  simp only [s0]
  after_results_simp
  simp only [val0_main_arg3, val0_main_arg0]
  rfl

/-- The contents after the first 2 pieces. -/
def val2 (V : Valuation τ sig (Elt F)) : Valuation τ sig (Elt F) := after s1 (val1 V)
/-- The buffers piece `s1` writes. -/
abbrev s1_W : List (Ref sig .tc) := [main_cst, main_v5, main_cst_0, main_v6, main_v7, main_v8, main_cst_1, main_v9, main_v10, main_v11]
set_option maxRecDepth 8192 in
theorem s1_writes : (s1 : List (HloOp τ sig (Elt F))).Forall fun op => op.writes ⊆ (s1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s1` does not write keeps its contents through it. -/
theorem val2_keep (V : Valuation τ sig (Elt F)) (r : Ref sig .tc) (h : r ∉ s1_W) :
    val2 V (Proc.devRef .tc r) = val1 V (Proc.devRef .tc r) :=
  after_of_writes_sub s1 _ s1_writes h
theorem val2_main_arg0 (V : Valuation τ sig (Elt F)) : val2 V (no_index (Proc.devRef .tc main_arg0)) = V (Proc.devRef .tc main_arg0) :=
  (val2_keep V main_arg0 (by decide)).trans (val1_main_arg0 V)
theorem val2_main_arg1 (V : Valuation τ sig (Elt F)) : val2 V (no_index (Proc.devRef .tc main_arg1)) = V (Proc.devRef .tc main_arg1) :=
  (val2_keep V main_arg1 (by decide)).trans (val1_main_arg1 V)
theorem val2_main_arg2 (V : Valuation τ sig (Elt F)) : val2 V (no_index (Proc.devRef .tc main_arg2)) = V (Proc.devRef .tc main_arg2) :=
  (val2_keep V main_arg2 (by decide)).trans (val1_main_arg2 V)
theorem val2_main_arg3 (V : Valuation τ sig (Elt F)) : val2 V (no_index (Proc.devRef .tc main_arg3)) = V (Proc.devRef .tc main_arg3) :=
  (val2_keep V main_arg3 (by decide)).trans (val1_main_arg3 V)
theorem val2_main_arg4 (V : Valuation τ sig (Elt F)) : val2 V (no_index (Proc.devRef .tc main_arg4)) = V (Proc.devRef .tc main_arg4) :=
  (val2_keep V main_arg4 (by decide)).trans (val1_main_arg4 V)
theorem val2_main_arg5 (V : Valuation τ sig (Elt F)) : val2 V (no_index (Proc.devRef .tc main_arg5)) = V (Proc.devRef .tc main_arg5) :=
  (val2_keep V main_arg5 (by decide)).trans (val1_main_arg5 V)
theorem val2_main_arg6 (V : Valuation τ sig (Elt F)) : val2 V (no_index (Proc.devRef .tc main_arg6)) = V (Proc.devRef .tc main_arg6) :=
  (val2_keep V main_arg6 (by decide)).trans (val1_main_arg6 V)
theorem val2_main_arg7 (V : Valuation τ sig (Elt F)) : val2 V (no_index (Proc.devRef .tc main_arg7)) = V (Proc.devRef .tc main_arg7) :=
  (val2_keep V main_arg7 (by decide)).trans (val1_main_arg7 V)
theorem val2_main_arg8 (V : Valuation τ sig (Elt F)) : val2 V (no_index (Proc.devRef .tc main_arg8)) = V (Proc.devRef .tc main_arg8) :=
  (val2_keep V main_arg8 (by decide)).trans (val1_main_arg8 V)
theorem val2_main_v1 (V : Valuation τ sig (Elt F)) : val2 V (no_index (Proc.devRef .tc main_v1)) = Spec.src (V (Proc.devRef .tc main_arg1)) :=
  (val2_keep V main_v1 (by decide)).trans (val1_main_v1 V)
theorem val2_main_v3 (V : Valuation τ sig (Elt F)) : val2 V (no_index (Proc.devRef .tc main_v3)) = Spec.dst (V (Proc.devRef .tc main_arg1)) :=
  (val2_keep V main_v3 (by decide)).trans (val1_main_v3 V)
theorem val2_main_v4 (V : Valuation τ sig (Elt F)) : val2 V (no_index (Proc.devRef .tc main_v4)) = Spec.dot (V (Proc.devRef .tc main_arg0)) (V (Proc.devRef .tc main_arg3)) :=
  (val2_keep V main_v4 (by decide)).trans (val1_main_v4 V)
set_option maxRecDepth 8192 in
set_option maxHeartbeats 2000000 in
theorem val2_main_v11 (V : Valuation τ sig (Elt F)) : val2 V (no_index (Proc.devRef .tc main_v11)) = Spec.dinv (V (Proc.devRef .tc main_arg1)) := by
  unfold val2
  simp only [s1]
  after_results_simp
  simp only [val1_main_v3]
  rfl

/-- The contents after the first 3 pieces. -/
def val3 (V : Valuation τ sig (Elt F)) : Valuation τ sig (Elt F) := after s2 (val2 V)
/-- The buffers piece `s2` writes. -/
abbrev s2_W : List (Ref sig .tc) := [main_c, main_v12, main_v13, main_c_2, main_v14, main_v15, main_v16, main_v17, main_v18, main_c_3, main_v19, main_v20, main_c_4, main_v21, main_v22, main_v23, main_v24, main_v25, main_v26]
set_option maxRecDepth 8192 in
theorem s2_writes : (s2 : List (HloOp τ sig (Elt F))).Forall fun op => op.writes ⊆ (s2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s2` does not write keeps its contents through it. -/
theorem val3_keep (V : Valuation τ sig (Elt F)) (r : Ref sig .tc) (h : r ∉ s2_W) :
    val3 V (Proc.devRef .tc r) = val2 V (Proc.devRef .tc r) :=
  after_of_writes_sub s2 _ s2_writes h
theorem val3_main_arg0 (V : Valuation τ sig (Elt F)) : val3 V (no_index (Proc.devRef .tc main_arg0)) = V (Proc.devRef .tc main_arg0) :=
  (val3_keep V main_arg0 (by decide)).trans (val2_main_arg0 V)
theorem val3_main_arg1 (V : Valuation τ sig (Elt F)) : val3 V (no_index (Proc.devRef .tc main_arg1)) = V (Proc.devRef .tc main_arg1) :=
  (val3_keep V main_arg1 (by decide)).trans (val2_main_arg1 V)
theorem val3_main_arg2 (V : Valuation τ sig (Elt F)) : val3 V (no_index (Proc.devRef .tc main_arg2)) = V (Proc.devRef .tc main_arg2) :=
  (val3_keep V main_arg2 (by decide)).trans (val2_main_arg2 V)
theorem val3_main_arg3 (V : Valuation τ sig (Elt F)) : val3 V (no_index (Proc.devRef .tc main_arg3)) = V (Proc.devRef .tc main_arg3) :=
  (val3_keep V main_arg3 (by decide)).trans (val2_main_arg3 V)
theorem val3_main_arg4 (V : Valuation τ sig (Elt F)) : val3 V (no_index (Proc.devRef .tc main_arg4)) = V (Proc.devRef .tc main_arg4) :=
  (val3_keep V main_arg4 (by decide)).trans (val2_main_arg4 V)
theorem val3_main_arg5 (V : Valuation τ sig (Elt F)) : val3 V (no_index (Proc.devRef .tc main_arg5)) = V (Proc.devRef .tc main_arg5) :=
  (val3_keep V main_arg5 (by decide)).trans (val2_main_arg5 V)
theorem val3_main_arg6 (V : Valuation τ sig (Elt F)) : val3 V (no_index (Proc.devRef .tc main_arg6)) = V (Proc.devRef .tc main_arg6) :=
  (val3_keep V main_arg6 (by decide)).trans (val2_main_arg6 V)
theorem val3_main_arg7 (V : Valuation τ sig (Elt F)) : val3 V (no_index (Proc.devRef .tc main_arg7)) = V (Proc.devRef .tc main_arg7) :=
  (val3_keep V main_arg7 (by decide)).trans (val2_main_arg7 V)
theorem val3_main_arg8 (V : Valuation τ sig (Elt F)) : val3 V (no_index (Proc.devRef .tc main_arg8)) = V (Proc.devRef .tc main_arg8) :=
  (val3_keep V main_arg8 (by decide)).trans (val2_main_arg8 V)
theorem val3_main_v1 (V : Valuation τ sig (Elt F)) : val3 V (no_index (Proc.devRef .tc main_v1)) = Spec.src (V (Proc.devRef .tc main_arg1)) :=
  (val3_keep V main_v1 (by decide)).trans (val2_main_v1 V)
theorem val3_main_v3 (V : Valuation τ sig (Elt F)) : val3 V (no_index (Proc.devRef .tc main_v3)) = Spec.dst (V (Proc.devRef .tc main_arg1)) :=
  (val3_keep V main_v3 (by decide)).trans (val2_main_v3 V)
theorem val3_main_v4 (V : Valuation τ sig (Elt F)) : val3 V (no_index (Proc.devRef .tc main_v4)) = Spec.dot (V (Proc.devRef .tc main_arg0)) (V (Proc.devRef .tc main_arg3)) :=
  (val3_keep V main_v4 (by decide)).trans (val2_main_v4 V)
theorem val3_main_v11 (V : Valuation τ sig (Elt F)) : val3 V (no_index (Proc.devRef .tc main_v11)) = Spec.dinv (V (Proc.devRef .tc main_arg1)) :=
  (val3_keep V main_v11 (by decide)).trans (val2_main_v11 V)
set_option maxRecDepth 8192 in
set_option maxHeartbeats 2000000 in
theorem val3_main_v26 (V : Valuation τ sig (Elt F)) : val3 V (no_index (Proc.devRef .tc main_v26)) = Spec.coef (V (Proc.devRef .tc main_arg1)) := by
  unfold val3
  simp only [s2]
  after_results_simp
  simp only [val2_main_v3, val2_main_v11, val2_main_v1]
  rfl

/-- The contents after the first 4 pieces. -/
def val4 (V : Valuation τ sig (Elt F)) : Valuation τ sig (Elt F) := after s3 (val3 V)
/-- The buffers piece `s3` writes. -/
abbrev s3_W : List (Ref sig .tc) := [main_c_5, main_v27, main_v28, main_c_6, main_v29, main_v30, main_v31, main_v32, main_v33, main_v34, main_v35, main_v36, main_cst_7, main_v37, main_v38, main_v39, main_v40, main_v41, main_v42, main_v43, main_v44, main_v45, main_v46, main_v47]
set_option maxRecDepth 8192 in
theorem s3_writes : (s3 : List (HloOp τ sig (Elt F))).Forall fun op => op.writes ⊆ (s3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s3` does not write keeps its contents through it. -/
theorem val4_keep (V : Valuation τ sig (Elt F)) (r : Ref sig .tc) (h : r ∉ s3_W) :
    val4 V (Proc.devRef .tc r) = val3 V (Proc.devRef .tc r) :=
  after_of_writes_sub s3 _ s3_writes h
theorem val4_main_arg0 (V : Valuation τ sig (Elt F)) : val4 V (no_index (Proc.devRef .tc main_arg0)) = V (Proc.devRef .tc main_arg0) :=
  (val4_keep V main_arg0 (by decide)).trans (val3_main_arg0 V)
theorem val4_main_arg1 (V : Valuation τ sig (Elt F)) : val4 V (no_index (Proc.devRef .tc main_arg1)) = V (Proc.devRef .tc main_arg1) :=
  (val4_keep V main_arg1 (by decide)).trans (val3_main_arg1 V)
theorem val4_main_arg2 (V : Valuation τ sig (Elt F)) : val4 V (no_index (Proc.devRef .tc main_arg2)) = V (Proc.devRef .tc main_arg2) :=
  (val4_keep V main_arg2 (by decide)).trans (val3_main_arg2 V)
theorem val4_main_arg3 (V : Valuation τ sig (Elt F)) : val4 V (no_index (Proc.devRef .tc main_arg3)) = V (Proc.devRef .tc main_arg3) :=
  (val4_keep V main_arg3 (by decide)).trans (val3_main_arg3 V)
theorem val4_main_arg4 (V : Valuation τ sig (Elt F)) : val4 V (no_index (Proc.devRef .tc main_arg4)) = V (Proc.devRef .tc main_arg4) :=
  (val4_keep V main_arg4 (by decide)).trans (val3_main_arg4 V)
theorem val4_main_arg5 (V : Valuation τ sig (Elt F)) : val4 V (no_index (Proc.devRef .tc main_arg5)) = V (Proc.devRef .tc main_arg5) :=
  (val4_keep V main_arg5 (by decide)).trans (val3_main_arg5 V)
theorem val4_main_arg6 (V : Valuation τ sig (Elt F)) : val4 V (no_index (Proc.devRef .tc main_arg6)) = V (Proc.devRef .tc main_arg6) :=
  (val4_keep V main_arg6 (by decide)).trans (val3_main_arg6 V)
theorem val4_main_arg7 (V : Valuation τ sig (Elt F)) : val4 V (no_index (Proc.devRef .tc main_arg7)) = V (Proc.devRef .tc main_arg7) :=
  (val4_keep V main_arg7 (by decide)).trans (val3_main_arg7 V)
theorem val4_main_arg8 (V : Valuation τ sig (Elt F)) : val4 V (no_index (Proc.devRef .tc main_arg8)) = V (Proc.devRef .tc main_arg8) :=
  (val4_keep V main_arg8 (by decide)).trans (val3_main_arg8 V)
theorem val4_main_v1 (V : Valuation τ sig (Elt F)) : val4 V (no_index (Proc.devRef .tc main_v1)) = Spec.src (V (Proc.devRef .tc main_arg1)) :=
  (val4_keep V main_v1 (by decide)).trans (val3_main_v1 V)
theorem val4_main_v3 (V : Valuation τ sig (Elt F)) : val4 V (no_index (Proc.devRef .tc main_v3)) = Spec.dst (V (Proc.devRef .tc main_arg1)) :=
  (val4_keep V main_v3 (by decide)).trans (val3_main_v3 V)
set_option maxRecDepth 8192 in
set_option maxHeartbeats 2000000 in
theorem val4_main_v47 (V : Valuation τ sig (Elt F)) : val4 V (no_index (Proc.devRef .tc main_v47)) = Spec.conv (Spec.dot (V (Proc.devRef .tc main_arg0)) (V (Proc.devRef .tc main_arg3))) (V (Proc.devRef .tc main_arg1)) (V (Proc.devRef .tc main_arg4)) := by
  unfold val4
  simp only [s3]
  after_results_simp
  simp only [val3_main_arg4, val3_main_v11, val3_main_v4, val3_main_v26, val3_main_v1, val3_main_v3]
  rfl

/-- The contents after the first 5 pieces. -/
def val5 (V : Valuation τ sig (Elt F)) : Valuation τ sig (Elt F) := after s4a (val4 V)
/-- The buffers piece `s4a` writes. -/
abbrev s4a_W : List (Ref sig .tc) := [main_cst_8, main_v48]
set_option maxRecDepth 8192 in
theorem s4a_writes : (s4a : List (HloOp τ sig (Elt F))).Forall fun op => op.writes ⊆ (s4a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s4a` does not write keeps its contents through it. -/
theorem val5_keep (V : Valuation τ sig (Elt F)) (r : Ref sig .tc) (h : r ∉ s4a_W) :
    val5 V (Proc.devRef .tc r) = val4 V (Proc.devRef .tc r) :=
  after_of_writes_sub s4a _ s4a_writes h
theorem val5_main_arg0 (V : Valuation τ sig (Elt F)) : val5 V (no_index (Proc.devRef .tc main_arg0)) = V (Proc.devRef .tc main_arg0) :=
  (val5_keep V main_arg0 (by decide)).trans (val4_main_arg0 V)
theorem val5_main_arg1 (V : Valuation τ sig (Elt F)) : val5 V (no_index (Proc.devRef .tc main_arg1)) = V (Proc.devRef .tc main_arg1) :=
  (val5_keep V main_arg1 (by decide)).trans (val4_main_arg1 V)
theorem val5_main_arg2 (V : Valuation τ sig (Elt F)) : val5 V (no_index (Proc.devRef .tc main_arg2)) = V (Proc.devRef .tc main_arg2) :=
  (val5_keep V main_arg2 (by decide)).trans (val4_main_arg2 V)
theorem val5_main_arg3 (V : Valuation τ sig (Elt F)) : val5 V (no_index (Proc.devRef .tc main_arg3)) = V (Proc.devRef .tc main_arg3) :=
  (val5_keep V main_arg3 (by decide)).trans (val4_main_arg3 V)
theorem val5_main_arg4 (V : Valuation τ sig (Elt F)) : val5 V (no_index (Proc.devRef .tc main_arg4)) = V (Proc.devRef .tc main_arg4) :=
  (val5_keep V main_arg4 (by decide)).trans (val4_main_arg4 V)
theorem val5_main_arg5 (V : Valuation τ sig (Elt F)) : val5 V (no_index (Proc.devRef .tc main_arg5)) = V (Proc.devRef .tc main_arg5) :=
  (val5_keep V main_arg5 (by decide)).trans (val4_main_arg5 V)
theorem val5_main_arg6 (V : Valuation τ sig (Elt F)) : val5 V (no_index (Proc.devRef .tc main_arg6)) = V (Proc.devRef .tc main_arg6) :=
  (val5_keep V main_arg6 (by decide)).trans (val4_main_arg6 V)
theorem val5_main_arg7 (V : Valuation τ sig (Elt F)) : val5 V (no_index (Proc.devRef .tc main_arg7)) = V (Proc.devRef .tc main_arg7) :=
  (val5_keep V main_arg7 (by decide)).trans (val4_main_arg7 V)
theorem val5_main_arg8 (V : Valuation τ sig (Elt F)) : val5 V (no_index (Proc.devRef .tc main_arg8)) = V (Proc.devRef .tc main_arg8) :=
  (val5_keep V main_arg8 (by decide)).trans (val4_main_arg8 V)
theorem val5_main_v1 (V : Valuation τ sig (Elt F)) : val5 V (no_index (Proc.devRef .tc main_v1)) = Spec.src (V (Proc.devRef .tc main_arg1)) :=
  (val5_keep V main_v1 (by decide)).trans (val4_main_v1 V)
theorem val5_main_v3 (V : Valuation τ sig (Elt F)) : val5 V (no_index (Proc.devRef .tc main_v3)) = Spec.dst (V (Proc.devRef .tc main_arg1)) :=
  (val5_keep V main_v3 (by decide)).trans (val4_main_v3 V)
theorem val5_main_v47 (V : Valuation τ sig (Elt F)) : val5 V (no_index (Proc.devRef .tc main_v47)) = Spec.conv (Spec.dot (V (Proc.devRef .tc main_arg0)) (V (Proc.devRef .tc main_arg3))) (V (Proc.devRef .tc main_arg1)) (V (Proc.devRef .tc main_arg4)) :=
  (val5_keep V main_v47 (by decide)).trans (val4_main_v47 V)
set_option maxRecDepth 8192 in
set_option maxHeartbeats 2000000 in
theorem val5_main_v48 (V : Valuation τ sig (Elt F)) : val5 V (no_index (Proc.devRef .tc main_v48)) = Host.reduceAdd (Spec.conv (Spec.dot (V (Proc.devRef .tc main_arg0)) (V (Proc.devRef .tc main_arg3))) (V (Proc.devRef .tc main_arg1)) (V (Proc.devRef .tc main_arg4))) (constant S_ .f32 0x00000000#32) reducesTo_S50000x64_S64_d0 h_S_ := by
  unfold val5
  simp only [s4a]
  after_results_simp
  simp only [val4_main_v47]

/-- The contents after the first 6 pieces. -/
def val6 (V : Valuation τ sig (Elt F)) : Valuation τ sig (Elt F) := after s4b (val5 V)
/-- The buffers piece `s4b` writes. -/
abbrev s4b_W : List (Ref sig .tc) := [main_cst_9, main_v49, main_v50, main_v51, main_v52, main_v53, main_v54, main_cst_10, main_v55, main_cst_11, main_v56, main_v57, main_v58, main_v59, main_v60, main_cst_12, main_v61, main_v62, main_v63, main_v64, main_v65, main_v66, main_v67, main_v68, main_v69, main_v70, main_v71, main_v72]
set_option maxRecDepth 8192 in
theorem s4b_writes : (s4b : List (HloOp τ sig (Elt F))).Forall fun op => op.writes ⊆ (s4b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s4b` does not write keeps its contents through it. -/
theorem val6_keep (V : Valuation τ sig (Elt F)) (r : Ref sig .tc) (h : r ∉ s4b_W) :
    val6 V (Proc.devRef .tc r) = val5 V (Proc.devRef .tc r) :=
  after_of_writes_sub s4b _ s4b_writes h
theorem val6_main_arg0 (V : Valuation τ sig (Elt F)) : val6 V (no_index (Proc.devRef .tc main_arg0)) = V (Proc.devRef .tc main_arg0) :=
  (val6_keep V main_arg0 (by decide)).trans (val5_main_arg0 V)
theorem val6_main_arg1 (V : Valuation τ sig (Elt F)) : val6 V (no_index (Proc.devRef .tc main_arg1)) = V (Proc.devRef .tc main_arg1) :=
  (val6_keep V main_arg1 (by decide)).trans (val5_main_arg1 V)
theorem val6_main_arg2 (V : Valuation τ sig (Elt F)) : val6 V (no_index (Proc.devRef .tc main_arg2)) = V (Proc.devRef .tc main_arg2) :=
  (val6_keep V main_arg2 (by decide)).trans (val5_main_arg2 V)
theorem val6_main_arg3 (V : Valuation τ sig (Elt F)) : val6 V (no_index (Proc.devRef .tc main_arg3)) = V (Proc.devRef .tc main_arg3) :=
  (val6_keep V main_arg3 (by decide)).trans (val5_main_arg3 V)
theorem val6_main_arg4 (V : Valuation τ sig (Elt F)) : val6 V (no_index (Proc.devRef .tc main_arg4)) = V (Proc.devRef .tc main_arg4) :=
  (val6_keep V main_arg4 (by decide)).trans (val5_main_arg4 V)
theorem val6_main_arg5 (V : Valuation τ sig (Elt F)) : val6 V (no_index (Proc.devRef .tc main_arg5)) = V (Proc.devRef .tc main_arg5) :=
  (val6_keep V main_arg5 (by decide)).trans (val5_main_arg5 V)
theorem val6_main_arg6 (V : Valuation τ sig (Elt F)) : val6 V (no_index (Proc.devRef .tc main_arg6)) = V (Proc.devRef .tc main_arg6) :=
  (val6_keep V main_arg6 (by decide)).trans (val5_main_arg6 V)
theorem val6_main_arg7 (V : Valuation τ sig (Elt F)) : val6 V (no_index (Proc.devRef .tc main_arg7)) = V (Proc.devRef .tc main_arg7) :=
  (val6_keep V main_arg7 (by decide)).trans (val5_main_arg7 V)
theorem val6_main_arg8 (V : Valuation τ sig (Elt F)) : val6 V (no_index (Proc.devRef .tc main_arg8)) = V (Proc.devRef .tc main_arg8) :=
  (val6_keep V main_arg8 (by decide)).trans (val5_main_arg8 V)
theorem val6_main_v1 (V : Valuation τ sig (Elt F)) : val6 V (no_index (Proc.devRef .tc main_v1)) = Spec.src (V (Proc.devRef .tc main_arg1)) :=
  (val6_keep V main_v1 (by decide)).trans (val5_main_v1 V)
theorem val6_main_v3 (V : Valuation τ sig (Elt F)) : val6 V (no_index (Proc.devRef .tc main_v3)) = Spec.dst (V (Proc.devRef .tc main_arg1)) :=
  (val6_keep V main_v3 (by decide)).trans (val5_main_v3 V)
set_option maxRecDepth 8192 in
set_option maxHeartbeats 2000000 in
theorem val6_main_v72 (V : Valuation τ sig (Elt F)) : val6 V (no_index (Proc.devRef .tc main_v72)) = Spec.bnorm (Spec.conv (Spec.dot (V (Proc.devRef .tc main_arg0)) (V (Proc.devRef .tc main_arg3))) (V (Proc.devRef .tc main_arg1)) (V (Proc.devRef .tc main_arg4))) (V (Proc.devRef .tc main_arg5)) (V (Proc.devRef .tc main_arg6)) := by
  unfold val6
  simp only [s4b]
  after_results_simp
  simp only [val5_main_arg6, val5_main_arg5, val5_main_v48, val5_main_v47]
  rfl

/-- The contents after the first 7 pieces. -/
def val7 (V : Valuation τ sig (Elt F)) : Valuation τ sig (Elt F) := after s5 (val6 V)
/-- The buffers piece `s5` writes. -/
abbrev s5_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v73]
set_option maxRecDepth 8192 in
theorem s5_writes : (s5 : List (HloOp τ sig (Elt F))).Forall fun op => op.writes ⊆ (s5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s5` does not write keeps its contents through it. -/
theorem val7_keep (V : Valuation τ sig (Elt F)) (r : Ref sig .tc) (h : r ∉ s5_W) :
    val7 V (Proc.devRef .tc r) = val6 V (Proc.devRef .tc r) :=
  after_of_writes_sub s5 _ s5_writes h
theorem val7_main_arg0 (V : Valuation τ sig (Elt F)) : val7 V (no_index (Proc.devRef .tc main_arg0)) = V (Proc.devRef .tc main_arg0) :=
  (val7_keep V main_arg0 (by decide)).trans (val6_main_arg0 V)
theorem val7_main_arg1 (V : Valuation τ sig (Elt F)) : val7 V (no_index (Proc.devRef .tc main_arg1)) = V (Proc.devRef .tc main_arg1) :=
  (val7_keep V main_arg1 (by decide)).trans (val6_main_arg1 V)
theorem val7_main_arg2 (V : Valuation τ sig (Elt F)) : val7 V (no_index (Proc.devRef .tc main_arg2)) = V (Proc.devRef .tc main_arg2) :=
  (val7_keep V main_arg2 (by decide)).trans (val6_main_arg2 V)
theorem val7_main_arg3 (V : Valuation τ sig (Elt F)) : val7 V (no_index (Proc.devRef .tc main_arg3)) = V (Proc.devRef .tc main_arg3) :=
  (val7_keep V main_arg3 (by decide)).trans (val6_main_arg3 V)
theorem val7_main_arg4 (V : Valuation τ sig (Elt F)) : val7 V (no_index (Proc.devRef .tc main_arg4)) = V (Proc.devRef .tc main_arg4) :=
  (val7_keep V main_arg4 (by decide)).trans (val6_main_arg4 V)
theorem val7_main_arg5 (V : Valuation τ sig (Elt F)) : val7 V (no_index (Proc.devRef .tc main_arg5)) = V (Proc.devRef .tc main_arg5) :=
  (val7_keep V main_arg5 (by decide)).trans (val6_main_arg5 V)
theorem val7_main_arg6 (V : Valuation τ sig (Elt F)) : val7 V (no_index (Proc.devRef .tc main_arg6)) = V (Proc.devRef .tc main_arg6) :=
  (val7_keep V main_arg6 (by decide)).trans (val6_main_arg6 V)
theorem val7_main_arg7 (V : Valuation τ sig (Elt F)) : val7 V (no_index (Proc.devRef .tc main_arg7)) = V (Proc.devRef .tc main_arg7) :=
  (val7_keep V main_arg7 (by decide)).trans (val6_main_arg7 V)
theorem val7_main_arg8 (V : Valuation τ sig (Elt F)) : val7 V (no_index (Proc.devRef .tc main_arg8)) = V (Proc.devRef .tc main_arg8) :=
  (val7_keep V main_arg8 (by decide)).trans (val6_main_arg8 V)
theorem val7_main_v1 (V : Valuation τ sig (Elt F)) : val7 V (no_index (Proc.devRef .tc main_v1)) = Spec.src (V (Proc.devRef .tc main_arg1)) :=
  (val7_keep V main_v1 (by decide)).trans (val6_main_v1 V)
theorem val7_main_v3 (V : Valuation τ sig (Elt F)) : val7 V (no_index (Proc.devRef .tc main_v3)) = Spec.dst (V (Proc.devRef .tc main_arg1)) :=
  (val7_keep V main_v3 (by decide)).trans (val6_main_v3 V)
set_option maxRecDepth 8192 in
set_option maxHeartbeats 2000000 in
theorem val7_main_v73 (V : Valuation τ sig (Elt F)) : val7 V (no_index (Proc.devRef .tc main_v73)) = Spec.elu (Spec.bnorm (Spec.conv (Spec.dot (V (Proc.devRef .tc main_arg0)) (V (Proc.devRef .tc main_arg3))) (V (Proc.devRef .tc main_arg1)) (V (Proc.devRef .tc main_arg4))) (V (Proc.devRef .tc main_arg5)) (V (Proc.devRef .tc main_arg6))) := by
  unfold val7
  simp only [s5]
  after_results_simp
  simp only [val6_main_v72]
  rfl

/-- The contents after the first 8 pieces. -/
def val8 (V : Valuation τ sig (Elt F)) : Valuation τ sig (Elt F) := after s6 (val7 V)
/-- The buffers piece `s6` writes. -/
abbrev s6_W : List (Ref sig .tc) := [main_v74]
set_option maxRecDepth 8192 in
theorem s6_writes : (s6 : List (HloOp τ sig (Elt F))).Forall fun op => op.writes ⊆ (s6_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer piece `s6` does not write keeps its contents through it. -/
theorem val8_keep (V : Valuation τ sig (Elt F)) (r : Ref sig .tc) (h : r ∉ s6_W) :
    val8 V (Proc.devRef .tc r) = val7 V (Proc.devRef .tc r) :=
  after_of_writes_sub s6 _ s6_writes h
theorem val8_main_arg0 (V : Valuation τ sig (Elt F)) : val8 V (no_index (Proc.devRef .tc main_arg0)) = V (Proc.devRef .tc main_arg0) :=
  (val8_keep V main_arg0 (by decide)).trans (val7_main_arg0 V)
theorem val8_main_arg1 (V : Valuation τ sig (Elt F)) : val8 V (no_index (Proc.devRef .tc main_arg1)) = V (Proc.devRef .tc main_arg1) :=
  (val8_keep V main_arg1 (by decide)).trans (val7_main_arg1 V)
theorem val8_main_arg2 (V : Valuation τ sig (Elt F)) : val8 V (no_index (Proc.devRef .tc main_arg2)) = V (Proc.devRef .tc main_arg2) :=
  (val8_keep V main_arg2 (by decide)).trans (val7_main_arg2 V)
theorem val8_main_arg3 (V : Valuation τ sig (Elt F)) : val8 V (no_index (Proc.devRef .tc main_arg3)) = V (Proc.devRef .tc main_arg3) :=
  (val8_keep V main_arg3 (by decide)).trans (val7_main_arg3 V)
theorem val8_main_arg4 (V : Valuation τ sig (Elt F)) : val8 V (no_index (Proc.devRef .tc main_arg4)) = V (Proc.devRef .tc main_arg4) :=
  (val8_keep V main_arg4 (by decide)).trans (val7_main_arg4 V)
theorem val8_main_arg5 (V : Valuation τ sig (Elt F)) : val8 V (no_index (Proc.devRef .tc main_arg5)) = V (Proc.devRef .tc main_arg5) :=
  (val8_keep V main_arg5 (by decide)).trans (val7_main_arg5 V)
theorem val8_main_arg6 (V : Valuation τ sig (Elt F)) : val8 V (no_index (Proc.devRef .tc main_arg6)) = V (Proc.devRef .tc main_arg6) :=
  (val8_keep V main_arg6 (by decide)).trans (val7_main_arg6 V)
theorem val8_main_arg7 (V : Valuation τ sig (Elt F)) : val8 V (no_index (Proc.devRef .tc main_arg7)) = V (Proc.devRef .tc main_arg7) :=
  (val8_keep V main_arg7 (by decide)).trans (val7_main_arg7 V)
theorem val8_main_arg8 (V : Valuation τ sig (Elt F)) : val8 V (no_index (Proc.devRef .tc main_arg8)) = V (Proc.devRef .tc main_arg8) :=
  (val8_keep V main_arg8 (by decide)).trans (val7_main_arg8 V)
theorem val8_main_v1 (V : Valuation τ sig (Elt F)) : val8 V (no_index (Proc.devRef .tc main_v1)) = Spec.src (V (Proc.devRef .tc main_arg1)) :=
  (val8_keep V main_v1 (by decide)).trans (val7_main_v1 V)
theorem val8_main_v3 (V : Valuation τ sig (Elt F)) : val8 V (no_index (Proc.devRef .tc main_v3)) = Spec.dst (V (Proc.devRef .tc main_arg1)) :=
  (val8_keep V main_v3 (by decide)).trans (val7_main_v3 V)
set_option maxRecDepth 8192 in
set_option maxHeartbeats 2000000 in
theorem val8_main_v74 (V : Valuation τ sig (Elt F)) : val8 V (no_index (Proc.devRef .tc main_v74)) = Spec.dot (Spec.elu (Spec.bnorm (Spec.conv (Spec.dot (V (Proc.devRef .tc main_arg0)) (V (Proc.devRef .tc main_arg3))) (V (Proc.devRef .tc main_arg1)) (V (Proc.devRef .tc main_arg4))) (V (Proc.devRef .tc main_arg5)) (V (Proc.devRef .tc main_arg6)))) (V (Proc.devRef .tc main_arg7)) := by
  unfold val8
  simp only [s6]
  after_results_simp
  simp only [val7_main_arg7, val7_main_v73]
  rfl

/-- The contents after the first 9 pieces. -/
def val9 (V : Valuation τ sig (Elt F)) : Valuation τ sig (Elt F) := after s7 (val8 V)
/-- The buffers piece `s7` writes. -/
abbrev s7_W : List (Ref sig .tc) := [main_cst_13, main_v75, main_cst_14, main_v76, main_v77, main_v78, main_cst_15, main_v79, main_v80, main_v81]
set_option maxRecDepth 8192 in
theorem s7_writes : (s7 : List (HloOp τ sig (Elt F))).Forall fun op => op.writes ⊆ (s7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s7` does not write keeps its contents through it. -/
theorem val9_keep (V : Valuation τ sig (Elt F)) (r : Ref sig .tc) (h : r ∉ s7_W) :
    val9 V (Proc.devRef .tc r) = val8 V (Proc.devRef .tc r) :=
  after_of_writes_sub s7 _ s7_writes h
theorem val9_main_arg0 (V : Valuation τ sig (Elt F)) : val9 V (no_index (Proc.devRef .tc main_arg0)) = V (Proc.devRef .tc main_arg0) :=
  (val9_keep V main_arg0 (by decide)).trans (val8_main_arg0 V)
theorem val9_main_arg1 (V : Valuation τ sig (Elt F)) : val9 V (no_index (Proc.devRef .tc main_arg1)) = V (Proc.devRef .tc main_arg1) :=
  (val9_keep V main_arg1 (by decide)).trans (val8_main_arg1 V)
theorem val9_main_arg2 (V : Valuation τ sig (Elt F)) : val9 V (no_index (Proc.devRef .tc main_arg2)) = V (Proc.devRef .tc main_arg2) :=
  (val9_keep V main_arg2 (by decide)).trans (val8_main_arg2 V)
theorem val9_main_arg3 (V : Valuation τ sig (Elt F)) : val9 V (no_index (Proc.devRef .tc main_arg3)) = V (Proc.devRef .tc main_arg3) :=
  (val9_keep V main_arg3 (by decide)).trans (val8_main_arg3 V)
theorem val9_main_arg4 (V : Valuation τ sig (Elt F)) : val9 V (no_index (Proc.devRef .tc main_arg4)) = V (Proc.devRef .tc main_arg4) :=
  (val9_keep V main_arg4 (by decide)).trans (val8_main_arg4 V)
theorem val9_main_arg5 (V : Valuation τ sig (Elt F)) : val9 V (no_index (Proc.devRef .tc main_arg5)) = V (Proc.devRef .tc main_arg5) :=
  (val9_keep V main_arg5 (by decide)).trans (val8_main_arg5 V)
theorem val9_main_arg6 (V : Valuation τ sig (Elt F)) : val9 V (no_index (Proc.devRef .tc main_arg6)) = V (Proc.devRef .tc main_arg6) :=
  (val9_keep V main_arg6 (by decide)).trans (val8_main_arg6 V)
theorem val9_main_arg7 (V : Valuation τ sig (Elt F)) : val9 V (no_index (Proc.devRef .tc main_arg7)) = V (Proc.devRef .tc main_arg7) :=
  (val9_keep V main_arg7 (by decide)).trans (val8_main_arg7 V)
theorem val9_main_arg8 (V : Valuation τ sig (Elt F)) : val9 V (no_index (Proc.devRef .tc main_arg8)) = V (Proc.devRef .tc main_arg8) :=
  (val9_keep V main_arg8 (by decide)).trans (val8_main_arg8 V)
theorem val9_main_v1 (V : Valuation τ sig (Elt F)) : val9 V (no_index (Proc.devRef .tc main_v1)) = Spec.src (V (Proc.devRef .tc main_arg1)) :=
  (val9_keep V main_v1 (by decide)).trans (val8_main_v1 V)
theorem val9_main_v3 (V : Valuation τ sig (Elt F)) : val9 V (no_index (Proc.devRef .tc main_v3)) = Spec.dst (V (Proc.devRef .tc main_arg1)) :=
  (val9_keep V main_v3 (by decide)).trans (val8_main_v3 V)
theorem val9_main_v74 (V : Valuation τ sig (Elt F)) : val9 V (no_index (Proc.devRef .tc main_v74)) = Spec.dot (Spec.elu (Spec.bnorm (Spec.conv (Spec.dot (V (Proc.devRef .tc main_arg0)) (V (Proc.devRef .tc main_arg3))) (V (Proc.devRef .tc main_arg1)) (V (Proc.devRef .tc main_arg4))) (V (Proc.devRef .tc main_arg5)) (V (Proc.devRef .tc main_arg6)))) (V (Proc.devRef .tc main_arg7)) :=
  (val9_keep V main_v74 (by decide)).trans (val8_main_v74 V)
set_option maxRecDepth 8192 in
set_option maxHeartbeats 2000000 in
theorem val9_main_v81 (V : Valuation τ sig (Elt F)) : val9 V (no_index (Proc.devRef .tc main_v81)) = Spec.dinv (V (Proc.devRef .tc main_arg1)) := by
  unfold val9
  simp only [s7]
  after_results_simp
  simp only [val8_main_v3]
  rfl

/-- The contents after the first 10 pieces. -/
def val10 (V : Valuation τ sig (Elt F)) : Valuation τ sig (Elt F) := after s8 (val9 V)
/-- The buffers piece `s8` writes. -/
abbrev s8_W : List (Ref sig .tc) := [main_c_16, main_v82, main_v83, main_c_17, main_v84, main_v85, main_v86, main_v87, main_v88, main_c_18, main_v89, main_v90, main_c_19, main_v91, main_v92, main_v93, main_v94, main_v95, main_v96]
set_option maxRecDepth 8192 in
theorem s8_writes : (s8 : List (HloOp τ sig (Elt F))).Forall fun op => op.writes ⊆ (s8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s8` does not write keeps its contents through it. -/
theorem val10_keep (V : Valuation τ sig (Elt F)) (r : Ref sig .tc) (h : r ∉ s8_W) :
    val10 V (Proc.devRef .tc r) = val9 V (Proc.devRef .tc r) :=
  after_of_writes_sub s8 _ s8_writes h
theorem val10_main_arg0 (V : Valuation τ sig (Elt F)) : val10 V (no_index (Proc.devRef .tc main_arg0)) = V (Proc.devRef .tc main_arg0) :=
  (val10_keep V main_arg0 (by decide)).trans (val9_main_arg0 V)
theorem val10_main_arg1 (V : Valuation τ sig (Elt F)) : val10 V (no_index (Proc.devRef .tc main_arg1)) = V (Proc.devRef .tc main_arg1) :=
  (val10_keep V main_arg1 (by decide)).trans (val9_main_arg1 V)
theorem val10_main_arg2 (V : Valuation τ sig (Elt F)) : val10 V (no_index (Proc.devRef .tc main_arg2)) = V (Proc.devRef .tc main_arg2) :=
  (val10_keep V main_arg2 (by decide)).trans (val9_main_arg2 V)
theorem val10_main_arg3 (V : Valuation τ sig (Elt F)) : val10 V (no_index (Proc.devRef .tc main_arg3)) = V (Proc.devRef .tc main_arg3) :=
  (val10_keep V main_arg3 (by decide)).trans (val9_main_arg3 V)
theorem val10_main_arg4 (V : Valuation τ sig (Elt F)) : val10 V (no_index (Proc.devRef .tc main_arg4)) = V (Proc.devRef .tc main_arg4) :=
  (val10_keep V main_arg4 (by decide)).trans (val9_main_arg4 V)
theorem val10_main_arg5 (V : Valuation τ sig (Elt F)) : val10 V (no_index (Proc.devRef .tc main_arg5)) = V (Proc.devRef .tc main_arg5) :=
  (val10_keep V main_arg5 (by decide)).trans (val9_main_arg5 V)
theorem val10_main_arg6 (V : Valuation τ sig (Elt F)) : val10 V (no_index (Proc.devRef .tc main_arg6)) = V (Proc.devRef .tc main_arg6) :=
  (val10_keep V main_arg6 (by decide)).trans (val9_main_arg6 V)
theorem val10_main_arg7 (V : Valuation τ sig (Elt F)) : val10 V (no_index (Proc.devRef .tc main_arg7)) = V (Proc.devRef .tc main_arg7) :=
  (val10_keep V main_arg7 (by decide)).trans (val9_main_arg7 V)
theorem val10_main_arg8 (V : Valuation τ sig (Elt F)) : val10 V (no_index (Proc.devRef .tc main_arg8)) = V (Proc.devRef .tc main_arg8) :=
  (val10_keep V main_arg8 (by decide)).trans (val9_main_arg8 V)
theorem val10_main_v1 (V : Valuation τ sig (Elt F)) : val10 V (no_index (Proc.devRef .tc main_v1)) = Spec.src (V (Proc.devRef .tc main_arg1)) :=
  (val10_keep V main_v1 (by decide)).trans (val9_main_v1 V)
theorem val10_main_v3 (V : Valuation τ sig (Elt F)) : val10 V (no_index (Proc.devRef .tc main_v3)) = Spec.dst (V (Proc.devRef .tc main_arg1)) :=
  (val10_keep V main_v3 (by decide)).trans (val9_main_v3 V)
theorem val10_main_v74 (V : Valuation τ sig (Elt F)) : val10 V (no_index (Proc.devRef .tc main_v74)) = Spec.dot (Spec.elu (Spec.bnorm (Spec.conv (Spec.dot (V (Proc.devRef .tc main_arg0)) (V (Proc.devRef .tc main_arg3))) (V (Proc.devRef .tc main_arg1)) (V (Proc.devRef .tc main_arg4))) (V (Proc.devRef .tc main_arg5)) (V (Proc.devRef .tc main_arg6)))) (V (Proc.devRef .tc main_arg7)) :=
  (val10_keep V main_v74 (by decide)).trans (val9_main_v74 V)
theorem val10_main_v81 (V : Valuation τ sig (Elt F)) : val10 V (no_index (Proc.devRef .tc main_v81)) = Spec.dinv (V (Proc.devRef .tc main_arg1)) :=
  (val10_keep V main_v81 (by decide)).trans (val9_main_v81 V)
set_option maxRecDepth 8192 in
set_option maxHeartbeats 2000000 in
theorem val10_main_v96 (V : Valuation τ sig (Elt F)) : val10 V (no_index (Proc.devRef .tc main_v96)) = Spec.coef (V (Proc.devRef .tc main_arg1)) := by
  unfold val10
  simp only [s8]
  after_results_simp
  simp only [val9_main_v3, val9_main_v81, val9_main_v1]
  rfl

/-- The contents after the first 11 pieces. -/
def val11 (V : Valuation τ sig (Elt F)) : Valuation τ sig (Elt F) := after s9a (val10 V)
/-- The buffers piece `s9a` writes. -/
abbrev s9a_W : List (Ref sig .tc) := [main_c_20]
set_option maxRecDepth 8192 in
theorem s9a_writes : (s9a : List (HloOp τ sig (Elt F))).Forall fun op => op.writes ⊆ (s9a_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer piece `s9a` does not write keeps its contents through it. -/
theorem val11_keep (V : Valuation τ sig (Elt F)) (r : Ref sig .tc) (h : r ∉ s9a_W) :
    val11 V (Proc.devRef .tc r) = val10 V (Proc.devRef .tc r) :=
  after_of_writes_sub s9a _ s9a_writes h
theorem val11_main_arg0 (V : Valuation τ sig (Elt F)) : val11 V (no_index (Proc.devRef .tc main_arg0)) = V (Proc.devRef .tc main_arg0) :=
  (val11_keep V main_arg0 (by decide)).trans (val10_main_arg0 V)
theorem val11_main_arg1 (V : Valuation τ sig (Elt F)) : val11 V (no_index (Proc.devRef .tc main_arg1)) = V (Proc.devRef .tc main_arg1) :=
  (val11_keep V main_arg1 (by decide)).trans (val10_main_arg1 V)
theorem val11_main_arg2 (V : Valuation τ sig (Elt F)) : val11 V (no_index (Proc.devRef .tc main_arg2)) = V (Proc.devRef .tc main_arg2) :=
  (val11_keep V main_arg2 (by decide)).trans (val10_main_arg2 V)
theorem val11_main_arg3 (V : Valuation τ sig (Elt F)) : val11 V (no_index (Proc.devRef .tc main_arg3)) = V (Proc.devRef .tc main_arg3) :=
  (val11_keep V main_arg3 (by decide)).trans (val10_main_arg3 V)
theorem val11_main_arg4 (V : Valuation τ sig (Elt F)) : val11 V (no_index (Proc.devRef .tc main_arg4)) = V (Proc.devRef .tc main_arg4) :=
  (val11_keep V main_arg4 (by decide)).trans (val10_main_arg4 V)
theorem val11_main_arg5 (V : Valuation τ sig (Elt F)) : val11 V (no_index (Proc.devRef .tc main_arg5)) = V (Proc.devRef .tc main_arg5) :=
  (val11_keep V main_arg5 (by decide)).trans (val10_main_arg5 V)
theorem val11_main_arg6 (V : Valuation τ sig (Elt F)) : val11 V (no_index (Proc.devRef .tc main_arg6)) = V (Proc.devRef .tc main_arg6) :=
  (val11_keep V main_arg6 (by decide)).trans (val10_main_arg6 V)
theorem val11_main_arg7 (V : Valuation τ sig (Elt F)) : val11 V (no_index (Proc.devRef .tc main_arg7)) = V (Proc.devRef .tc main_arg7) :=
  (val11_keep V main_arg7 (by decide)).trans (val10_main_arg7 V)
theorem val11_main_arg8 (V : Valuation τ sig (Elt F)) : val11 V (no_index (Proc.devRef .tc main_arg8)) = V (Proc.devRef .tc main_arg8) :=
  (val11_keep V main_arg8 (by decide)).trans (val10_main_arg8 V)
theorem val11_main_v1 (V : Valuation τ sig (Elt F)) : val11 V (no_index (Proc.devRef .tc main_v1)) = Spec.src (V (Proc.devRef .tc main_arg1)) :=
  (val11_keep V main_v1 (by decide)).trans (val10_main_v1 V)
theorem val11_main_v3 (V : Valuation τ sig (Elt F)) : val11 V (no_index (Proc.devRef .tc main_v3)) = Spec.dst (V (Proc.devRef .tc main_arg1)) :=
  (val11_keep V main_v3 (by decide)).trans (val10_main_v3 V)
theorem val11_main_v74 (V : Valuation τ sig (Elt F)) : val11 V (no_index (Proc.devRef .tc main_v74)) = Spec.dot (Spec.elu (Spec.bnorm (Spec.conv (Spec.dot (V (Proc.devRef .tc main_arg0)) (V (Proc.devRef .tc main_arg3))) (V (Proc.devRef .tc main_arg1)) (V (Proc.devRef .tc main_arg4))) (V (Proc.devRef .tc main_arg5)) (V (Proc.devRef .tc main_arg6)))) (V (Proc.devRef .tc main_arg7)) :=
  (val11_keep V main_v74 (by decide)).trans (val10_main_v74 V)
theorem val11_main_v81 (V : Valuation τ sig (Elt F)) : val11 V (no_index (Proc.devRef .tc main_v81)) = Spec.dinv (V (Proc.devRef .tc main_arg1)) :=
  (val11_keep V main_v81 (by decide)).trans (val10_main_v81 V)
theorem val11_main_v96 (V : Valuation τ sig (Elt F)) : val11 V (no_index (Proc.devRef .tc main_v96)) = Spec.coef (V (Proc.devRef .tc main_arg1)) :=
  (val11_keep V main_v96 (by decide)).trans (val10_main_v96 V)
set_option maxRecDepth 8192 in
set_option maxHeartbeats 2000000 in
theorem val11_main_c_20 (V : Valuation τ sig (Elt F)) : val11 V (no_index (Proc.devRef .tc main_c_20)) = constantI S_ 32 0#32 := by
  unfold val11
  simp only [s9a]
  after_results_simp

/-- The contents after the first 12 pieces. -/
def val12 (V : Valuation τ sig (Elt F)) : Valuation τ sig (Elt F) := after s9b (val11 V)
/-- The buffers piece `s9b` writes. -/
abbrev s9b_W : List (Ref sig .tc) := [main_v97, main_v98, main_c_21, main_v99, main_v100, main_v101, main_v102, main_v103, main_v104, main_v105, main_v106, main_cst_22, main_v107, main_v108, main_v109, main_v110, main_v111, main_v112, main_v113, main_v114, main_v115, main_v116, main_v117]
set_option maxRecDepth 8192 in
theorem s9b_writes : (s9b : List (HloOp τ sig (Elt F))).Forall fun op => op.writes ⊆ (s9b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s9b` does not write keeps its contents through it. -/
theorem val12_keep (V : Valuation τ sig (Elt F)) (r : Ref sig .tc) (h : r ∉ s9b_W) :
    val12 V (Proc.devRef .tc r) = val11 V (Proc.devRef .tc r) :=
  after_of_writes_sub s9b _ s9b_writes h
theorem val12_main_arg0 (V : Valuation τ sig (Elt F)) : val12 V (no_index (Proc.devRef .tc main_arg0)) = V (Proc.devRef .tc main_arg0) :=
  (val12_keep V main_arg0 (by decide)).trans (val11_main_arg0 V)
theorem val12_main_arg1 (V : Valuation τ sig (Elt F)) : val12 V (no_index (Proc.devRef .tc main_arg1)) = V (Proc.devRef .tc main_arg1) :=
  (val12_keep V main_arg1 (by decide)).trans (val11_main_arg1 V)
theorem val12_main_arg2 (V : Valuation τ sig (Elt F)) : val12 V (no_index (Proc.devRef .tc main_arg2)) = V (Proc.devRef .tc main_arg2) :=
  (val12_keep V main_arg2 (by decide)).trans (val11_main_arg2 V)
theorem val12_main_arg3 (V : Valuation τ sig (Elt F)) : val12 V (no_index (Proc.devRef .tc main_arg3)) = V (Proc.devRef .tc main_arg3) :=
  (val12_keep V main_arg3 (by decide)).trans (val11_main_arg3 V)
theorem val12_main_arg4 (V : Valuation τ sig (Elt F)) : val12 V (no_index (Proc.devRef .tc main_arg4)) = V (Proc.devRef .tc main_arg4) :=
  (val12_keep V main_arg4 (by decide)).trans (val11_main_arg4 V)
theorem val12_main_arg5 (V : Valuation τ sig (Elt F)) : val12 V (no_index (Proc.devRef .tc main_arg5)) = V (Proc.devRef .tc main_arg5) :=
  (val12_keep V main_arg5 (by decide)).trans (val11_main_arg5 V)
theorem val12_main_arg6 (V : Valuation τ sig (Elt F)) : val12 V (no_index (Proc.devRef .tc main_arg6)) = V (Proc.devRef .tc main_arg6) :=
  (val12_keep V main_arg6 (by decide)).trans (val11_main_arg6 V)
theorem val12_main_arg7 (V : Valuation τ sig (Elt F)) : val12 V (no_index (Proc.devRef .tc main_arg7)) = V (Proc.devRef .tc main_arg7) :=
  (val12_keep V main_arg7 (by decide)).trans (val11_main_arg7 V)
theorem val12_main_arg8 (V : Valuation τ sig (Elt F)) : val12 V (no_index (Proc.devRef .tc main_arg8)) = V (Proc.devRef .tc main_arg8) :=
  (val12_keep V main_arg8 (by decide)).trans (val11_main_arg8 V)
set_option maxRecDepth 8192 in
set_option maxHeartbeats 2000000 in
theorem val12_main_v117 (V : Valuation τ sig (Elt F)) : val12 V (no_index (Proc.devRef .tc main_v117)) = Spec.out117 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold val12
  simp only [s9b]
  after_results_simp
  simp only [val11_main_arg8, val11_main_v81, val11_main_v74, val11_main_v96, val11_main_v1, val11_main_c_20, val11_main_v3]
  rfl

/-- The contents after the first 13 pieces. -/
def val13 (V : Valuation τ sig (Elt F)) : Valuation τ sig (Elt F) := after s10 (val12 V)
/-- The buffers piece `s10` writes. -/
abbrev s10_W : List (Ref sig .tc) := [main_cst_23, main_v118, main_v119, main_v120, main_cst_24, main_v121, main_cst_25, main_v122, main_v123, main_v124, main_cst_26, main_v125, main_v126, main_v127, main_v128, main_v129]
set_option maxRecDepth 8192 in
theorem s10_writes : (s10 : List (HloOp τ sig (Elt F))).Forall fun op => op.writes ⊆ (s10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer piece `s10` does not write keeps its contents through it. -/
theorem val13_keep (V : Valuation τ sig (Elt F)) (r : Ref sig .tc) (h : r ∉ s10_W) :
    val13 V (Proc.devRef .tc r) = val12 V (Proc.devRef .tc r) :=
  after_of_writes_sub s10 _ s10_writes h
theorem val13_main_arg0 (V : Valuation τ sig (Elt F)) : val13 V (no_index (Proc.devRef .tc main_arg0)) = V (Proc.devRef .tc main_arg0) :=
  (val13_keep V main_arg0 (by decide)).trans (val12_main_arg0 V)
theorem val13_main_arg1 (V : Valuation τ sig (Elt F)) : val13 V (no_index (Proc.devRef .tc main_arg1)) = V (Proc.devRef .tc main_arg1) :=
  (val13_keep V main_arg1 (by decide)).trans (val12_main_arg1 V)
theorem val13_main_arg2 (V : Valuation τ sig (Elt F)) : val13 V (no_index (Proc.devRef .tc main_arg2)) = V (Proc.devRef .tc main_arg2) :=
  (val13_keep V main_arg2 (by decide)).trans (val12_main_arg2 V)
theorem val13_main_arg3 (V : Valuation τ sig (Elt F)) : val13 V (no_index (Proc.devRef .tc main_arg3)) = V (Proc.devRef .tc main_arg3) :=
  (val13_keep V main_arg3 (by decide)).trans (val12_main_arg3 V)
theorem val13_main_arg4 (V : Valuation τ sig (Elt F)) : val13 V (no_index (Proc.devRef .tc main_arg4)) = V (Proc.devRef .tc main_arg4) :=
  (val13_keep V main_arg4 (by decide)).trans (val12_main_arg4 V)
theorem val13_main_arg5 (V : Valuation τ sig (Elt F)) : val13 V (no_index (Proc.devRef .tc main_arg5)) = V (Proc.devRef .tc main_arg5) :=
  (val13_keep V main_arg5 (by decide)).trans (val12_main_arg5 V)
theorem val13_main_arg6 (V : Valuation τ sig (Elt F)) : val13 V (no_index (Proc.devRef .tc main_arg6)) = V (Proc.devRef .tc main_arg6) :=
  (val13_keep V main_arg6 (by decide)).trans (val12_main_arg6 V)
theorem val13_main_arg7 (V : Valuation τ sig (Elt F)) : val13 V (no_index (Proc.devRef .tc main_arg7)) = V (Proc.devRef .tc main_arg7) :=
  (val13_keep V main_arg7 (by decide)).trans (val12_main_arg7 V)
theorem val13_main_arg8 (V : Valuation τ sig (Elt F)) : val13 V (no_index (Proc.devRef .tc main_arg8)) = V (Proc.devRef .tc main_arg8) :=
  (val13_keep V main_arg8 (by decide)).trans (val12_main_arg8 V)
theorem val13_main_v117 (V : Valuation τ sig (Elt F)) : val13 V (no_index (Proc.devRef .tc main_v117)) = Spec.out117 (V (Proc.devRef .tc main_arg0)) (V (Proc.devRef .tc main_arg1)) (V (Proc.devRef .tc main_arg3)) (V (Proc.devRef .tc main_arg4)) (V (Proc.devRef .tc main_arg5)) (V (Proc.devRef .tc main_arg6)) (V (Proc.devRef .tc main_arg7)) (V (Proc.devRef .tc main_arg8)) :=
  (val13_keep V main_v117 (by decide)).trans (val12_main_v117 V)
set_option maxRecDepth 8192 in
set_option maxHeartbeats 2000000 in
theorem val13_main_v129 (V : Valuation τ sig (Elt F)) : val13 V (no_index (Proc.devRef .tc main_v129)) = Spec.out129 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold val13
  simp only [s10]
  after_results_simp
  simp only [val12_main_arg2, val12_main_v117]
  rfl

/-! ## The results -/

/-- The whole fold is the last stage's contents. -/
theorem after_ops (V : Valuation τ sig (Elt F)) : after ops V = val13 V := by
  show after (ops0 ++ (ops1 ++ ops2)) V = _
  simp only [ops0, ops1, ops2, after_app]
  rfl

/-- The first result: the node output, as the stage functions of the arguments' contents. -/
theorem res117 (V : Valuation τ sig (Elt F)) :
    after ops V (main_v117 : DevRef τ sig)
      = Spec.out117 (V (main_arg0 : DevRef τ sig)) (V (main_arg1 : DevRef τ sig)) (V (main_arg3 : DevRef τ sig))
          (V (main_arg4 : DevRef τ sig)) (V (main_arg5 : DevRef τ sig)) (V (main_arg6 : DevRef τ sig))
          (V (main_arg7 : DevRef τ sig)) (V (main_arg8 : DevRef τ sig)) := by
  rw [after_ops]; exact val13_main_v117 V

/-- The second result: the graph output, as the stage functions of the arguments' contents. -/
theorem res129 (V : Valuation τ sig (Elt F)) :
    after ops V (main_v129 : DevRef τ sig)
      = Spec.out129 (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  rw [after_ops]; exact val13_main_v129 V

/-- No operation writes argument 0's buffer. -/
theorem arg0_eq (V : Valuation τ sig (Elt F)) : after ops V (main_arg0 : DevRef τ sig) = V (main_arg0 : DevRef τ sig) := by
  rw [after_ops]; exact val13_main_arg0 V
/-- No operation writes argument 1's buffer. -/
theorem arg1_eq (V : Valuation τ sig (Elt F)) : after ops V (main_arg1 : DevRef τ sig) = V (main_arg1 : DevRef τ sig) := by
  rw [after_ops]; exact val13_main_arg1 V
/-- No operation writes argument 2's buffer. -/
theorem arg2_eq (V : Valuation τ sig (Elt F)) : after ops V (main_arg2 : DevRef τ sig) = V (main_arg2 : DevRef τ sig) := by
  rw [after_ops]; exact val13_main_arg2 V
/-- No operation writes argument 3's buffer. -/
theorem arg3_eq (V : Valuation τ sig (Elt F)) : after ops V (main_arg3 : DevRef τ sig) = V (main_arg3 : DevRef τ sig) := by
  rw [after_ops]; exact val13_main_arg3 V
/-- No operation writes argument 4's buffer. -/
theorem arg4_eq (V : Valuation τ sig (Elt F)) : after ops V (main_arg4 : DevRef τ sig) = V (main_arg4 : DevRef τ sig) := by
  rw [after_ops]; exact val13_main_arg4 V
/-- No operation writes argument 5's buffer. -/
theorem arg5_eq (V : Valuation τ sig (Elt F)) : after ops V (main_arg5 : DevRef τ sig) = V (main_arg5 : DevRef τ sig) := by
  rw [after_ops]; exact val13_main_arg5 V
/-- No operation writes argument 6's buffer. -/
theorem arg6_eq (V : Valuation τ sig (Elt F)) : after ops V (main_arg6 : DevRef τ sig) = V (main_arg6 : DevRef τ sig) := by
  rw [after_ops]; exact val13_main_arg6 V
/-- No operation writes argument 7's buffer. -/
theorem arg7_eq (V : Valuation τ sig (Elt F)) : after ops V (main_arg7 : DevRef τ sig) = V (main_arg7 : DevRef τ sig) := by
  rw [after_ops]; exact val13_main_arg7 V
/-- No operation writes argument 8's buffer. -/
theorem arg8_eq (V : Valuation τ sig (Elt F)) : after ops V (main_arg8 : DevRef τ sig) = V (main_arg8 : DevRef τ sig) := by
  rw [after_ops]; exact val13_main_arg8 V

/-- At the compiled mesh, for any float values, from any memory with zero counters: every weakly fair execution of @main
    terminates with the node output and the graph output at the stage functions of the arguments' launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v117) = Spec.out117 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v129) = Spec.out129 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v117).trans (res117 _), (h c main_v129).trans (res129 _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_main m ρ)

end Cert.ReferenceIdeal.RefRun

end
-- ==== Proof.lean ====
/- Two programs for one graph network, equal at the exact values.

   Both programs take node features x [50000, 64], an edge list [2, 800000] (row 0 the source, row 1 the destination of
   each edge), a graph id per node, and two layers' weights, biases and a normalisation's scale and shift, and return
   the node features after  convolution, batch normalisation, ELU, convolution  together with their mean over each
   graph's nodes. A convolution of features h is, per node n,
       sum over the edges e arriving at n of  d(src e) * d(dst e) * (h W)(src e)   +   d(n)^2 * (h W)(n)   +   b,
   with d(n) = 1 / sqrt (1 + the number of edges arriving at n).

   The reference computes everything with whole-array host operations. The kernel program computes the degree
   normaliser, the gathers and the scattered sums with the same host operations, and the dense parts in five tiled
   regions of ten row blocks each: the two products h W, the two combinations  aggregate + h * d^2 + b,  and the
   normalise-and-activate step, whose column means and reciprocal deviations it keeps as rows [1, 64] where the
   reference keeps vectors [64], and whose activation it spells  exp y - 1  where the reference spells
   1 * (exp (0 if y > 0 else y) - 1)  under the same comparison.

   At the exact values a float is an extended real and a change of float format is the identity, so each region's
   result array is a whole-array function of the arrays it read (the blocks tile the array), each of those functions is
   the reference's stage entry by entry, and the two programs' results are one function of the arguments. The
   equalities used are: a product's entry as a finite sum (in both spellings), reading a broadcast or a recast at an
   index, sum / 50000 taken entry by entry, and 1 * z = z; none of them needs the inputs to be finite, so the
   precondition is not opened.

   The kernel's idealization rewrote no operation, so there is nothing to preserve beyond the program's own text. -/
import proofs.«106839_j88029649698964_1_alg».proof.Defs
import proofs.«106839_j88029649698964_1_alg».proof.Proof.Gen.Kernel
import proofs.«106839_j88029649698964_1_alg».proof.Proof.Gen.Kernel.Skeleton
import proofs.«106839_j88029649698964_1_alg».proof.Proof.Gen.Kernel.Launch
import proofs.«106839_j88029649698964_1_alg».proof.Proof.Gen.Kernel.Points
import proofs.«106839_j88029649698964_1_alg».proof.Proof.Gen.Kernel.Frame
import proofs.«106839_j88029649698964_1_alg».proof.Proof.Gen.KernelIdeal
import proofs.«106839_j88029649698964_1_alg».proof.Proof.Gen.KernelIdeal.Skeleton
import proofs.«106839_j88029649698964_1_alg».proof.Proof.Gen.KernelIdeal.Launch
import proofs.«106839_j88029649698964_1_alg».proof.Proof.Gen.KernelIdeal.Points
import proofs.«106839_j88029649698964_1_alg».proof.Proof.Gen.KernelIdeal.Frame
import proofs.«106839_j88029649698964_1_alg».proof.Proof.Gen.ReferenceIdeal
import proofs.«106839_j88029649698964_1_alg».proof.Proof.Gen.Pre_finite_inputs
import proofs.«106839_j88029649698964_1_alg».proof.Proof.KRun
import proofs.«106839_j88029649698964_1_alg».proof.Proof.KValue
import proofs.«106839_j88029649698964_1_alg».proof.Proof.Bridge
import proofs.«106839_j88029649698964_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the kernel program at the exact values. -/
theorem frame_ki : Cert.frame_KernelIdeal := fun m ρ _ => Cert.KernelIdeal.Gen.frame m ρ

/-- So does the reference: its run, with the two results forgotten. -/
theorem frame_ri : Cert.frame_ReferenceIdeal := fun m ρ _ =>
  (θ_run Cert.ReferenceIdeal.defs _ _).mono (fun _ h c => (h c).2.2) (Cert.ReferenceIdeal.RefRun.run (F := Ideal) m ρ)

/-- The idealization rewrote nothing. -/
theorem preserves : Cert.preserves_Kernel_KernelIdeal := trivial

/-- From memories agreeing on the arguments both programs end with the same two results: the kernel program's are
    its stages composed, the reference's are its stages composed, and the stages agree one by one. -/
theorem algebraic : Cert.algebraic_KernelIdeal_ReferenceIdeal := by
  intro m ρ m' ρ' _ hagree
  refine ⟨fun c => Cert.KernelIdeal.KSpec.kout117 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.KSpec.kout129 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    ?_, ?_⟩
  · exact (θ_run Cert.KernelIdeal.defs _ _).mono
      (fun r h c => ⟨(h c).1.trans (Cert.KernelIdeal.KValue.node m ρ c),
        (h c).2.1.trans (Cert.KernelIdeal.KValue.graph m ρ c), (h c).2.2⟩)
      (Cert.KernelIdeal.KRun.run (F := Ideal) m ρ)
  · refine (θ_run Cert.ReferenceIdeal.defs _ _).mono (fun r h c => ?_) (Cert.ReferenceIdeal.RefRun.run (F := Ideal) m' ρ')
    obtain ⟨a0, a1, a2, a3, a4, a5, a6, a7, a8⟩ := hagree c
    refine ⟨(h c).1.trans ?_, (h c).2.1.trans ?_, (h c).2.2⟩
    · rw [a0, a1, a3, a4, a5, a6, a7, a8]
      exact (Cert.Bridge.kout117_eq _ _ _ _ _ _ _ _).symm
    · rw [a0, a1, a2, a3, a4, a5, a6, a7, a8]
      exact (Cert.Bridge.kout129_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
